-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x10x256 : Shape := ⟨3, ![16384, 10, 256]⟩
abbrev S_ : Shape := ⟨0, ![]⟩

class Facts : Prop where
  bcast_S_S16384x10x256 : S_.BroadcastsInDim S16384x10x256 (![] : Fin 0 → Fin S16384x10x256.rank)
  reducesTo_S16384x10x256_S_d0_1_2 : S16384x10x256.ReducesTo [0, 1, 2] S_
  h_S_ : 0 < S_.numel

variable [Facts]

def fn {F : FTy → Type} [FloatOps F] (main_arg0 : FVec F S16384x10x256 .f32) : IVec S_ 1 :=
  let main_v0 : FVec F S16384x10x256 .f32 := Host.absf main_arg0
  let main_cst : FVec F S_ .f32 := constant S_ .f32 0x7F800000#32
  let main_v1 : FVec F S16384x10x256 .f32 := broadcastInDim S16384x10x256 ![] bcast_S_S16384x10x256 main_cst
  let main_v2 : IVec S16384x10x256 1 := cmpf .olt main_v0 main_v1
  let main_c : IVec S_ 1 := constantI S_ 1 1#1
  let main_v3 : IVec S_ 1 := (fun x v => Host.reduce IntOp.andi x v reducesTo_S16384x10x256_S_d0_1_2 h_S_) main_v2 main_c
  main_v3
-- ==== Kernel.lean ====
abbrev S16384x10x256 : Shape := ⟨3, ![16384, 10, 256]⟩
abbrev S16384x16x256 : Shape := ⟨3, ![16384, 16, 256]⟩
abbrev S2x8x10x256 : Shape := ⟨4, ![2, 8, 10, 256]⟩
abbrev S2 : Shape := ⟨1, ![2]⟩
abbrev S1x8x10x256 : Shape := ⟨4, ![1, 8, 10, 256]⟩
abbrev S8x10x256 : Shape := ⟨3, ![8, 10, 256]⟩
abbrev S1 : Shape := ⟨1, ![1]⟩
abbrev S_ : Shape := ⟨0, ![]⟩
abbrev S1x8x1x256 : Shape := ⟨4, ![1, 8, 1, 256]⟩
abbrev S8x1x256 : Shape := ⟨3, ![8, 1, 256]⟩

abbrev nBuf : Table → Nat
  | .hbm => 2
  | .local .scVector .vmem => 1
  | _ => 0

abbrev bufTy : (tb : Table) → Fin (nBuf tb) → BufTy
  | .hbm, ⟨0, _⟩ => ⟨S16384x10x256, .f32⟩
  | .hbm, ⟨1, _⟩ => ⟨S16384x16x256, .f32⟩
  | .local .scVector .vmem, ⟨0, _⟩ => ⟨S2x8x10x256, .f32⟩
  | _, _ => ⟨S16384x10x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let c0_i32_5 : BitVec 32 := 0#32
  let c0_i32_6 : BitVec 32 := 0#32
  ![v3.toNat, 0, 0]
@[reducible] def k0_t1_loop : Scf.Loop 32 :=
  let c0_i32_24 : BitVec 32 := 0#32
  let c32_i32 : BitVec 32 := 32#32
  let v21 : BitVec 32 := Scalar.addi c0_i32_24 c32_i32
  let c1_i32_25 : BitVec 32 := 1#32
  ⟨c0_i32_24, v21, c1_i32_25⟩
def k0_off2 (i : grid0.Coords) (k0_t1 : Fin k0_t1_loop.trips) (c0_i32_400 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_399 : BitVec 32 := 2#32
  let v281 : BitVec 32 := Scalar.muli arg7 c2_i32_399
  let v282 : BitVec 32 := Scalar.addi v281 c0_i32_400
  let c8_i32_401 : BitVec 32 := 8#32
  let v283 : BitVec 32 := Scalar.muli v282 c8_i32_401
  let v284 : BitVec 32 := Scalar.addi v2 v283
  let c0_i32_407 : BitVec 32 := 0#32
  let c0_i32_408 : BitVec 32 := 0#32
  ![v284.toNat, 0, 0]
def k0_off3 (i : grid0.Coords) (k0_t1 : Fin k0_t1_loop.trips) (c0_i32_400 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_399 : BitVec 32 := 2#32
  let v281 : BitVec 32 := Scalar.muli arg7 c2_i32_399
  let v282 : BitVec 32 := Scalar.addi v281 c0_i32_400
  let c8_i32_414 : BitVec 32 := 8#32
  let v293 : BitVec 32 := Scalar.muli v282 c8_i32_414
  let v294 : BitVec 32 := Scalar.addi v2 v293
  let c0_i32_420 : BitVec 32 := 0#32
  let c0_i32_421 : BitVec 32 := 0#32
  ![v294.toNat, 0, 0]
def k0_off4 (i : grid0.Coords) (k0_t1 : Fin k0_t1_loop.trips) (c0_i32_400 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_399 : BitVec 32 := 2#32
  let v281 : BitVec 32 := Scalar.muli arg7 c2_i32_399
  let v282 : BitVec 32 := Scalar.addi v281 c0_i32_400
  let c8_i32_414 : BitVec 32 := 8#32
  let v293 : BitVec 32 := Scalar.muli v282 c8_i32_414
  let v294 : BitVec 32 := Scalar.addi v2 v293
  let c1_i32_432 : BitVec 32 := 1#32
  let c0_i32_433 : BitVec 32 := 0#32
  ![v294.toNat, 1, 0]
def k0_off5 (i : grid0.Coords) (k0_t1 : Fin k0_t1_loop.trips) (c0_i32_400 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_399 : BitVec 32 := 2#32
  let v281 : BitVec 32 := Scalar.muli arg7 c2_i32_399
  let v282 : BitVec 32 := Scalar.addi v281 c0_i32_400
  let c8_i32_414 : BitVec 32 := 8#32
  let v293 : BitVec 32 := Scalar.muli v282 c8_i32_414
  let v294 : BitVec 32 := Scalar.addi v2 v293
  let c2_i32_444 : BitVec 32 := 2#32
  let c0_i32_445 : BitVec 32 := 0#32
  ![v294.toNat, 2, 0]
def k0_off6 (i : grid0.Coords) (k0_t1 : Fin k0_t1_loop.trips) (c0_i32_400 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_399 : BitVec 32 := 2#32
  let v281 : BitVec 32 := Scalar.muli arg7 c2_i32_399
  let v282 : BitVec 32 := Scalar.addi v281 c0_i32_400
  let c8_i32_414 : BitVec 32 := 8#32
  let v293 : BitVec 32 := Scalar.muli v282 c8_i32_414
  let v294 : BitVec 32 := Scalar.addi v2 v293
  let c3_i32_456 : BitVec 32 := 3#32
  let c0_i32_457 : BitVec 32 := 0#32
  ![v294.toNat, 3, 0]
def k0_off7 (i : grid0.Coords) (k0_t1 : Fin k0_t1_loop.trips) (c0_i32_400 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_399 : BitVec 32 := 2#32
  let v281 : BitVec 32 := Scalar.muli arg7 c2_i32_399
  let v282 : BitVec 32 := Scalar.addi v281 c0_i32_400
  let c8_i32_414 : BitVec 32 := 8#32
  let v293 : BitVec 32 := Scalar.muli v282 c8_i32_414
  let v294 : BitVec 32 := Scalar.addi v2 v293
  let c4_i32_468 : BitVec 32 := 4#32
  let c0_i32_469 : BitVec 32 := 0#32
  ![v294.toNat, 4, 0]
def k0_off8 (i : grid0.Coords) (k0_t1 : Fin k0_t1_loop.trips) (c0_i32_400 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_399 : BitVec 32 := 2#32
  let v281 : BitVec 32 := Scalar.muli arg7 c2_i32_399
  let v282 : BitVec 32 := Scalar.addi v281 c0_i32_400
  let c8_i32_414 : BitVec 32 := 8#32
  let v293 : BitVec 32 := Scalar.muli v282 c8_i32_414
  let v294 : BitVec 32 := Scalar.addi v2 v293
  let c5_i32_480 : BitVec 32 := 5#32
  let c0_i32_481 : BitVec 32 := 0#32
  ![v294.toNat, 5, 0]
def k0_off9 (i : grid0.Coords) (k0_t1 : Fin k0_t1_loop.trips) (c0_i32_400 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_399 : BitVec 32 := 2#32
  let v281 : BitVec 32 := Scalar.muli arg7 c2_i32_399
  let v282 : BitVec 32 := Scalar.addi v281 c0_i32_400
  let c8_i32_414 : BitVec 32 := 8#32
  let v293 : BitVec 32 := Scalar.muli v282 c8_i32_414
  let v294 : BitVec 32 := Scalar.addi v2 v293
  let c6_i32_492 : BitVec 32 := 6#32
  let c0_i32_493 : BitVec 32 := 0#32
  ![v294.toNat, 6, 0]
def k0_off10 (i : grid0.Coords) (k0_t1 : Fin k0_t1_loop.trips) (c0_i32_400 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_399 : BitVec 32 := 2#32
  let v281 : BitVec 32 := Scalar.muli arg7 c2_i32_399
  let v282 : BitVec 32 := Scalar.addi v281 c0_i32_400
  let c8_i32_414 : BitVec 32 := 8#32
  let v293 : BitVec 32 := Scalar.muli v282 c8_i32_414
  let v294 : BitVec 32 := Scalar.addi v2 v293
  let c7_i32_504 : BitVec 32 := 7#32
  let c0_i32_505 : BitVec 32 := 0#32
  ![v294.toNat, 7, 0]
def k0_off11 (i : grid0.Coords) (k0_t1 : Fin k0_t1_loop.trips) (c0_i32_400 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_399 : BitVec 32 := 2#32
  let v281 : BitVec 32 := Scalar.muli arg7 c2_i32_399
  let v282 : BitVec 32 := Scalar.addi v281 c0_i32_400
  let c8_i32_414 : BitVec 32 := 8#32
  let v293 : BitVec 32 := Scalar.muli v282 c8_i32_414
  let v294 : BitVec 32 := Scalar.addi v2 v293
  let c8_i32_516 : BitVec 32 := 8#32
  let c0_i32_517 : BitVec 32 := 0#32
  ![v294.toNat, 8, 0]
def k0_off12 (i : grid0.Coords) (k0_t1 : Fin k0_t1_loop.trips) (c0_i32_400 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_399 : BitVec 32 := 2#32
  let v281 : BitVec 32 := Scalar.muli arg7 c2_i32_399
  let v282 : BitVec 32 := Scalar.addi v281 c0_i32_400
  let c8_i32_414 : BitVec 32 := 8#32
  let v293 : BitVec 32 := Scalar.muli v282 c8_i32_414
  let v294 : BitVec 32 := Scalar.addi v2 v293
  let c9_i32_528 : BitVec 32 := 9#32
  let c0_i32_529 : BitVec 32 := 0#32
  ![v294.toNat, 9, 0]
def k0_off13 (i : grid0.Coords) (k0_t1 : Fin k0_t1_loop.trips) (c0_i32_400 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_399 : BitVec 32 := 2#32
  let v281 : BitVec 32 := Scalar.muli arg7 c2_i32_399
  let v282 : BitVec 32 := Scalar.addi v281 c0_i32_400
  let c8_i32_414 : BitVec 32 := 8#32
  let v293 : BitVec 32 := Scalar.muli v282 c8_i32_414
  let v294 : BitVec 32 := Scalar.addi v2 v293
  let c10_i32_540 : BitVec 32 := 10#32
  let c0_i32_541 : BitVec 32 := 0#32
  ![v294.toNat, 10, 0]
def k0_off14 (i : grid0.Coords) (k0_t1 : Fin k0_t1_loop.trips) (c0_i32_400 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_399 : BitVec 32 := 2#32
  let v281 : BitVec 32 := Scalar.muli arg7 c2_i32_399
  let v282 : BitVec 32 := Scalar.addi v281 c0_i32_400
  let c8_i32_414 : BitVec 32 := 8#32
  let v293 : BitVec 32 := Scalar.muli v282 c8_i32_414
  let v294 : BitVec 32 := Scalar.addi v2 v293
  let c11_i32_552 : BitVec 32 := 11#32
  let c0_i32_553 : BitVec 32 := 0#32
  ![v294.toNat, 11, 0]
def k0_off15 (i : grid0.Coords) (k0_t1 : Fin k0_t1_loop.trips) (c0_i32_400 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_399 : BitVec 32 := 2#32
  let v281 : BitVec 32 := Scalar.muli arg7 c2_i32_399
  let v282 : BitVec 32 := Scalar.addi v281 c0_i32_400
  let c8_i32_414 : BitVec 32 := 8#32
  let v293 : BitVec 32 := Scalar.muli v282 c8_i32_414
  let v294 : BitVec 32 := Scalar.addi v2 v293
  let c12_i32_564 : BitVec 32 := 12#32
  let c0_i32_565 : BitVec 32 := 0#32
  ![v294.toNat, 12, 0]
def k0_off16 (i : grid0.Coords) (k0_t1 : Fin k0_t1_loop.trips) (c0_i32_400 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_399 : BitVec 32 := 2#32
  let v281 : BitVec 32 := Scalar.muli arg7 c2_i32_399
  let v282 : BitVec 32 := Scalar.addi v281 c0_i32_400
  let c8_i32_414 : BitVec 32 := 8#32
  let v293 : BitVec 32 := Scalar.muli v282 c8_i32_414
  let v294 : BitVec 32 := Scalar.addi v2 v293
  let c13_i32_576 : BitVec 32 := 13#32
  let c0_i32_577 : BitVec 32 := 0#32
  ![v294.toNat, 13, 0]
def k0_off17 (i : grid0.Coords) (k0_t1 : Fin k0_t1_loop.trips) (c0_i32_400 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_399 : BitVec 32 := 2#32
  let v281 : BitVec 32 := Scalar.muli arg7 c2_i32_399
  let v282 : BitVec 32 := Scalar.addi v281 c0_i32_400
  let c8_i32_414 : BitVec 32 := 8#32
  let v293 : BitVec 32 := Scalar.muli v282 c8_i32_414
  let v294 : BitVec 32 := Scalar.addi v2 v293
  let c14_i32_588 : BitVec 32 := 14#32
  let c0_i32_589 : BitVec 32 := 0#32
  ![v294.toNat, 14, 0]
def k0_off18 (i : grid0.Coords) (k0_t1 : Fin k0_t1_loop.trips) (c0_i32_400 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_399 : BitVec 32 := 2#32
  let v281 : BitVec 32 := Scalar.muli arg7 c2_i32_399
  let v282 : BitVec 32 := Scalar.addi v281 c0_i32_400
  let c8_i32_414 : BitVec 32 := 8#32
  let v293 : BitVec 32 := Scalar.muli v282 c8_i32_414
  let v294 : BitVec 32 := Scalar.addi v2 v293
  let c15_i32_600 : BitVec 32 := 15#32
  let c0_i32_601 : BitVec 32 := 0#32
  ![v294.toNat, 15, 0]
def k0_cond1 (k0_t1 : Fin k0_t1_loop.trips) : BitVec 1 :=
  let c0_i32_24 : BitVec 32 := 0#32
  let c1_i32_25 : BitVec 32 := 1#32
  let arg7 : BitVec 32 := Scf.iv c0_i32_24 c1_i32_25 k0_t1
  let c31_i32 : BitVec 32 := 31#32
  let v423 : BitVec 1 := Scalar.cmpi .slt arg7 c31_i32
  let v424 : BitVec 32 := Scalar.extui v423
  let c0_i32_607 : BitVec 32 := 0#32
  let v425 : BitVec 1 := Scalar.cmpi .ne v424 c0_i32_607
  v425

def k0_off19 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_399 : BitVec 32 := 2#32
  let v281 : BitVec 32 := Scalar.muli arg7 c2_i32_399
  let c0_i32_400 : BitVec 32 := 0#32
  let v282 : BitVec 32 := Scalar.addi v281 c0_i32_400
  let c8_i32_819 : BitVec 32 := 8#32
  let v571 : BitVec 32 := Scalar.muli v282 c8_i32_819
  let v572 : BitVec 32 := Scalar.addi v2 v571
  let c0_i32_825 : BitVec 32 := 0#32
  let c0_i32_826 : BitVec 32 := 0#32
  ![v572.toNat, 0, 0]
def k0_off20 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_399 : BitVec 32 := 2#32
  let v281 : BitVec 32 := Scalar.muli arg7 c2_i32_399
  let c0_i32_400 : BitVec 32 := 0#32
  let v282 : BitVec 32 := Scalar.addi v281 c0_i32_400
  let c8_i32_819 : BitVec 32 := 8#32
  let v571 : BitVec 32 := Scalar.muli v282 c8_i32_819
  let v572 : BitVec 32 := Scalar.addi v2 v571
  let c1_i32_837 : BitVec 32 := 1#32
  let c0_i32_838 : BitVec 32 := 0#32
  ![v572.toNat, 1, 0]
def k0_off21 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_399 : BitVec 32 := 2#32
  let v281 : BitVec 32 := Scalar.muli arg7 c2_i32_399
  let c0_i32_400 : BitVec 32 := 0#32
  let v282 : BitVec 32 := Scalar.addi v281 c0_i32_400
  let c8_i32_819 : BitVec 32 := 8#32
  let v571 : BitVec 32 := Scalar.muli v282 c8_i32_819
  let v572 : BitVec 32 := Scalar.addi v2 v571
  let c2_i32_849 : BitVec 32 := 2#32
  let c0_i32_850 : BitVec 32 := 0#32
  ![v572.toNat, 2, 0]
def k0_off22 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_399 : BitVec 32 := 2#32
  let v281 : BitVec 32 := Scalar.muli arg7 c2_i32_399
  let c0_i32_400 : BitVec 32 := 0#32
  let v282 : BitVec 32 := Scalar.addi v281 c0_i32_400
  let c8_i32_819 : BitVec 32 := 8#32
  let v571 : BitVec 32 := Scalar.muli v282 c8_i32_819
  let v572 : BitVec 32 := Scalar.addi v2 v571
  let c3_i32_861 : BitVec 32 := 3#32
  let c0_i32_862 : BitVec 32 := 0#32
  ![v572.toNat, 3, 0]
def k0_off23 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_399 : BitVec 32 := 2#32
  let v281 : BitVec 32 := Scalar.muli arg7 c2_i32_399
  let c0_i32_400 : BitVec 32 := 0#32
  let v282 : BitVec 32 := Scalar.addi v281 c0_i32_400
  let c8_i32_819 : BitVec 32 := 8#32
  let v571 : BitVec 32 := Scalar.muli v282 c8_i32_819
  let v572 : BitVec 32 := Scalar.addi v2 v571
  let c4_i32_873 : BitVec 32 := 4#32
  let c0_i32_874 : BitVec 32 := 0#32
  ![v572.toNat, 4, 0]
def k0_off24 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_399 : BitVec 32 := 2#32
  let v281 : BitVec 32 := Scalar.muli arg7 c2_i32_399
  let c0_i32_400 : BitVec 32 := 0#32
  let v282 : BitVec 32 := Scalar.addi v281 c0_i32_400
  let c8_i32_819 : BitVec 32 := 8#32
  let v571 : BitVec 32 := Scalar.muli v282 c8_i32_819
  let v572 : BitVec 32 := Scalar.addi v2 v571
  let c5_i32_885 : BitVec 32 := 5#32
  let c0_i32_886 : BitVec 32 := 0#32
  ![v572.toNat, 5, 0]
def k0_off25 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_399 : BitVec 32 := 2#32
  let v281 : BitVec 32 := Scalar.muli arg7 c2_i32_399
  let c0_i32_400 : BitVec 32 := 0#32
  let v282 : BitVec 32 := Scalar.addi v281 c0_i32_400
  let c8_i32_819 : BitVec 32 := 8#32
  let v571 : BitVec 32 := Scalar.muli v282 c8_i32_819
  let v572 : BitVec 32 := Scalar.addi v2 v571
  let c6_i32_897 : BitVec 32 := 6#32
  let c0_i32_898 : BitVec 32 := 0#32
  ![v572.toNat, 6, 0]
def k0_off26 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_399 : BitVec 32 := 2#32
  let v281 : BitVec 32 := Scalar.muli arg7 c2_i32_399
  let c0_i32_400 : BitVec 32 := 0#32
  let v282 : BitVec 32 := Scalar.addi v281 c0_i32_400
  let c8_i32_819 : BitVec 32 := 8#32
  let v571 : BitVec 32 := Scalar.muli v282 c8_i32_819
  let v572 : BitVec 32 := Scalar.addi v2 v571
  let c7_i32_909 : BitVec 32 := 7#32
  let c0_i32_910 : BitVec 32 := 0#32
  ![v572.toNat, 7, 0]
def k0_off27 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_399 : BitVec 32 := 2#32
  let v281 : BitVec 32 := Scalar.muli arg7 c2_i32_399
  let c0_i32_400 : BitVec 32 := 0#32
  let v282 : BitVec 32 := Scalar.addi v281 c0_i32_400
  let c8_i32_819 : BitVec 32 := 8#32
  let v571 : BitVec 32 := Scalar.muli v282 c8_i32_819
  let v572 : BitVec 32 := Scalar.addi v2 v571
  let c8_i32_921 : BitVec 32 := 8#32
  let c0_i32_922 : BitVec 32 := 0#32
  ![v572.toNat, 8, 0]
def k0_off28 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_399 : BitVec 32 := 2#32
  let v281 : BitVec 32 := Scalar.muli arg7 c2_i32_399
  let c0_i32_400 : BitVec 32 := 0#32
  let v282 : BitVec 32 := Scalar.addi v281 c0_i32_400
  let c8_i32_819 : BitVec 32 := 8#32
  let v571 : BitVec 32 := Scalar.muli v282 c8_i32_819
  let v572 : BitVec 32 := Scalar.addi v2 v571
  let c9_i32_933 : BitVec 32 := 9#32
  let c0_i32_934 : BitVec 32 := 0#32
  ![v572.toNat, 9, 0]
def k0_off29 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_399 : BitVec 32 := 2#32
  let v281 : BitVec 32 := Scalar.muli arg7 c2_i32_399
  let c0_i32_400 : BitVec 32 := 0#32
  let v282 : BitVec 32 := Scalar.addi v281 c0_i32_400
  let c8_i32_819 : BitVec 32 := 8#32
  let v571 : BitVec 32 := Scalar.muli v282 c8_i32_819
  let v572 : BitVec 32 := Scalar.addi v2 v571
  let c10_i32_945 : BitVec 32 := 10#32
  let c0_i32_946 : BitVec 32 := 0#32
  ![v572.toNat, 10, 0]
def k0_off30 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_399 : BitVec 32 := 2#32
  let v281 : BitVec 32 := Scalar.muli arg7 c2_i32_399
  let c0_i32_400 : BitVec 32 := 0#32
  let v282 : BitVec 32 := Scalar.addi v281 c0_i32_400
  let c8_i32_819 : BitVec 32 := 8#32
  let v571 : BitVec 32 := Scalar.muli v282 c8_i32_819
  let v572 : BitVec 32 := Scalar.addi v2 v571
  let c11_i32_957 : BitVec 32 := 11#32
  let c0_i32_958 : BitVec 32 := 0#32
  ![v572.toNat, 11, 0]
def k0_off31 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_399 : BitVec 32 := 2#32
  let v281 : BitVec 32 := Scalar.muli arg7 c2_i32_399
  let c0_i32_400 : BitVec 32 := 0#32
  let v282 : BitVec 32 := Scalar.addi v281 c0_i32_400
  let c8_i32_819 : BitVec 32 := 8#32
  let v571 : BitVec 32 := Scalar.muli v282 c8_i32_819
  let v572 : BitVec 32 := Scalar.addi v2 v571
  let c12_i32_969 : BitVec 32 := 12#32
  let c0_i32_970 : BitVec 32 := 0#32
  ![v572.toNat, 12, 0]
def k0_off32 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_399 : BitVec 32 := 2#32
  let v281 : BitVec 32 := Scalar.muli arg7 c2_i32_399
  let c0_i32_400 : BitVec 32 := 0#32
  let v282 : BitVec 32 := Scalar.addi v281 c0_i32_400
  let c8_i32_819 : BitVec 32 := 8#32
  let v571 : BitVec 32 := Scalar.muli v282 c8_i32_819
  let v572 : BitVec 32 := Scalar.addi v2 v571
  let c13_i32_981 : BitVec 32 := 13#32
  let c0_i32_982 : BitVec 32 := 0#32
  ![v572.toNat, 13, 0]
def k0_off33 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_399 : BitVec 32 := 2#32
  let v281 : BitVec 32 := Scalar.muli arg7 c2_i32_399
  let c0_i32_400 : BitVec 32 := 0#32
  let v282 : BitVec 32 := Scalar.addi v281 c0_i32_400
  let c8_i32_819 : BitVec 32 := 8#32
  let v571 : BitVec 32 := Scalar.muli v282 c8_i32_819
  let v572 : BitVec 32 := Scalar.addi v2 v571
  let c14_i32_993 : BitVec 32 := 14#32
  let c0_i32_994 : BitVec 32 := 0#32
  ![v572.toNat, 14, 0]
def k0_off34 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_399 : BitVec 32 := 2#32
  let v281 : BitVec 32 := Scalar.muli arg7 c2_i32_399
  let c0_i32_400 : BitVec 32 := 0#32
  let v282 : BitVec 32 := Scalar.addi v281 c0_i32_400
  let c8_i32_819 : BitVec 32 := 8#32
  let v571 : BitVec 32 := Scalar.muli v282 c8_i32_819
  let v572 : BitVec 32 := Scalar.addi v2 v571
  let c15_i32_1005 : BitVec 32 := 15#32
  let c0_i32_1006 : BitVec 32 := 0#32
  ![v572.toNat, 15, 0]
def k0_off35 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_399 : BitVec 32 := 2#32
  let v281 : BitVec 32 := Scalar.muli arg7 c2_i32_399
  let c0_i32_400 : BitVec 32 := 0#32
  let v282 : BitVec 32 := Scalar.addi v281 c0_i32_400
  let c2_i32_1012 : BitVec 32 := 2#32
  let v701 : BitVec 32 := Scalar.addi v282 c2_i32_1012
  let c8_i32_1013 : BitVec 32 := 8#32
  let v702 : BitVec 32 := Scalar.muli v701 c8_i32_1013
  let v703 : BitVec 32 := Scalar.addi v2 v702
  let c0_i32_1019 : BitVec 32 := 0#32
  let c0_i32_1020 : BitVec 32 := 0#32
  ![v703.toNat, 0, 0]
def k0_cond2 (k0_t1 : Fin k0_t1_loop.trips) : BitVec 1 :=
  let c0_i32_24 : BitVec 32 := 0#32
  let c1_i32_25 : BitVec 32 := 1#32
  let arg7 : BitVec 32 := Scf.iv c0_i32_24 c1_i32_25 k0_t1
  let c31_i32_816 : BitVec 32 := 31#32
  let v568 : BitVec 1 := Scalar.cmpi .slt arg7 c31_i32_816
  let v569 : BitVec 32 := Scalar.extui v568
  let c0_i32_817 : BitVec 32 := 0#32
  let v570 : BitVec 1 := Scalar.cmpi .ne v569 c0_i32_817
  v570

def k0_off36 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_608 : BitVec 32 := 2#32
  let v426 : BitVec 32 := Scalar.muli arg7 c2_i32_608
  let c1_i32_609 : BitVec 32 := 1#32
  let v427 : BitVec 32 := Scalar.addi v426 c1_i32_609
  let c8_i32_819 : BitVec 32 := 8#32
  let v571 : BitVec 32 := Scalar.muli v427 c8_i32_819
  let v572 : BitVec 32 := Scalar.addi v2 v571
  let c0_i32_825 : BitVec 32 := 0#32
  let c0_i32_826 : BitVec 32 := 0#32
  ![v572.toNat, 0, 0]
def k0_off37 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_608 : BitVec 32 := 2#32
  let v426 : BitVec 32 := Scalar.muli arg7 c2_i32_608
  let c1_i32_609 : BitVec 32 := 1#32
  let v427 : BitVec 32 := Scalar.addi v426 c1_i32_609
  let c8_i32_819 : BitVec 32 := 8#32
  let v571 : BitVec 32 := Scalar.muli v427 c8_i32_819
  let v572 : BitVec 32 := Scalar.addi v2 v571
  let c1_i32_837 : BitVec 32 := 1#32
  let c0_i32_838 : BitVec 32 := 0#32
  ![v572.toNat, 1, 0]
def k0_off38 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_608 : BitVec 32 := 2#32
  let v426 : BitVec 32 := Scalar.muli arg7 c2_i32_608
  let c1_i32_609 : BitVec 32 := 1#32
  let v427 : BitVec 32 := Scalar.addi v426 c1_i32_609
  let c8_i32_819 : BitVec 32 := 8#32
  let v571 : BitVec 32 := Scalar.muli v427 c8_i32_819
  let v572 : BitVec 32 := Scalar.addi v2 v571
  let c2_i32_849 : BitVec 32 := 2#32
  let c0_i32_850 : BitVec 32 := 0#32
  ![v572.toNat, 2, 0]
def k0_off39 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_608 : BitVec 32 := 2#32
  let v426 : BitVec 32 := Scalar.muli arg7 c2_i32_608
  let c1_i32_609 : BitVec 32 := 1#32
  let v427 : BitVec 32 := Scalar.addi v426 c1_i32_609
  let c8_i32_819 : BitVec 32 := 8#32
  let v571 : BitVec 32 := Scalar.muli v427 c8_i32_819
  let v572 : BitVec 32 := Scalar.addi v2 v571
  let c3_i32_861 : BitVec 32 := 3#32
  let c0_i32_862 : BitVec 32 := 0#32
  ![v572.toNat, 3, 0]
def k0_off40 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_608 : BitVec 32 := 2#32
  let v426 : BitVec 32 := Scalar.muli arg7 c2_i32_608
  let c1_i32_609 : BitVec 32 := 1#32
  let v427 : BitVec 32 := Scalar.addi v426 c1_i32_609
  let c8_i32_819 : BitVec 32 := 8#32
  let v571 : BitVec 32 := Scalar.muli v427 c8_i32_819
  let v572 : BitVec 32 := Scalar.addi v2 v571
  let c4_i32_873 : BitVec 32 := 4#32
  let c0_i32_874 : BitVec 32 := 0#32
  ![v572.toNat, 4, 0]
def k0_off41 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_608 : BitVec 32 := 2#32
  let v426 : BitVec 32 := Scalar.muli arg7 c2_i32_608
  let c1_i32_609 : BitVec 32 := 1#32
  let v427 : BitVec 32 := Scalar.addi v426 c1_i32_609
  let c8_i32_819 : BitVec 32 := 8#32
  let v571 : BitVec 32 := Scalar.muli v427 c8_i32_819
  let v572 : BitVec 32 := Scalar.addi v2 v571
  let c5_i32_885 : BitVec 32 := 5#32
  let c0_i32_886 : BitVec 32 := 0#32
  ![v572.toNat, 5, 0]
def k0_off42 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_608 : BitVec 32 := 2#32
  let v426 : BitVec 32 := Scalar.muli arg7 c2_i32_608
  let c1_i32_609 : BitVec 32 := 1#32
  let v427 : BitVec 32 := Scalar.addi v426 c1_i32_609
  let c8_i32_819 : BitVec 32 := 8#32
  let v571 : BitVec 32 := Scalar.muli v427 c8_i32_819
  let v572 : BitVec 32 := Scalar.addi v2 v571
  let c6_i32_897 : BitVec 32 := 6#32
  let c0_i32_898 : BitVec 32 := 0#32
  ![v572.toNat, 6, 0]
def k0_off43 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_608 : BitVec 32 := 2#32
  let v426 : BitVec 32 := Scalar.muli arg7 c2_i32_608
  let c1_i32_609 : BitVec 32 := 1#32
  let v427 : BitVec 32 := Scalar.addi v426 c1_i32_609
  let c8_i32_819 : BitVec 32 := 8#32
  let v571 : BitVec 32 := Scalar.muli v427 c8_i32_819
  let v572 : BitVec 32 := Scalar.addi v2 v571
  let c7_i32_909 : BitVec 32 := 7#32
  let c0_i32_910 : BitVec 32 := 0#32
  ![v572.toNat, 7, 0]
def k0_off44 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_608 : BitVec 32 := 2#32
  let v426 : BitVec 32 := Scalar.muli arg7 c2_i32_608
  let c1_i32_609 : BitVec 32 := 1#32
  let v427 : BitVec 32 := Scalar.addi v426 c1_i32_609
  let c8_i32_819 : BitVec 32 := 8#32
  let v571 : BitVec 32 := Scalar.muli v427 c8_i32_819
  let v572 : BitVec 32 := Scalar.addi v2 v571
  let c8_i32_921 : BitVec 32 := 8#32
  let c0_i32_922 : BitVec 32 := 0#32
  ![v572.toNat, 8, 0]
def k0_off45 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_608 : BitVec 32 := 2#32
  let v426 : BitVec 32 := Scalar.muli arg7 c2_i32_608
  let c1_i32_609 : BitVec 32 := 1#32
  let v427 : BitVec 32 := Scalar.addi v426 c1_i32_609
  let c8_i32_819 : BitVec 32 := 8#32
  let v571 : BitVec 32 := Scalar.muli v427 c8_i32_819
  let v572 : BitVec 32 := Scalar.addi v2 v571
  let c9_i32_933 : BitVec 32 := 9#32
  let c0_i32_934 : BitVec 32 := 0#32
  ![v572.toNat, 9, 0]
def k0_off46 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_608 : BitVec 32 := 2#32
  let v426 : BitVec 32 := Scalar.muli arg7 c2_i32_608
  let c1_i32_609 : BitVec 32 := 1#32
  let v427 : BitVec 32 := Scalar.addi v426 c1_i32_609
  let c8_i32_819 : BitVec 32 := 8#32
  let v571 : BitVec 32 := Scalar.muli v427 c8_i32_819
  let v572 : BitVec 32 := Scalar.addi v2 v571
  let c10_i32_945 : BitVec 32 := 10#32
  let c0_i32_946 : BitVec 32 := 0#32
  ![v572.toNat, 10, 0]
def k0_off47 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_608 : BitVec 32 := 2#32
  let v426 : BitVec 32 := Scalar.muli arg7 c2_i32_608
  let c1_i32_609 : BitVec 32 := 1#32
  let v427 : BitVec 32 := Scalar.addi v426 c1_i32_609
  let c8_i32_819 : BitVec 32 := 8#32
  let v571 : BitVec 32 := Scalar.muli v427 c8_i32_819
  let v572 : BitVec 32 := Scalar.addi v2 v571
  let c11_i32_957 : BitVec 32 := 11#32
  let c0_i32_958 : BitVec 32 := 0#32
  ![v572.toNat, 11, 0]
def k0_off48 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_608 : BitVec 32 := 2#32
  let v426 : BitVec 32 := Scalar.muli arg7 c2_i32_608
  let c1_i32_609 : BitVec 32 := 1#32
  let v427 : BitVec 32 := Scalar.addi v426 c1_i32_609
  let c8_i32_819 : BitVec 32 := 8#32
  let v571 : BitVec 32 := Scalar.muli v427 c8_i32_819
  let v572 : BitVec 32 := Scalar.addi v2 v571
  let c12_i32_969 : BitVec 32 := 12#32
  let c0_i32_970 : BitVec 32 := 0#32
  ![v572.toNat, 12, 0]
def k0_off49 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_608 : BitVec 32 := 2#32
  let v426 : BitVec 32 := Scalar.muli arg7 c2_i32_608
  let c1_i32_609 : BitVec 32 := 1#32
  let v427 : BitVec 32 := Scalar.addi v426 c1_i32_609
  let c8_i32_819 : BitVec 32 := 8#32
  let v571 : BitVec 32 := Scalar.muli v427 c8_i32_819
  let v572 : BitVec 32 := Scalar.addi v2 v571
  let c13_i32_981 : BitVec 32 := 13#32
  let c0_i32_982 : BitVec 32 := 0#32
  ![v572.toNat, 13, 0]
def k0_off50 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_608 : BitVec 32 := 2#32
  let v426 : BitVec 32 := Scalar.muli arg7 c2_i32_608
  let c1_i32_609 : BitVec 32 := 1#32
  let v427 : BitVec 32 := Scalar.addi v426 c1_i32_609
  let c8_i32_819 : BitVec 32 := 8#32
  let v571 : BitVec 32 := Scalar.muli v427 c8_i32_819
  let v572 : BitVec 32 := Scalar.addi v2 v571
  let c14_i32_993 : BitVec 32 := 14#32
  let c0_i32_994 : BitVec 32 := 0#32
  ![v572.toNat, 14, 0]
def k0_off51 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_608 : BitVec 32 := 2#32
  let v426 : BitVec 32 := Scalar.muli arg7 c2_i32_608
  let c1_i32_609 : BitVec 32 := 1#32
  let v427 : BitVec 32 := Scalar.addi v426 c1_i32_609
  let c8_i32_819 : BitVec 32 := 8#32
  let v571 : BitVec 32 := Scalar.muli v427 c8_i32_819
  let v572 : BitVec 32 := Scalar.addi v2 v571
  let c15_i32_1005 : BitVec 32 := 15#32
  let c0_i32_1006 : BitVec 32 := 0#32
  ![v572.toNat, 15, 0]
def k0_off52 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_24 : BitVec 32 := 0#32
  let c1_i32_25 : BitVec 32 := 1#32
  let arg7 : BitVec 32 := Scf.iv c0_i32_24 c1_i32_25 k0_t1
  let c2_i32_608 : BitVec 32 := 2#32
  let v426 : BitVec 32 := Scalar.muli arg7 c2_i32_608
  let c1_i32_609 : BitVec 32 := 1#32
  let v427 : BitVec 32 := Scalar.addi v426 c1_i32_609
  let c2_i32_1012 : BitVec 32 := 2#32
  let v701 : BitVec 32 := Scalar.addi v427 c2_i32_1012
  let c8_i32_1013 : BitVec 32 := 8#32
  let v702 : BitVec 32 := Scalar.muli v701 c8_i32_1013
  let v703 : BitVec 32 := Scalar.addi v2 v702
  let c0_i32_1019 : BitVec 32 := 0#32
  let c0_i32_1020 : BitVec 32 := 0#32
  ![v703.toNat, 0, 0]
def k0_off53 (i : grid0.Coords) (c496_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v23 : BitVec 32 := Scalar.addi v2 c496_i32
  let c0_i32_31 : BitVec 32 := 0#32
  let c0_i32_32 : BitVec 32 := 0#32
  ![v23.toNat, 0, 0]
def k0_off54 (i : grid0.Coords) (c496_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v23 : BitVec 32 := Scalar.addi v2 c496_i32
  let c1_i32_43 : BitVec 32 := 1#32
  let c0_i32_44 : BitVec 32 := 0#32
  ![v23.toNat, 1, 0]
def k0_off55 (i : grid0.Coords) (c496_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v23 : BitVec 32 := Scalar.addi v2 c496_i32
  let c2_i32_54 : BitVec 32 := 2#32
  let c0_i32_55 : BitVec 32 := 0#32
  ![v23.toNat, 2, 0]
def k0_off56 (i : grid0.Coords) (c496_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v23 : BitVec 32 := Scalar.addi v2 c496_i32
  let c3_i32_66 : BitVec 32 := 3#32
  let c0_i32_67 : BitVec 32 := 0#32
  ![v23.toNat, 3, 0]
def k0_off57 (i : grid0.Coords) (c496_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v23 : BitVec 32 := Scalar.addi v2 c496_i32
  let c4_i32_78 : BitVec 32 := 4#32
  let c0_i32_79 : BitVec 32 := 0#32
  ![v23.toNat, 4, 0]
def k0_off58 (i : grid0.Coords) (c496_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v23 : BitVec 32 := Scalar.addi v2 c496_i32
  let c5_i32 : BitVec 32 := 5#32
  let c0_i32_90 : BitVec 32 := 0#32
  ![v23.toNat, 5, 0]
def k0_off59 (i : grid0.Coords) (c496_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v23 : BitVec 32 := Scalar.addi v2 c496_i32
  let c6_i32 : BitVec 32 := 6#32
  let c0_i32_101 : BitVec 32 := 0#32
  ![v23.toNat, 6, 0]
def k0_off60 (i : grid0.Coords) (c496_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v23 : BitVec 32 := Scalar.addi v2 c496_i32
  let c7_i32 : BitVec 32 := 7#32
  let c0_i32_112 : BitVec 32 := 0#32
  ![v23.toNat, 7, 0]
def k0_off61 (i : grid0.Coords) (c496_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v23 : BitVec 32 := Scalar.addi v2 c496_i32
  let c8_i32_123 : BitVec 32 := 8#32
  let c0_i32_124 : BitVec 32 := 0#32
  ![v23.toNat, 8, 0]
def k0_off62 (i : grid0.Coords) (c496_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v23 : BitVec 32 := Scalar.addi v2 c496_i32
  let c9_i32 : BitVec 32 := 9#32
  let c0_i32_135 : BitVec 32 := 0#32
  ![v23.toNat, 9, 0]
def k0_off63 (i : grid0.Coords) (c496_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v23 : BitVec 32 := Scalar.addi v2 c496_i32
  let c10_i32 : BitVec 32 := 10#32
  let c0_i32_146 : BitVec 32 := 0#32
  ![v23.toNat, 10, 0]
def k0_off64 (i : grid0.Coords) (c496_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v23 : BitVec 32 := Scalar.addi v2 c496_i32
  let c11_i32 : BitVec 32 := 11#32
  let c0_i32_157 : BitVec 32 := 0#32
  ![v23.toNat, 11, 0]
def k0_off65 (i : grid0.Coords) (c496_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v23 : BitVec 32 := Scalar.addi v2 c496_i32
  let c12_i32 : BitVec 32 := 12#32
  let c0_i32_168 : BitVec 32 := 0#32
  ![v23.toNat, 12, 0]
def k0_off66 (i : grid0.Coords) (c496_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v23 : BitVec 32 := Scalar.addi v2 c496_i32
  let c13_i32 : BitVec 32 := 13#32
  let c0_i32_179 : BitVec 32 := 0#32
  ![v23.toNat, 13, 0]
def k0_off67 (i : grid0.Coords) (c496_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v23 : BitVec 32 := Scalar.addi v2 c496_i32
  let c14_i32 : BitVec 32 := 14#32
  let c0_i32_190 : BitVec 32 := 0#32
  ![v23.toNat, 14, 0]
def k0_off68 (i : grid0.Coords) (c496_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v23 : BitVec 32 := Scalar.addi v2 c496_i32
  let c15_i32 : BitVec 32 := 15#32
  let c0_i32_201 : BitVec 32 := 0#32
  ![v23.toNat, 15, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S2x8x10x256_S1x8x10x256_0_0_0_0 : ∀ a, (![0, 0, 0, 0] : Fin 4 → Nat) a + S1x8x10x256.size a ≤ S2x8x10x256.size a
  squeezes_S1x8x10x256_S8x10x256 : S1x8x10x256.Squeezes S8x10x256
  inb_S2_S1_0 : ∀ a, (![0] : Fin 1 → Nat) a + S1.size a ≤ S2.size a
  squeezes_S1_S_ : S1.Squeezes S_
  inb_S2x8x10x256_S1x8x10x256_1_0_0_0 : ∀ a, (![1, 0, 0, 0] : Fin 4 → Nat) a + S1x8x10x256.size a ≤ S2x8x10x256.size a
  inb_S2_S1_1 : ∀ a, (![1] : Fin 1 → Nat) a + S1.size a ≤ S2.size a
  inb_S2x8x10x256_S1x8x1x256_0_0_4_0 : ∀ a, (![0, 0, 4, 0] : Fin 4 → Nat) a + S1x8x1x256.size a ≤ S2x8x10x256.size a
  squeezes_S1x8x1x256_S8x1x256 : S1x8x1x256.Squeezes S8x1x256
  inb_S2x8x10x256_S1x8x1x256_0_0_2_0 : ∀ a, (![0, 0, 2, 0] : Fin 4 → Nat) a + S1x8x1x256.size a ≤ S2x8x10x256.size a
  inb_S2x8x10x256_S1x8x1x256_0_0_3_0 : ∀ a, (![0, 0, 3, 0] : Fin 4 → Nat) a + S1x8x1x256.size a ≤ S2x8x10x256.size a
  inb_S2x8x10x256_S1x8x1x256_0_0_0_0 : ∀ a, (![0, 0, 0, 0] : Fin 4 → Nat) a + S1x8x1x256.size a ≤ S2x8x10x256.size a
  inb_S2x8x10x256_S1x8x1x256_0_0_1_0 : ∀ a, (![0, 0, 1, 0] : Fin 4 → Nat) a + S1x8x1x256.size a ≤ S2x8x10x256.size a
  inb_S2x8x10x256_S1x8x1x256_0_0_5_0 : ∀ a, (![0, 0, 5, 0] : Fin 4 → Nat) a + S1x8x1x256.size a ≤ S2x8x10x256.size a
  inb_S2x8x10x256_S1x8x1x256_0_0_6_0 : ∀ a, (![0, 0, 6, 0] : Fin 4 → Nat) a + S1x8x1x256.size a ≤ S2x8x10x256.size a
  inb_S2x8x10x256_S1x8x1x256_0_0_7_0 : ∀ a, (![0, 0, 7, 0] : Fin 4 → Nat) a + S1x8x1x256.size a ≤ S2x8x10x256.size a
  inb_S2x8x10x256_S1x8x1x256_0_0_8_0 : ∀ a, (![0, 0, 8, 0] : Fin 4 → Nat) a + S1x8x1x256.size a ≤ S2x8x10x256.size a
  inb_S2x8x10x256_S1x8x1x256_0_0_9_0 : ∀ a, (![0, 0, 9, 0] : Fin 4 → Nat) a + S1x8x1x256.size a ≤ S2x8x10x256.size a
  inb_S2x8x10x256_S1x8x1x256_1_0_4_0 : ∀ a, (![1, 0, 4, 0] : Fin 4 → Nat) a + S1x8x1x256.size a ≤ S2x8x10x256.size a
  inb_S2x8x10x256_S1x8x1x256_1_0_2_0 : ∀ a, (![1, 0, 2, 0] : Fin 4 → Nat) a + S1x8x1x256.size a ≤ S2x8x10x256.size a
  inb_S2x8x10x256_S1x8x1x256_1_0_3_0 : ∀ a, (![1, 0, 3, 0] : Fin 4 → Nat) a + S1x8x1x256.size a ≤ S2x8x10x256.size a
  inb_S2x8x10x256_S1x8x1x256_1_0_0_0 : ∀ a, (![1, 0, 0, 0] : Fin 4 → Nat) a + S1x8x1x256.size a ≤ S2x8x10x256.size a
  inb_S2x8x10x256_S1x8x1x256_1_0_1_0 : ∀ a, (![1, 0, 1, 0] : Fin 4 → Nat) a + S1x8x1x256.size a ≤ S2x8x10x256.size a
  inb_S2x8x10x256_S1x8x1x256_1_0_5_0 : ∀ a, (![1, 0, 5, 0] : Fin 4 → Nat) a + S1x8x1x256.size a ≤ S2x8x10x256.size a
  inb_S2x8x10x256_S1x8x1x256_1_0_6_0 : ∀ a, (![1, 0, 6, 0] : Fin 4 → Nat) a + S1x8x1x256.size a ≤ S2x8x10x256.size a
  inb_S2x8x10x256_S1x8x1x256_1_0_7_0 : ∀ a, (![1, 0, 7, 0] : Fin 4 → Nat) a + S1x8x1x256.size a ≤ S2x8x10x256.size a
  inb_S2x8x10x256_S1x8x1x256_1_0_8_0 : ∀ a, (![1, 0, 8, 0] : Fin 4 → Nat) a + S1x8x1x256.size a ≤ S2x8x10x256.size a
  inb_S2x8x10x256_S1x8x1x256_1_0_9_0 : ∀ a, (![1, 0, 9, 0] : Fin 4 → Nat) a + S1x8x1x256.size a ≤ S2x8x10x256.size a
  hcc0_scratch1 : 0 + S2.numel ≤ 4
  hcc0_scratch2 : 2 + S2.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 2), ∀ a, (k0_off1 i (BitVec.ofNat 32 (8 * r.val))) a + S8x10x256.size a ≤ S16384x10x256.size a
  k0_t1_ok : k0_t1_loop.OK
  k0_off2_inb : ∀ (i : grid0.Coords) (k0_t1 : Fin k0_t1_loop.trips), ∀ (r : Fin 2), ∀ a, (k0_off2 i k0_t1 (BitVec.ofNat 32 r.val)) a + S8x10x256.size a ≤ S16384x10x256.size a
  k0_off3_inb : ∀ (i : grid0.Coords) (k0_t1 : Fin k0_t1_loop.trips), ∀ (r : Fin 2), ∀ a, (k0_off3 i k0_t1 (BitVec.ofNat 32 r.val)) a + S8x1x256.size a ≤ S16384x16x256.size a
  k0_off4_inb : ∀ (i : grid0.Coords) (k0_t1 : Fin k0_t1_loop.trips), ∀ (r : Fin 2), ∀ a, (k0_off4 i k0_t1 (BitVec.ofNat 32 r.val)) a + S8x1x256.size a ≤ S16384x16x256.size a
  k0_off5_inb : ∀ (i : grid0.Coords) (k0_t1 : Fin k0_t1_loop.trips), ∀ (r : Fin 2), ∀ a, (k0_off5 i k0_t1 (BitVec.ofNat 32 r.val)) a + S8x1x256.size a ≤ S16384x16x256.size a
  k0_off6_inb : ∀ (i : grid0.Coords) (k0_t1 : Fin k0_t1_loop.trips), ∀ (r : Fin 2), ∀ a, (k0_off6 i k0_t1 (BitVec.ofNat 32 r.val)) a + S8x1x256.size a ≤ S16384x16x256.size a
  k0_off7_inb : ∀ (i : grid0.Coords) (k0_t1 : Fin k0_t1_loop.trips), ∀ (r : Fin 2), ∀ a, (k0_off7 i k0_t1 (BitVec.ofNat 32 r.val)) a + S8x1x256.size a ≤ S16384x16x256.size a
  k0_off8_inb : ∀ (i : grid0.Coords) (k0_t1 : Fin k0_t1_loop.trips), ∀ (r : Fin 2), ∀ a, (k0_off8 i k0_t1 (BitVec.ofNat 32 r.val)) a + S8x1x256.size a ≤ S16384x16x256.size a
  k0_off9_inb : ∀ (i : grid0.Coords) (k0_t1 : Fin k0_t1_loop.trips), ∀ (r : Fin 2), ∀ a, (k0_off9 i k0_t1 (BitVec.ofNat 32 r.val)) a + S8x1x256.size a ≤ S16384x16x256.size a
  k0_off10_inb : ∀ (i : grid0.Coords) (k0_t1 : Fin k0_t1_loop.trips), ∀ (r : Fin 2), ∀ a, (k0_off10 i k0_t1 (BitVec.ofNat 32 r.val)) a + S8x1x256.size a ≤ S16384x16x256.size a
  k0_off11_inb : ∀ (i : grid0.Coords) (k0_t1 : Fin k0_t1_loop.trips), ∀ (r : Fin 2), ∀ a, (k0_off11 i k0_t1 (BitVec.ofNat 32 r.val)) a + S8x1x256.size a ≤ S16384x16x256.size a
  k0_off12_inb : ∀ (i : grid0.Coords) (k0_t1 : Fin k0_t1_loop.trips), ∀ (r : Fin 2), ∀ a, (k0_off12 i k0_t1 (BitVec.ofNat 32 r.val)) a + S8x1x256.size a ≤ S16384x16x256.size a
  k0_off13_inb : ∀ (i : grid0.Coords) (k0_t1 : Fin k0_t1_loop.trips), ∀ (r : Fin 2), ∀ a, (k0_off13 i k0_t1 (BitVec.ofNat 32 r.val)) a + S8x1x256.size a ≤ S16384x16x256.size a
  k0_off14_inb : ∀ (i : grid0.Coords) (k0_t1 : Fin k0_t1_loop.trips), ∀ (r : Fin 2), ∀ a, (k0_off14 i k0_t1 (BitVec.ofNat 32 r.val)) a + S8x1x256.size a ≤ S16384x16x256.size a
  k0_off15_inb : ∀ (i : grid0.Coords) (k0_t1 : Fin k0_t1_loop.trips), ∀ (r : Fin 2), ∀ a, (k0_off15 i k0_t1 (BitVec.ofNat 32 r.val)) a + S8x1x256.size a ≤ S16384x16x256.size a
  k0_off16_inb : ∀ (i : grid0.Coords) (k0_t1 : Fin k0_t1_loop.trips), ∀ (r : Fin 2), ∀ a, (k0_off16 i k0_t1 (BitVec.ofNat 32 r.val)) a + S8x1x256.size a ≤ S16384x16x256.size a
  k0_off17_inb : ∀ (i : grid0.Coords) (k0_t1 : Fin k0_t1_loop.trips), ∀ (r : Fin 2), ∀ a, (k0_off17 i k0_t1 (BitVec.ofNat 32 r.val)) a + S8x1x256.size a ≤ S16384x16x256.size a
  k0_off18_inb : ∀ (i : grid0.Coords) (k0_t1 : Fin k0_t1_loop.trips), ∀ (r : Fin 2), ∀ a, (k0_off18 i k0_t1 (BitVec.ofNat 32 r.val)) a + S8x1x256.size a ≤ S16384x16x256.size a
  k0_off19_inb : ∀ (i : grid0.Coords) (k0_t1 : Fin k0_t1_loop.trips), ∀ (k0_h1 : k0_cond1 k0_t1 = 1#1), ∀ a, (k0_off19 i k0_t1) a + S8x1x256.size a ≤ S16384x16x256.size a
  k0_off20_inb : ∀ (i : grid0.Coords) (k0_t1 : Fin k0_t1_loop.trips), ∀ (k0_h1 : k0_cond1 k0_t1 = 1#1), ∀ a, (k0_off20 i k0_t1) a + S8x1x256.size a ≤ S16384x16x256.size a
  k0_off21_inb : ∀ (i : grid0.Coords) (k0_t1 : Fin k0_t1_loop.trips), ∀ (k0_h1 : k0_cond1 k0_t1 = 1#1), ∀ a, (k0_off21 i k0_t1) a + S8x1x256.size a ≤ S16384x16x256.size a
  k0_off22_inb : ∀ (i : grid0.Coords) (k0_t1 : Fin k0_t1_loop.trips), ∀ (k0_h1 : k0_cond1 k0_t1 = 1#1), ∀ a, (k0_off22 i k0_t1) a + S8x1x256.size a ≤ S16384x16x256.size a
  k0_off23_inb : ∀ (i : grid0.Coords) (k0_t1 : Fin k0_t1_loop.trips), ∀ (k0_h1 : k0_cond1 k0_t1 = 1#1), ∀ a, (k0_off23 i k0_t1) a + S8x1x256.size a ≤ S16384x16x256.size a
  k0_off24_inb : ∀ (i : grid0.Coords) (k0_t1 : Fin k0_t1_loop.trips), ∀ (k0_h1 : k0_cond1 k0_t1 = 1#1), ∀ a, (k0_off24 i k0_t1) a + S8x1x256.size a ≤ S16384x16x256.size a
  k0_off25_inb : ∀ (i : grid0.Coords) (k0_t1 : Fin k0_t1_loop.trips), ∀ (k0_h1 : k0_cond1 k0_t1 = 1#1), ∀ a, (k0_off25 i k0_t1) a + S8x1x256.size a ≤ S16384x16x256.size a
  k0_off26_inb : ∀ (i : grid0.Coords) (k0_t1 : Fin k0_t1_loop.trips), ∀ (k0_h1 : k0_cond1 k0_t1 = 1#1), ∀ a, (k0_off26 i k0_t1) a + S8x1x256.size a ≤ S16384x16x256.size a
  k0_off27_inb : ∀ (i : grid0.Coords) (k0_t1 : Fin k0_t1_loop.trips), ∀ (k0_h1 : k0_cond1 k0_t1 = 1#1), ∀ a, (k0_off27 i k0_t1) a + S8x1x256.size a ≤ S16384x16x256.size a
  k0_off28_inb : ∀ (i : grid0.Coords) (k0_t1 : Fin k0_t1_loop.trips), ∀ (k0_h1 : k0_cond1 k0_t1 = 1#1), ∀ a, (k0_off28 i k0_t1) a + S8x1x256.size a ≤ S16384x16x256.size a
  k0_off29_inb : ∀ (i : grid0.Coords) (k0_t1 : Fin k0_t1_loop.trips), ∀ (k0_h1 : k0_cond1 k0_t1 = 1#1), ∀ a, (k0_off29 i k0_t1) a + S8x1x256.size a ≤ S16384x16x256.size a
  k0_off30_inb : ∀ (i : grid0.Coords) (k0_t1 : Fin k0_t1_loop.trips), ∀ (k0_h1 : k0_cond1 k0_t1 = 1#1), ∀ a, (k0_off30 i k0_t1) a + S8x1x256.size a ≤ S16384x16x256.size a
  k0_off31_inb : ∀ (i : grid0.Coords) (k0_t1 : Fin k0_t1_loop.trips), ∀ (k0_h1 : k0_cond1 k0_t1 = 1#1), ∀ a, (k0_off31 i k0_t1) a + S8x1x256.size a ≤ S16384x16x256.size a
  k0_off32_inb : ∀ (i : grid0.Coords) (k0_t1 : Fin k0_t1_loop.trips), ∀ (k0_h1 : k0_cond1 k0_t1 = 1#1), ∀ a, (k0_off32 i k0_t1) a + S8x1x256.size a ≤ S16384x16x256.size a
  k0_off33_inb : ∀ (i : grid0.Coords) (k0_t1 : Fin k0_t1_loop.trips), ∀ (k0_h1 : k0_cond1 k0_t1 = 1#1), ∀ a, (k0_off33 i k0_t1) a + S8x1x256.size a ≤ S16384x16x256.size a
  k0_off34_inb : ∀ (i : grid0.Coords) (k0_t1 : Fin k0_t1_loop.trips), ∀ (k0_h1 : k0_cond1 k0_t1 = 1#1), ∀ a, (k0_off34 i k0_t1) a + S8x1x256.size a ≤ S16384x16x256.size a
  k0_off35_inb : ∀ (i : grid0.Coords) (k0_t1 : Fin k0_t1_loop.trips), ∀ (k0_h1 : k0_cond1 k0_t1 = 1#1), ∀ a, (k0_off35 i k0_t1) a + S8x10x256.size a ≤ S16384x10x256.size a
  k0_off36_inb : ∀ (i : grid0.Coords) (k0_t1 : Fin k0_t1_loop.trips), ∀ (k0_h2 : k0_cond2 k0_t1 = 1#1), ∀ a, (k0_off36 i k0_t1) a + S8x1x256.size a ≤ S16384x16x256.size a
  k0_off37_inb : ∀ (i : grid0.Coords) (k0_t1 : Fin k0_t1_loop.trips), ∀ (k0_h2 : k0_cond2 k0_t1 = 1#1), ∀ a, (k0_off37 i k0_t1) a + S8x1x256.size a ≤ S16384x16x256.size a
  k0_off38_inb : ∀ (i : grid0.Coords) (k0_t1 : Fin k0_t1_loop.trips), ∀ (k0_h2 : k0_cond2 k0_t1 = 1#1), ∀ a, (k0_off38 i k0_t1) a + S8x1x256.size a ≤ S16384x16x256.size a
  k0_off39_inb : ∀ (i : grid0.Coords) (k0_t1 : Fin k0_t1_loop.trips), ∀ (k0_h2 : k0_cond2 k0_t1 = 1#1), ∀ a, (k0_off39 i k0_t1) a + S8x1x256.size a ≤ S16384x16x256.size a
  k0_off40_inb : ∀ (i : grid0.Coords) (k0_t1 : Fin k0_t1_loop.trips), ∀ (k0_h2 : k0_cond2 k0_t1 = 1#1), ∀ a, (k0_off40 i k0_t1) a + S8x1x256.size a ≤ S16384x16x256.size a
  k0_off41_inb : ∀ (i : grid0.Coords) (k0_t1 : Fin k0_t1_loop.trips), ∀ (k0_h2 : k0_cond2 k0_t1 = 1#1), ∀ a, (k0_off41 i k0_t1) a + S8x1x256.size a ≤ S16384x16x256.size a
  k0_off42_inb : ∀ (i : grid0.Coords) (k0_t1 : Fin k0_t1_loop.trips), ∀ (k0_h2 : k0_cond2 k0_t1 = 1#1), ∀ a, (k0_off42 i k0_t1) a + S8x1x256.size a ≤ S16384x16x256.size a
  k0_off43_inb : ∀ (i : grid0.Coords) (k0_t1 : Fin k0_t1_loop.trips), ∀ (k0_h2 : k0_cond2 k0_t1 = 1#1), ∀ a, (k0_off43 i k0_t1) a + S8x1x256.size a ≤ S16384x16x256.size a
  k0_off44_inb : ∀ (i : grid0.Coords) (k0_t1 : Fin k0_t1_loop.trips), ∀ (k0_h2 : k0_cond2 k0_t1 = 1#1), ∀ a, (k0_off44 i k0_t1) a + S8x1x256.size a ≤ S16384x16x256.size a
  k0_off45_inb : ∀ (i : grid0.Coords) (k0_t1 : Fin k0_t1_loop.trips), ∀ (k0_h2 : k0_cond2 k0_t1 = 1#1), ∀ a, (k0_off45 i k0_t1) a + S8x1x256.size a ≤ S16384x16x256.size a
  k0_off46_inb : ∀ (i : grid0.Coords) (k0_t1 : Fin k0_t1_loop.trips), ∀ (k0_h2 : k0_cond2 k0_t1 = 1#1), ∀ a, (k0_off46 i k0_t1) a + S8x1x256.size a ≤ S16384x16x256.size a
  k0_off47_inb : ∀ (i : grid0.Coords) (k0_t1 : Fin k0_t1_loop.trips), ∀ (k0_h2 : k0_cond2 k0_t1 = 1#1), ∀ a, (k0_off47 i k0_t1) a + S8x1x256.size a ≤ S16384x16x256.size a
  k0_off48_inb : ∀ (i : grid0.Coords) (k0_t1 : Fin k0_t1_loop.trips), ∀ (k0_h2 : k0_cond2 k0_t1 = 1#1), ∀ a, (k0_off48 i k0_t1) a + S8x1x256.size a ≤ S16384x16x256.size a
  k0_off49_inb : ∀ (i : grid0.Coords) (k0_t1 : Fin k0_t1_loop.trips), ∀ (k0_h2 : k0_cond2 k0_t1 = 1#1), ∀ a, (k0_off49 i k0_t1) a + S8x1x256.size a ≤ S16384x16x256.size a
  k0_off50_inb : ∀ (i : grid0.Coords) (k0_t1 : Fin k0_t1_loop.trips), ∀ (k0_h2 : k0_cond2 k0_t1 = 1#1), ∀ a, (k0_off50 i k0_t1) a + S8x1x256.size a ≤ S16384x16x256.size a
  k0_off51_inb : ∀ (i : grid0.Coords) (k0_t1 : Fin k0_t1_loop.trips), ∀ (k0_h2 : k0_cond2 k0_t1 = 1#1), ∀ a, (k0_off51 i k0_t1) a + S8x1x256.size a ≤ S16384x16x256.size a
  k0_off52_inb : ∀ (i : grid0.Coords) (k0_t1 : Fin k0_t1_loop.trips), ∀ (k0_h2 : k0_cond2 k0_t1 = 1#1), ∀ a, (k0_off52 i k0_t1) a + S8x10x256.size a ≤ S16384x10x256.size a
  k0_off53_inb : ∀ i : grid0.Coords, ∀ (r : Fin 2), ∀ a, (k0_off53 i (BitVec.ofNat 32 (496 + 8 * r.val))) a + S8x1x256.size a ≤ S16384x16x256.size a
  k0_off54_inb : ∀ i : grid0.Coords, ∀ (r : Fin 2), ∀ a, (k0_off54 i (BitVec.ofNat 32 (496 + 8 * r.val))) a + S8x1x256.size a ≤ S16384x16x256.size a
  k0_off55_inb : ∀ i : grid0.Coords, ∀ (r : Fin 2), ∀ a, (k0_off55 i (BitVec.ofNat 32 (496 + 8 * r.val))) a + S8x1x256.size a ≤ S16384x16x256.size a
  k0_off56_inb : ∀ i : grid0.Coords, ∀ (r : Fin 2), ∀ a, (k0_off56 i (BitVec.ofNat 32 (496 + 8 * r.val))) a + S8x1x256.size a ≤ S16384x16x256.size a
  k0_off57_inb : ∀ i : grid0.Coords, ∀ (r : Fin 2), ∀ a, (k0_off57 i (BitVec.ofNat 32 (496 + 8 * r.val))) a + S8x1x256.size a ≤ S16384x16x256.size a
  k0_off58_inb : ∀ i : grid0.Coords, ∀ (r : Fin 2), ∀ a, (k0_off58 i (BitVec.ofNat 32 (496 + 8 * r.val))) a + S8x1x256.size a ≤ S16384x16x256.size a
  k0_off59_inb : ∀ i : grid0.Coords, ∀ (r : Fin 2), ∀ a, (k0_off59 i (BitVec.ofNat 32 (496 + 8 * r.val))) a + S8x1x256.size a ≤ S16384x16x256.size a
  k0_off60_inb : ∀ i : grid0.Coords, ∀ (r : Fin 2), ∀ a, (k0_off60 i (BitVec.ofNat 32 (496 + 8 * r.val))) a + S8x1x256.size a ≤ S16384x16x256.size a
  k0_off61_inb : ∀ i : grid0.Coords, ∀ (r : Fin 2), ∀ a, (k0_off61 i (BitVec.ofNat 32 (496 + 8 * r.val))) a + S8x1x256.size a ≤ S16384x16x256.size a
  k0_off62_inb : ∀ i : grid0.Coords, ∀ (r : Fin 2), ∀ a, (k0_off62 i (BitVec.ofNat 32 (496 + 8 * r.val))) a + S8x1x256.size a ≤ S16384x16x256.size a
  k0_off63_inb : ∀ i : grid0.Coords, ∀ (r : Fin 2), ∀ a, (k0_off63 i (BitVec.ofNat 32 (496 + 8 * r.val))) a + S8x1x256.size a ≤ S16384x16x256.size a
  k0_off64_inb : ∀ i : grid0.Coords, ∀ (r : Fin 2), ∀ a, (k0_off64 i (BitVec.ofNat 32 (496 + 8 * r.val))) a + S8x1x256.size a ≤ S16384x16x256.size a
  k0_off65_inb : ∀ i : grid0.Coords, ∀ (r : Fin 2), ∀ a, (k0_off65 i (BitVec.ofNat 32 (496 + 8 * r.val))) a + S8x1x256.size a ≤ S16384x16x256.size a
  k0_off66_inb : ∀ i : grid0.Coords, ∀ (r : Fin 2), ∀ a, (k0_off66 i (BitVec.ofNat 32 (496 + 8 * r.val))) a + S8x1x256.size a ≤ S16384x16x256.size a
  k0_off67_inb : ∀ i : grid0.Coords, ∀ (r : Fin 2), ∀ a, (k0_off67 i (BitVec.ofNat 32 (496 + 8 * r.val))) a + S8x1x256.size a ≤ S16384x16x256.size a
  k0_off68_inb : ∀ i : grid0.Coords, ∀ (r : Fin 2), ∀ a, (k0_off68 i (BitVec.ofNat 32 (496 + 8 * r.val))) a + S8x1x256.size a ≤ S16384x16x256.size a

variable [Facts₀]

abbrev cc0_scratch1 : DmaSems sig S2 := SemArray.consecutive 0 S2 hcc0_scratch1
abbrev cc0_scratch2 : DmaSems sig S2 := SemArray.consecutive 2 S2 hcc0_scratch2

class Facts : Prop extends Facts₀ where

variable [Facts]
-- ==== ReferenceIdeal.lean ====
abbrev S16384x10x256 : Shape := ⟨3, ![16384, 10, 256]⟩
abbrev S16 : Shape := ⟨1, ![16]⟩
abbrev S_ : Shape := ⟨0, ![]⟩
abbrev S16x1 : Shape := ⟨2, ![16, 1]⟩
abbrev S1 : Shape := ⟨1, ![1]⟩
abbrev S1x1 : Shape := ⟨2, ![1, 1]⟩
abbrev S16384x16x256 : Shape := ⟨3, ![16384, 16, 256]⟩

abbrev nBuf : Space → Nat
  | .hbm => 25
  | .vmem => 0
  | .smem => 0
  | _ => 0

abbrev bufTy : (tb : Table) → Fin (tcTables nBuf tb) → BufTy
  | .hbm, ⟨0, _⟩ => ⟨S16384x10x256, .f32⟩
  | .hbm, ⟨1, _⟩ => ⟨S16, .i32⟩
  | .hbm, ⟨2, _⟩ => ⟨S_, .i32⟩
  | .hbm, ⟨3, _⟩ => ⟨S16, .i32⟩
  | .hbm, ⟨4, _⟩ => ⟨S16, .i1⟩
  | .hbm, ⟨5, _⟩ => ⟨S_, .i32⟩
  | .hbm, ⟨6, _⟩ => ⟨S16, .i32⟩
  | .hbm, ⟨7, _⟩ => ⟨S16, .i32⟩
  | .hbm, ⟨8, _⟩ => ⟨S16, .i32⟩
  | .hbm, ⟨9, _⟩ => ⟨S16x1, .i32⟩
  | .hbm, ⟨10, _⟩ => ⟨S1, .i32⟩
  | .hbm, ⟨11, _⟩ => ⟨S_, .i32⟩
  | .hbm, ⟨12, _⟩ => ⟨S16x1, .i32⟩
  | .hbm, ⟨13, _⟩ => ⟨S16x1, .i1⟩
  | .hbm, ⟨14, _⟩ => ⟨S1x1, .i32⟩
  | .hbm, ⟨15, _⟩ => ⟨S16x1, .i32⟩
  | .hbm, ⟨16, _⟩ => ⟨S16x1, .i1⟩
  | .hbm, ⟨17, _⟩ => ⟨S16x1, .i1⟩
  | .hbm, ⟨18, _⟩ => ⟨S_, .i1⟩
  | .hbm, ⟨19, _⟩ => ⟨S16, .i1⟩
  | .hbm, ⟨20, _⟩ => ⟨S16384x16x256, .f32⟩
  | .hbm, ⟨21, _⟩ => ⟨S16384x16x256, .i1⟩
  | .hbm, ⟨22, _⟩ => ⟨S_, .f32⟩
  | .hbm, ⟨23, _⟩ => ⟨S16384x16x256, .f32⟩
  | .hbm, ⟨24, _⟩ => ⟨S16384x16x256, .f32⟩
  | _, _ => ⟨S16384x10x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x1_0 : S16.BroadcastsInDim S16x1 (![0] : Fin 1 → Fin S16x1.rank)
  bcast_S_S16x1 : S_.BroadcastsInDim S16x1 (![] : Fin 0 → Fin S16x1.rank)
  bcast_S1_S1x1_1 : S1.BroadcastsInDim S1x1 (![1] : Fin 1 → Fin S1x1.rank)
  bcast_S1x1_S16x1_0_1 : S1x1.BroadcastsInDim S16x1 (![0, 1] : Fin 2 → Fin S16x1.rank)
  reducesTo_S16x1_S16_d1 : S16x1.ReducesTo [1] S16
  h_S_ : 0 < S_.numel
  bcast_S16_S16384x16x256_1 : S16.BroadcastsInDim S16384x16x256 (![1] : Fin 1 → Fin S16384x16x256.rank)
  bcast_S_S16384x16x256 : S_.BroadcastsInDim S16384x16x256 (![] : Fin 0 → Fin S16384x16x256.rank)
  gather_S16384x10x256_S16x1_S16384x16x256_02_1_n_n_1_1_163841256_wf : GatherDims.WF S16384x10x256 S16x1 S16384x16x256 [0, 2] [1] [] [1] [] 1 ![16384, 1, 256]

variable [Facts₀]

def gather_S16384x10x256_S16x1_S16384x16x256_02_1_n_n_1_1_163841256 : GatherDims S16384x10x256 S16x1 S16384x16x256 where
  offsetDims := [0, 2]
  collapsedSliceDims := [1]
  operandBatchingDims := []
  startIndicesBatchingDims := []
  startIndexMap := [1]
  indexVectorDim := 1
  sliceSizes := ![16384, 1, 256]
  wf := gather_S16384x10x256_S16x1_S16384x16x256_02_1_n_n_1_1_163841256_wf

class Facts : Prop extends Facts₀ where

variable [Facts]
-- ==== Proof.Spec.lean ====
/-
  The common specification. Joint `j` of the result is a copy of part `src j` of the argument: for every sample `n`
  and feature `d`, `out[n, j, d] = part[n, src j, d]`. Both programs are pure data movement, so the statement is an
  equation between index functions and holds over any element type.
-/
import Idealize.ShloMosaic.PureOps.Ideal
import Idealize.ShloMosaic.Lib.ValueIdx

namespace Cert.Spec

open Idealize.ShloMosaic Idealize.ShloMosaic.ValueIdx

/-- The shape of the argument (samples × parts × features) and of the result (samples × joints × features). -/
abbrev SPart : Shape := ⟨3, ![16384, 10, 256]⟩
abbrev SJoint : Shape := ⟨3, ![16384, 16, 256]⟩

/-- The part each of the sixteen joints is copied from. -/
def src : Fin 16 → Fin 10 := ![4, 2, 3, 3, 0, 1, 1, 4, 4, 5, 6, 7, 7, 8, 9, 9]

/-- The result array as a function of the argument array: joint `j` of sample `n` is part `src j` of sample `n`. -/
def G {α : Type} (x : SPart.Idx → α) : SJoint.Idx → α :=
  fun i => x (ix3 (n0 := 16384) (n1 := 10) (n2 := 256) (i 0) (src (i 1)) (i 2))

theorem G_apply {α : Type} (x : SPart.Idx → α) (n : Fin 16384) (j : Fin 16) (d : Fin 256) :
    G x (ix3 n j d) = x (ix3 n (src j) d) := rfl

end Cert.Spec
-- ==== Proof.PayKI.lean ====
/-
  What the one SparseCore call hands each SparseCore and each vector subcore, and what comes back. The thirty-two tiles
  work on disjoint blocks of 512 consecutive samples: tile `s` of SparseCore `c` on block `2 s + c`. The argument array
  is only read, so every tile is lent a read share of the whole of it; of the result each tile is lent exactly its own
  block of samples, at full share, and returns it holding the specification's values.
-/
import proofs.«217884_g26414048870634_cont_9to1_797_14_alg».proof.KernelIdeal
import proofs.«217884_g26414048870634_cont_9to1_797_14_alg».proof.Proof.Gen.KernelIdeal
import proofs.«217884_g26414048870634_cont_9to1_797_14_alg».proof.Proof.Gen.KernelIdeal.Skeleton
import proofs.«217884_g26414048870634_cont_9to1_797_14_alg».proof.Proof.Spec
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays, the blocks of samples, the read shares -/

variable (m : (ℓ : Loc nD τ sig) → Buf (Elt F) ℓ) (ρ : Dev nD → PrngReg)

/-- The argument and the result, as locations of device `d`. -/
abbrev aLoc (d : Dev nD) : Loc nD τ sig := (SparseCore.T d).loc main_arg0
abbrev oLoc (d : Dev nD) : Loc nD τ sig := (SparseCore.T d).loc main_v0

/-- The result the specification asks for, from the argument's launch contents. -/
abbrev want (d : Dev nD) : Buf (Elt F) (oLoc d) := Cert.Spec.G (m (aLoc d))

/-- The samples of SparseCore `c` (the blocks of odd or even number), and of its tile `s` (block `2 s + c`). -/
def coreRows (c : Fin 2) : Finset S16384x16x256.Idx := Finset.univ.filter fun i => ((i 0).val / 512) % 2 = c.val
def tileRows (c : Fin 2) (s : Fin 16) : Finset S16384x16x256.Idx := Finset.univ.filter fun i => (i 0).val / 512 = 2 * s.val + c.val

/-- The read share of the argument lent to SparseCore `c`, and of that the one lent to its tile `s`. -/
abbrev qCore (c : Fin 2) : PosShare TreeShare := Transfers.shareTok fullShare 2 c
abbrev qTile (c : Fin 2) (s : Fin 16) : PosShare TreeShare := Transfers.shareTok (qCore c) 16 s

abbrev aShare (d : Dev nD) (q : PosShare TreeShare) : sProp 𝕄 := aLoc d ↦{q} m (aLoc d)
abbrev oRows (d : Dev nD) (R : Finset S16384x16x256.Idx) (f : Buf (Elt F) (oLoc d)) : sProp 𝕄 := oLoc d ↦[R]{fullShare} f

/-- The call's payloads: a SparseCore takes its share of the argument and its samples of the result, a tile likewise; both
    return the result's samples at the specification's values. -/
def P : (K (F := F)).Pay (nD := nD) (Val := Elt F) (Name := ℕ) (U := UU) where
  st := fun q d c => match q with
    | 0 => iprop(aShare m d (qCore (Fin.cast nCore_zero c)) ∗ oRows d (coreRows (Fin.cast nCore_zero c)) (m (oLoc d)))
  dn := fun q d c => match q with
    | 0 => iprop(aShare m d (qCore (Fin.cast nCore_zero c)) ∗ oRows d (coreRows (Fin.cast nCore_zero c)) (want m d))
  go := fun q d c i => match q with
    | 0 => iprop(aShare m d (qTile (Fin.cast nCore_zero c) (Fin.cast nSub_zero i)) ∗ oRows d (tileRows (Fin.cast nCore_zero c) (Fin.cast nSub_zero i)) (m (oLoc d)))
  td := fun q d c i => match q with
    | 0 => iprop(aShare m d (qTile (Fin.cast nCore_zero c) (Fin.cast nSub_zero i)) ∗ oRows d (tileRows (Fin.cast nCore_zero c) (Fin.cast nSub_zero i)) (want m d))
  x := fun _ _ => iprop(emp)

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

end Cert.Proof.KI

end
-- ==== Proof.RowsKI.lean ====
/-
  The blocks of samples form a partition. The 16384 samples fall into thirty-two blocks of 512 consecutive ones; a
  SparseCore takes the blocks whose number has its own parity, and tile `s` of SparseCore `c` the block `2 s + c`.
  Hence the two SparseCores' sets of samples are disjoint and exhaust the array, and the sixteen tiles' sets of one
  SparseCore are pairwise disjoint and exhaust that SparseCore's set.
-/
import proofs.«217884_g26414048870634_cont_9to1_797_14_alg».proof.Proof.PayKI

noncomputable section

namespace Cert.Proof.KI

open Cert.KernelIdeal Cert.KernelIdeal.Gen

open Idealize.ShloMosaic

/-- The sample coordinate of an index of the result is below the number of samples. -/
theorem sample_lt (i : S16384x16x256.Idx) : (i 0).val < 16384 := (i 0).isLt

theorem mem_coreRows {c : Fin 2} {i : S16384x16x256.Idx} : i ∈ coreRows c ↔ ((i 0).val / 512) % 2 = c.val := by
  unfold coreRows; rw [Finset.mem_filter]; exact ⟨fun h => h.2, fun h => ⟨Finset.mem_univ _, h⟩⟩

theorem mem_tileRows {c : Fin 2} {s : Fin 16} {i : S16384x16x256.Idx} : i ∈ tileRows c s ↔ (i 0).val / 512 = 2 * s.val + c.val := by
  unfold tileRows; rw [Finset.mem_filter]; exact ⟨fun h => h.2, fun h => ⟨Finset.mem_univ _, h⟩⟩

/-- A block number has one parity. -/
theorem coreRows_disjoint :
    ∀ c ∈ (Finset.univ : Finset (Fin 2)), ∀ c' ∈ (Finset.univ : Finset (Fin 2)), c ≠ c' → Disjoint (coreRows c) (coreRows c') := by
  intro c _ c' _ h
  refine Finset.disjoint_left.mpr fun i hi hi' => h (Fin.ext ?_)
  rw [mem_coreRows] at hi hi'
  omega

/-- Every block number has a parity. -/
theorem coreRows_cover : (Finset.univ : Finset (Fin 2)).biUnion coreRows = Finset.univ :=
  Finset.eq_univ_iff_forall.mpr fun i =>
    Finset.mem_biUnion.mpr ⟨⟨((i 0).val / 512) % 2, Nat.mod_lt _ (by decide)⟩, Finset.mem_univ _, mem_coreRows.mpr rfl⟩

/-- A block number of parity `c` is `2 s + c` for one `s`. -/
theorem tileRows_disjoint (c : Fin 2) :
    ∀ s ∈ (Finset.univ : Finset (Fin 16)), ∀ s' ∈ (Finset.univ : Finset (Fin 16)), s ≠ s' → Disjoint (tileRows c s) (tileRows c s') := by
  intro s _ s' _ h
  refine Finset.disjoint_left.mpr fun i hi hi' => h (Fin.ext ?_)
  rw [mem_tileRows] at hi hi'
  omega

/-- The block numbers are below 32, so those of parity `c` are the `2 s + c` with `s` below 16. -/
theorem tileRows_cover (c : Fin 2) : (Finset.univ : Finset (Fin 16)).biUnion (tileRows c) = coreRows c := by
  ext i
  rw [Finset.mem_biUnion, mem_coreRows]
  constructor
  · rintro ⟨s, -, hs⟩
    rw [mem_tileRows] at hs
    have hc := c.isLt
    omega
  · intro h
    have hi := sample_lt i
    refine ⟨⟨(i 0).val / 512 / 2, by omega⟩, Finset.mem_univ _, mem_tileRows.mpr ?_⟩
    show (i 0).val / 512 = 2 * ((i 0).val / 512 / 2) + c.val
    omega

end Cert.Proof.KI

end
-- ==== Proof.LaunchKI.lean ====
/-
  The launch of the one SparseCore call. The TensorCore hands each of the two SparseCores a read share of the argument
  and that SparseCore's samples of the result; a SparseCore hands each of its sixteen tiles a read share of its share and
  that tile's block of samples. The tiles return their blocks holding the specification's values, the blocks join to the
  SparseCores' sets and those to the whole result; the read shares rejoin to the argument, untouched. Given the proof
  of one tile's task, every weakly fair run of the thirty-five threads ends with the result at the specification's value
  and the argument unchanged.
-/
import proofs.«217884_g26414048870634_cont_9to1_797_14_alg».proof.Proof.PayKI
import proofs.«217884_g26414048870634_cont_9to1_797_14_alg».proof.Proof.RowsKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## The result's samples, by SparseCore and by tile -/

/-- The whole result is the two SparseCores' samples. -/
theorem oPts_cores (d : Dev nD) (f : Buf (Elt F) (oLoc d)) :
    (oLoc d ↦{fullShare} f : sProp 𝕄) = bigSep Finset.univ fun c : Fin 2 => oRows d (coreRows c) f := by
  rw [← pointsTo_biUnion Finset.univ (ℓ := oLoc d) coreRows coreRows_disjoint, coreRows_cover]

/-- A SparseCore's samples are its sixteen tiles' blocks. -/
theorem oRows_tiles (d : Dev nD) (c : Fin 2) (f : Buf (Elt F) (oLoc d)) :
    (oRows d (coreRows c) f : sProp 𝕄) = bigSep Finset.univ fun s : Fin 16 => oRows d (tileRows c s) f := by
  rw [← pointsTo_biUnion Finset.univ (ℓ := oLoc d) (tileRows c) (tileRows_disjoint c), tileRows_cover]

/-- The call's SparseCores are the two, its tiles the sixteen. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-! ## A SparseCore's operands split among its tiles -/

/-- The SparseCore's read share of the argument splits into sixteen read shares and a remainder, which waits for them;
    its samples of the result are its tiles' blocks, at the launch contents going out and at the specification's values
    coming back. -/
theorem vecSplit : (K (F := F)).VecSplit' (P m) 0 := by
  intro d c
  show iprop(aShare m d (qCore (Fin.cast nCore_zero c)) ∗ oRows d (coreRows (Fin.cast nCore_zero c)) (m (oLoc d))) ⊢ |={Set.univ}=> iprop(
      (bigSep Finset.univ fun i : Fin ((K (F := F)).nSub 0) =>
        iprop(aShare m d (qTile (Fin.cast nCore_zero c) (Fin.cast nSub_zero i)) ∗ oRows d (tileRows (Fin.cast nCore_zero c) (Fin.cast nSub_zero i)) (m (oLoc d))))
      ∗ ((bigSep Finset.univ fun i : Fin ((K (F := F)).nSub 0) =>
          iprop(aShare m d (qTile (Fin.cast nCore_zero c) (Fin.cast nSub_zero i)) ∗ oRows d (tileRows (Fin.cast nCore_zero c) (Fin.cast nSub_zero i)) (want m d)))
          -∗ iprop(aShare m d (qCore (Fin.cast nCore_zero c)) ∗ oRows d (coreRows (Fin.cast nCore_zero c)) (want m d))))
  generalize Fin.cast nCore_zero c = c'
  rw [bigSep_tasks (F := F) (fun i => iprop(aShare m d (qTile c' i) ∗ oRows d (tileRows c' i) (m (oLoc d)))),
    bigSep_tasks (F := F) (fun i => iprop(aShare m d (qTile c' i) ∗ oRows d (tileRows c' i) (want m d))), bigSep_sep', bigSep_sep',
    oRows_tiles, oRows_tiles]
  iintro ⟨Ha, Ho⟩
  ihave Ha' := (Transfers.pointsTo_toks_split (qCore c') 16) $$ Ha
  icases Ha' with ⟨Hrest, Htoks⟩
  imodintro
  isplitl [Htoks Ho]
  · isplitl [Htoks]; · iexact Htoks
    iexact Ho
  iintro ⟨Htoks, Ho⟩
  isplitl [Hrest Htoks]
  · iapply (Transfers.pointsTo_toks_join (qCore c') 16)
    isplitl [Hrest]; · iexact Hrest
    iexact Htoks
  iexact Ho

/-! ## The launch element: the handshakes' rounds; the counters unused -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The TensorCore's arrays: the argument and the result. -/
theorem unscopedBufs_eq (d : Dev nD) (W : (b : Ref sig .tc) → Buf (Elt F) ((d.tc : Thread nD τ).loc b)) :
    (unscopedBufs d W : sProp 𝕄) = iprop((aLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- What the call takes for the two SparseCores, and what it hands back. -/
theorem st0_eq (d : Dev nD) :
    (bigSep Finset.univ fun c : Fin ((K (F := F)).nCore 0) => (P m).st 0 d c)
      = iprop((bigSep Finset.univ fun c : Fin 2 => aShare m d (qCore c)) ∗ bigSep Finset.univ fun c : Fin 2 => oRows d (coreRows c) (m (oLoc d))) := by
  rw [← bigSep_sep']
  exact bigSep_cores (F := F) (fun c => iprop(aShare m d (qCore c) ∗ oRows d (coreRows c) (m (oLoc d))))
theorem dn0_eq (d : Dev nD) :
    (bigSep Finset.univ fun c : Fin ((K (F := F)).nCore 0) => (P m).dn 0 d c)
      = iprop((bigSep Finset.univ fun c : Fin 2 => aShare m d (qCore c)) ∗ bigSep Finset.univ fun c : Fin 2 => oRows d (coreRows c) (want m d)) := by
  rw [← bigSep_sep']
  exact bigSep_cores (F := F) (fun c => iprop(aShare m d (qCore c) ∗ oRows d (coreRows c) (want m d)))

variable [FloatOps F]

/-- What @main leaves the claim: the argument at its launch contents, the result at the specification's value. -/
abbrev FIN (d : Dev nD) : sProp 𝕄 := iprop((aLoc d ↦{fullShare} m (aLoc d)) ∗ oLoc d ↦{fullShare} want m d)

/-- @main on device `d`'s TensorCore: the one call. The argument goes out as two read shares, the remainder kept; the
    result as the two SparseCores' samples; both come back and are joined. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Ho⟩, -, -⟩, -⟩
  ihave Ha' := (Transfers.pointsTo_toks_split fullShare 2) $$ Ha
  icases Ha' with ⟨Hrest, Htoks⟩
  ihave Ho' := (Entails.of_eq (oPts_cores (F := F) d _)) $$ Ho
  iapply ((K (F := F)).wp_run (D (F := F)) 𝒱 (EH := EH) (P := P m) κ d 0) $$ [Hst Htoks Ho' Hrest]
  isplitr; · iexact Hctx
  isplitl [Hst]; · iexact Hst
  isplitl [Htoks Ho']
  · rw [st0_eq]
    isplitl [Htoks]; · iexact Htoks
    iexact Ho'
  iintro ⟨Hst, Hdn⟩
  ihave Hdn' := (Entails.of_eq (dn0_eq m d)) $$ Hdn
  icases Hdn' with ⟨Htoks, Ho⟩
  imodintro
  isplitl [Hst]; · iexact Hst
  isplitl [Hrest Htoks]
  · iapply (Transfers.pointsTo_toks_join fullShare 2)
    isplitl [Hrest]; · iexact Hrest
    iexact Htoks
  · iapply (Entails.of_eq (oPts_cores (F := F) d (want m d)).symm); iexact Ho

/-! ## The final memory -/

def fq (d : Dev nD) (s' : Phys nD τ sig (Elt F)) : Prop := s'.mem.mem (oLoc d) = want m d ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ha, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := oLoc d) (I := Finset.univ) (q := fullShare) (f := want m d)) $$ [HSI Ho]
  · isplitl [HSI] <;> iassumption
  icases H with %h2
  ipureintro; exact ⟨funext fun i => h2 i (Finset.mem_univ i), funext fun i => h1 i (Finset.mem_univ i)⟩

/-! ## The program's run -/

def QC : PUnit × MemSt nD τ sig (Elt F) → Prop := fun r => ∀ c : Dev nD, r.2.mem (oLoc c) = want m c ∧ r.2.mem (aLoc c) = m (aLoc c)

/-- From the proof of one tile's task: every weakly fair run of the device's threads ends, the result at the
    specification's value of the argument, the argument unchanged. -/
theorem run_main [∀ e, Nonempty (Elt F e)] (hT : (K (F := F)).TileObl (D (F := F)) 𝒱 (P m) v₀ 0) :
    θ_run (Cert.KernelIdeal.defs (F := F)) (Cert.KernelIdeal.threads (F := F)) ⟨m, fun _ => 0, ρ⟩
      (fun r => ∀ c : Dev nD, r.2.mem (oLoc c) = want m c ∧ r.2.mem (aLoc c) = m (aLoc c)) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.PayKB.lean ====
/-
  What the one SparseCore call hands each SparseCore and each vector subcore, and what comes back. The thirty-two tiles
  work on disjoint blocks of 512 consecutive samples: tile `s` of SparseCore `c` on block `2 s + c`. The argument array
  is only read, so every tile is lent a read share of the whole of it; of the result each tile is lent exactly its own
  block of samples, at full share, and returns it holding the specification's values.
-/
import proofs.«217884_g26414048870634_cont_9to1_797_14_alg».proof.Kernel
import proofs.«217884_g26414048870634_cont_9to1_797_14_alg».proof.Proof.Gen.Kernel
import proofs.«217884_g26414048870634_cont_9to1_797_14_alg».proof.Proof.Gen.Kernel.Skeleton
import proofs.«217884_g26414048870634_cont_9to1_797_14_alg».proof.Proof.Spec
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays, the blocks of samples, the read shares -/

variable (m : (ℓ : Loc nD τ sig) → Buf (Elt F) ℓ) (ρ : Dev nD → PrngReg)

/-- The argument and the result, as locations of device `d`. -/
abbrev aLoc (d : Dev nD) : Loc nD τ sig := (SparseCore.T d).loc main_arg0
abbrev oLoc (d : Dev nD) : Loc nD τ sig := (SparseCore.T d).loc main_v0

/-- The result the specification asks for, from the argument's launch contents. -/
abbrev want (d : Dev nD) : Buf (Elt F) (oLoc d) := Cert.Spec.G (m (aLoc d))

/-- The samples of SparseCore `c` (the blocks of odd or even number), and of its tile `s` (block `2 s + c`). -/
def coreRows (c : Fin 2) : Finset S16384x16x256.Idx := Finset.univ.filter fun i => ((i 0).val / 512) % 2 = c.val
def tileRows (c : Fin 2) (s : Fin 16) : Finset S16384x16x256.Idx := Finset.univ.filter fun i => (i 0).val / 512 = 2 * s.val + c.val

/-- The read share of the argument lent to SparseCore `c`, and of that the one lent to its tile `s`. -/
abbrev qCore (c : Fin 2) : PosShare TreeShare := Transfers.shareTok fullShare 2 c
abbrev qTile (c : Fin 2) (s : Fin 16) : PosShare TreeShare := Transfers.shareTok (qCore c) 16 s

abbrev aShare (d : Dev nD) (q : PosShare TreeShare) : sProp 𝕄 := aLoc d ↦{q} m (aLoc d)
abbrev oRows (d : Dev nD) (R : Finset S16384x16x256.Idx) (f : Buf (Elt F) (oLoc d)) : sProp 𝕄 := oLoc d ↦[R]{fullShare} f

/-- The call's payloads: a SparseCore takes its share of the argument and its samples of the result, a tile likewise; both
    return the result's samples at the specification's values. -/
def P : (K (F := F)).Pay (nD := nD) (Val := Elt F) (Name := ℕ) (U := UU) where
  st := fun q d c => match q with
    | 0 => iprop(aShare m d (qCore (Fin.cast nCore_zero c)) ∗ oRows d (coreRows (Fin.cast nCore_zero c)) (m (oLoc d)))
  dn := fun q d c => match q with
    | 0 => iprop(aShare m d (qCore (Fin.cast nCore_zero c)) ∗ oRows d (coreRows (Fin.cast nCore_zero c)) (want m d))
  go := fun q d c i => match q with
    | 0 => iprop(aShare m d (qTile (Fin.cast nCore_zero c) (Fin.cast nSub_zero i)) ∗ oRows d (tileRows (Fin.cast nCore_zero c) (Fin.cast nSub_zero i)) (m (oLoc d)))
  td := fun q d c i => match q with
    | 0 => iprop(aShare m d (qTile (Fin.cast nCore_zero c) (Fin.cast nSub_zero i)) ∗ oRows d (tileRows (Fin.cast nCore_zero c) (Fin.cast nSub_zero i)) (want m d))
  x := fun _ _ => iprop(emp)

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

end Cert.Proof.KB

end
-- ==== Proof.RowsKB.lean ====
/-
  The blocks of samples form a partition. The 16384 samples fall into thirty-two blocks of 512 consecutive ones; a
  SparseCore takes the blocks whose number has its own parity, and tile `s` of SparseCore `c` the block `2 s + c`.
  Hence the two SparseCores' sets of samples are disjoint and exhaust the array, and the sixteen tiles' sets of one
  SparseCore are pairwise disjoint and exhaust that SparseCore's set.
-/
import proofs.«217884_g26414048870634_cont_9to1_797_14_alg».proof.Proof.PayKB

noncomputable section

namespace Cert.Proof.KB

open Cert.Kernel Cert.Kernel.Gen

open Idealize.ShloMosaic

/-- The sample coordinate of an index of the result is below the number of samples. -/
theorem sample_lt (i : S16384x16x256.Idx) : (i 0).val < 16384 := (i 0).isLt

theorem mem_coreRows {c : Fin 2} {i : S16384x16x256.Idx} : i ∈ coreRows c ↔ ((i 0).val / 512) % 2 = c.val := by
  unfold coreRows; rw [Finset.mem_filter]; exact ⟨fun h => h.2, fun h => ⟨Finset.mem_univ _, h⟩⟩

theorem mem_tileRows {c : Fin 2} {s : Fin 16} {i : S16384x16x256.Idx} : i ∈ tileRows c s ↔ (i 0).val / 512 = 2 * s.val + c.val := by
  unfold tileRows; rw [Finset.mem_filter]; exact ⟨fun h => h.2, fun h => ⟨Finset.mem_univ _, h⟩⟩

/-- A block number has one parity. -/
theorem coreRows_disjoint :
    ∀ c ∈ (Finset.univ : Finset (Fin 2)), ∀ c' ∈ (Finset.univ : Finset (Fin 2)), c ≠ c' → Disjoint (coreRows c) (coreRows c') := by
  intro c _ c' _ h
  refine Finset.disjoint_left.mpr fun i hi hi' => h (Fin.ext ?_)
  rw [mem_coreRows] at hi hi'
  omega

/-- Every block number has a parity. -/
theorem coreRows_cover : (Finset.univ : Finset (Fin 2)).biUnion coreRows = Finset.univ :=
  Finset.eq_univ_iff_forall.mpr fun i =>
    Finset.mem_biUnion.mpr ⟨⟨((i 0).val / 512) % 2, Nat.mod_lt _ (by decide)⟩, Finset.mem_univ _, mem_coreRows.mpr rfl⟩

/-- A block number of parity `c` is `2 s + c` for one `s`. -/
theorem tileRows_disjoint (c : Fin 2) :
    ∀ s ∈ (Finset.univ : Finset (Fin 16)), ∀ s' ∈ (Finset.univ : Finset (Fin 16)), s ≠ s' → Disjoint (tileRows c s) (tileRows c s') := by
  intro s _ s' _ h
  refine Finset.disjoint_left.mpr fun i hi hi' => h (Fin.ext ?_)
  rw [mem_tileRows] at hi hi'
  omega

/-- The block numbers are below 32, so those of parity `c` are the `2 s + c` with `s` below 16. -/
theorem tileRows_cover (c : Fin 2) : (Finset.univ : Finset (Fin 16)).biUnion (tileRows c) = coreRows c := by
  ext i
  rw [Finset.mem_biUnion, mem_coreRows]
  constructor
  · rintro ⟨s, -, hs⟩
    rw [mem_tileRows] at hs
    have hc := c.isLt
    omega
  · intro h
    have hi := sample_lt i
    refine ⟨⟨(i 0).val / 512 / 2, by omega⟩, Finset.mem_univ _, mem_tileRows.mpr ?_⟩
    show (i 0).val / 512 = 2 * ((i 0).val / 512 / 2) + c.val
    omega

end Cert.Proof.KB

end
-- ==== Proof.LaunchKB.lean ====
/-
  The launch of the one SparseCore call. The TensorCore hands each of the two SparseCores a read share of the argument
  and that SparseCore's samples of the result; a SparseCore hands each of its sixteen tiles a read share of its share and
  that tile's block of samples. The tiles return their blocks holding the specification's values, the blocks join to the
  SparseCores' sets and those to the whole result; the read shares rejoin to the argument, untouched. Given the proof
  of one tile's task, every weakly fair run of the thirty-five threads ends with the result at the specification's value
  and the argument unchanged.
-/
import proofs.«217884_g26414048870634_cont_9to1_797_14_alg».proof.Proof.PayKB
import proofs.«217884_g26414048870634_cont_9to1_797_14_alg».proof.Proof.RowsKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## The result's samples, by SparseCore and by tile -/

/-- The whole result is the two SparseCores' samples. -/
theorem oPts_cores (d : Dev nD) (f : Buf (Elt F) (oLoc d)) :
    (oLoc d ↦{fullShare} f : sProp 𝕄) = bigSep Finset.univ fun c : Fin 2 => oRows d (coreRows c) f := by
  rw [← pointsTo_biUnion Finset.univ (ℓ := oLoc d) coreRows coreRows_disjoint, coreRows_cover]

/-- A SparseCore's samples are its sixteen tiles' blocks. -/
theorem oRows_tiles (d : Dev nD) (c : Fin 2) (f : Buf (Elt F) (oLoc d)) :
    (oRows d (coreRows c) f : sProp 𝕄) = bigSep Finset.univ fun s : Fin 16 => oRows d (tileRows c s) f := by
  rw [← pointsTo_biUnion Finset.univ (ℓ := oLoc d) (tileRows c) (tileRows_disjoint c), tileRows_cover]

/-- The call's SparseCores are the two, its tiles the sixteen. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-! ## A SparseCore's operands split among its tiles -/

/-- The SparseCore's read share of the argument splits into sixteen read shares and a remainder, which waits for them;
    its samples of the result are its tiles' blocks, at the launch contents going out and at the specification's values
    coming back. -/
theorem vecSplit : (K (F := F)).VecSplit' (P m) 0 := by
  intro d c
  show iprop(aShare m d (qCore (Fin.cast nCore_zero c)) ∗ oRows d (coreRows (Fin.cast nCore_zero c)) (m (oLoc d))) ⊢ |={Set.univ}=> iprop(
      (bigSep Finset.univ fun i : Fin ((K (F := F)).nSub 0) =>
        iprop(aShare m d (qTile (Fin.cast nCore_zero c) (Fin.cast nSub_zero i)) ∗ oRows d (tileRows (Fin.cast nCore_zero c) (Fin.cast nSub_zero i)) (m (oLoc d))))
      ∗ ((bigSep Finset.univ fun i : Fin ((K (F := F)).nSub 0) =>
          iprop(aShare m d (qTile (Fin.cast nCore_zero c) (Fin.cast nSub_zero i)) ∗ oRows d (tileRows (Fin.cast nCore_zero c) (Fin.cast nSub_zero i)) (want m d)))
          -∗ iprop(aShare m d (qCore (Fin.cast nCore_zero c)) ∗ oRows d (coreRows (Fin.cast nCore_zero c)) (want m d))))
  generalize Fin.cast nCore_zero c = c'
  rw [bigSep_tasks (F := F) (fun i => iprop(aShare m d (qTile c' i) ∗ oRows d (tileRows c' i) (m (oLoc d)))),
    bigSep_tasks (F := F) (fun i => iprop(aShare m d (qTile c' i) ∗ oRows d (tileRows c' i) (want m d))), bigSep_sep', bigSep_sep',
    oRows_tiles, oRows_tiles]
  iintro ⟨Ha, Ho⟩
  ihave Ha' := (Transfers.pointsTo_toks_split (qCore c') 16) $$ Ha
  icases Ha' with ⟨Hrest, Htoks⟩
  imodintro
  isplitl [Htoks Ho]
  · isplitl [Htoks]; · iexact Htoks
    iexact Ho
  iintro ⟨Htoks, Ho⟩
  isplitl [Hrest Htoks]
  · iapply (Transfers.pointsTo_toks_join (qCore c') 16)
    isplitl [Hrest]; · iexact Hrest
    iexact Htoks
  iexact Ho

/-! ## The launch element: the handshakes' rounds; the counters unused -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The TensorCore's arrays: the argument and the result. -/
theorem unscopedBufs_eq (d : Dev nD) (W : (b : Ref sig .tc) → Buf (Elt F) ((d.tc : Thread nD τ).loc b)) :
    (unscopedBufs d W : sProp 𝕄) = iprop((aLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- What the call takes for the two SparseCores, and what it hands back. -/
theorem st0_eq (d : Dev nD) :
    (bigSep Finset.univ fun c : Fin ((K (F := F)).nCore 0) => (P m).st 0 d c)
      = iprop((bigSep Finset.univ fun c : Fin 2 => aShare m d (qCore c)) ∗ bigSep Finset.univ fun c : Fin 2 => oRows d (coreRows c) (m (oLoc d))) := by
  rw [← bigSep_sep']
  exact bigSep_cores (F := F) (fun c => iprop(aShare m d (qCore c) ∗ oRows d (coreRows c) (m (oLoc d))))
theorem dn0_eq (d : Dev nD) :
    (bigSep Finset.univ fun c : Fin ((K (F := F)).nCore 0) => (P m).dn 0 d c)
      = iprop((bigSep Finset.univ fun c : Fin 2 => aShare m d (qCore c)) ∗ bigSep Finset.univ fun c : Fin 2 => oRows d (coreRows c) (want m d)) := by
  rw [← bigSep_sep']
  exact bigSep_cores (F := F) (fun c => iprop(aShare m d (qCore c) ∗ oRows d (coreRows c) (want m d)))

variable [FloatOps F]

/-- What @main leaves the claim: the argument at its launch contents, the result at the specification's value. -/
abbrev FIN (d : Dev nD) : sProp 𝕄 := iprop((aLoc d ↦{fullShare} m (aLoc d)) ∗ oLoc d ↦{fullShare} want m d)

/-- @main on device `d`'s TensorCore: the one call. The argument goes out as two read shares, the remainder kept; the
    result as the two SparseCores' samples; both come back and are joined. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Ho⟩, -, -⟩, -⟩
  ihave Ha' := (Transfers.pointsTo_toks_split fullShare 2) $$ Ha
  icases Ha' with ⟨Hrest, Htoks⟩
  ihave Ho' := (Entails.of_eq (oPts_cores (F := F) d _)) $$ Ho
  iapply ((K (F := F)).wp_run (D (F := F)) 𝒱 (EH := EH) (P := P m) κ d 0) $$ [Hst Htoks Ho' Hrest]
  isplitr; · iexact Hctx
  isplitl [Hst]; · iexact Hst
  isplitl [Htoks Ho']
  · rw [st0_eq]
    isplitl [Htoks]; · iexact Htoks
    iexact Ho'
  iintro ⟨Hst, Hdn⟩
  ihave Hdn' := (Entails.of_eq (dn0_eq m d)) $$ Hdn
  icases Hdn' with ⟨Htoks, Ho⟩
  imodintro
  isplitl [Hst]; · iexact Hst
  isplitl [Hrest Htoks]
  · iapply (Transfers.pointsTo_toks_join fullShare 2)
    isplitl [Hrest]; · iexact Hrest
    iexact Htoks
  · iapply (Entails.of_eq (oPts_cores (F := F) d (want m d)).symm); iexact Ho

/-! ## The final memory -/

def fq (d : Dev nD) (s' : Phys nD τ sig (Elt F)) : Prop := s'.mem.mem (oLoc d) = want m d ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ha, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := oLoc d) (I := Finset.univ) (q := fullShare) (f := want m d)) $$ [HSI Ho]
  · isplitl [HSI] <;> iassumption
  icases H with %h2
  ipureintro; exact ⟨funext fun i => h2 i (Finset.mem_univ i), funext fun i => h1 i (Finset.mem_univ i)⟩

/-! ## The program's run -/

def QC : PUnit × MemSt nD τ sig (Elt F) → Prop := fun r => ∀ c : Dev nD, r.2.mem (oLoc c) = want m c ∧ r.2.mem (aLoc c) = m (aLoc c)

/-- From the proof of one tile's task: every weakly fair run of the device's threads ends, the result at the
    specification's value of the argument, the argument unchanged. -/
theorem run_main [∀ e, Nonempty (Elt F e)] (hT : (K (F := F)).TileObl (D (F := F)) 𝒱 (P m) v₀ 0) :
    θ_run (Cert.Kernel.defs (F := F)) (Cert.Kernel.threads (F := F)) ⟨m, fun _ => 0, ρ⟩
      (fun r => ∀ c : Dev nD, r.2.mem (oLoc c) = want m c ∧ r.2.mem (aLoc c) = m (aLoc c)) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.GeomKI.lean ====
/-
  The geometry of one tile's work. The tile's vector memory holds two slabs of eight samples (all ten parts of each); a
  slab is the disjoint union of its ten part-columns, and a column is what one outgoing copy reads. Of the result the tile
  owns the box of its 512 samples. These are statements about index sets only.
-/
import proofs.«217884_g26414048870634_cont_9to1_797_14_alg».proof.Proof.PayKI

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
local notation "aW" => (Memref.whole Cert.KernelIdeal.main_arg0_scv : Memref Cert.KernelIdeal.sig Kind.scVector Space.hbm Cert.KernelIdeal.S16384x10x256 EltTy.f32)
local notation "oW" => (Memref.whole Cert.KernelIdeal.main_v0_scv : Memref Cert.KernelIdeal.sig Kind.scVector Space.hbm Cert.KernelIdeal.S16384x16x256 EltTy.f32)
local notation "sW" => (Memref.whole Cert.KernelIdeal.cc0_scratch0 : Memref Cert.KernelIdeal.sig Kind.scVector Space.vmem Cert.KernelIdeal.S2x8x10x256 EltTy.f32)

variable (d : Dev nD) (L : grid0.Coords)

/-- The tile at grid point `L`: its SparseCore, its subcore, its thread. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)
theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)

/-- The tile's first sample. -/
abbrev n0 (L : grid0.Coords) : ℕ := 1024 * (L 1).val + 512 * (L 0).val
theorem n0_le (L : grid0.Coords) : n0 L + 512 ≤ 16384 := by
  have h1 : (L 1).val < 16 := (L 1).isLt
  have h0 : (L 0).val < 2 := (L 0).isLt
  unfold n0; omega

/-- The tile's scratch location. -/
abbrev sLoc (d : Dev nD) (L : grid0.Coords) : Loc nD τ sig := (thr d L).loc cc0_scratch0

/-! ## Slabs and columns of the scratch -/

theorem slab_inb (b : ℕ) (hb : b < 2) : ∀ a, (![b, 0, 0, 0] : Fin 4 → Nat) a + S1x8x10x256.size a ≤ S2x8x10x256.size a := by
  intro a; fin_cases a <;> simp <;> omega
theorem col_inb (b p : ℕ) (hb : b < 2) (hp : p < 10) : ∀ a, (![b, 0, p, 0] : Fin 4 → Nat) a + S1x8x1x256.size a ≤ S2x8x10x256.size a := by
  intro a; fin_cases a <;> simp <;> omega

/-- Slab `b`: samples' staging area number `b`, all parts. Column `p` of it: part `p` of its eight samples. -/
abbrev slab (b : ℕ) (hb : b < 2) : Memref sig .scVector .vmem S8x10x256 .f32 :=
  ((sW).slice (Rect.unit (s := S2x8x10x256) ![b, 0, 0, 0] S1x8x10x256.size (slab_inb b hb)) (fun _ => rfl)).squeeze S8x10x256 squeezes_S1x8x10x256_S8x10x256
abbrev col (b p : ℕ) (hb : b < 2) (hp : p < 10) : Memref sig .scVector .vmem S8x1x256 .f32 :=
  ((sW).slice (Rect.unit (s := S2x8x10x256) ![b, 0, p, 0] S1x8x1x256.size (col_inb b p hb hp)) (fun _ => rfl)).squeeze S8x1x256 squeezes_S1x8x1x256_S8x1x256

theorem slab_set (b : ℕ) (hb : b < 2) :
    (slab b hb).view.set = (Rect.unit (s := S2x8x10x256) ![b, 0, 0, 0] S1x8x10x256.size (slab_inb b hb)).set := by
  exact (View.set_reshape _ _).trans (View.set_slice_whole _ _)
theorem col_set (b p : ℕ) (hb : b < 2) (hp : p < 10) :
    (col b p hb hp).view.set = (Rect.unit (s := S2x8x10x256) ![b, 0, p, 0] S1x8x1x256.size (col_inb b p hb hp)).set := by
  exact (View.set_reshape _ _).trans (View.set_slice_whole _ _)

/-- The columns of a slab, as a family over the ten parts. -/
def colSet (b : ℕ) (hb : b < 2) (p : Fin 10) : Finset S2x8x10x256.Idx := (col b p.val hb p.isLt).view.set

theorem mem_colSet (b : ℕ) (hb : b < 2) (p : Fin 10) (i : S2x8x10x256.Idx) :
    i ∈ colSet b hb p ↔ (i 0).val = b ∧ (i 2).val = p.val := by
  unfold colSet; rw [col_set, Rect.mem_set_unit]
  have h0 : (i 0).val < 2 := (i 0).isLt; have h1 : (i 1).val < 8 := (i 1).isLt
  have h2 : (i 2).val < 10 := (i 2).isLt; have h3 : (i 3).val < 256 := (i 3).isLt
  constructor
  · intro h; have a0 := h 0; have a2 := h 2; simp at a0 a2; omega
  · rintro ⟨e0, e2⟩ a; fin_cases a <;> simp <;> omega

theorem mem_slabSet (b : ℕ) (hb : b < 2) (i : S2x8x10x256.Idx) : i ∈ (slab b hb).view.set ↔ (i 0).val = b := by
  rw [slab_set, Rect.mem_set_unit]
  have h0 : (i 0).val < 2 := (i 0).isLt; have h1 : (i 1).val < 8 := (i 1).isLt
  have h2 : (i 2).val < 10 := (i 2).isLt; have h3 : (i 3).val < 256 := (i 3).isLt
  constructor
  · intro h; have a0 := h 0; simp at a0; omega
  · intro e0 a; fin_cases a <;> simp <;> omega

theorem cols_disjoint (b : ℕ) (hb : b < 2) :
    ∀ p ∈ (Finset.univ : Finset (Fin 10)), ∀ p' ∈ (Finset.univ : Finset (Fin 10)), p ≠ p' → Disjoint (colSet b hb p) (colSet b hb p') := by
  intro p _ p' _ hne
  refine Finset.disjoint_left.mpr fun i h h' => hne (Fin.ext ?_)
  have := (mem_colSet b hb p i).mp h; have := (mem_colSet b hb p' i).mp h'; omega

theorem cols_cover (b : ℕ) (hb : b < 2) : (Finset.univ : Finset (Fin 10)).biUnion (colSet b hb) = (slab b hb).view.set := by
  ext i
  rw [Finset.mem_biUnion, mem_slabSet]
  constructor
  · rintro ⟨p, -, hp⟩; exact ((mem_colSet b hb p i).mp hp).1
  · intro e; exact ⟨⟨(i 2).val, (i 2).isLt⟩, Finset.mem_univ _, (mem_colSet b hb _ i).mpr ⟨e, rfl⟩⟩

theorem bigSep_fin10 (Φ : Fin 10 → sProp 𝕄) :
    bigSep (Finset.univ : Finset (Fin 10)) Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- A slab held by its own elements is its ten columns, each held by its own. -/
theorem slab_cols (b : ℕ) (hb : b < 2) (f : Buf (Elt F) (sLoc d L)) :
    ((slab b hb).view.loc (thr d L) ↦[(slab b hb).view.set]{fullShare} f : sProp 𝕄)
      = bigSep (Finset.univ : Finset (Fin 10)) fun p => ((col b p.val hb p.isLt).view.loc (thr d L) ↦[(col b p.val hb p.isLt).view.set]{fullShare} f : sProp 𝕄) := by
  rw [← cols_cover b hb]
  exact pointsTo_biUnion Finset.univ (ℓ := sLoc d L) (colSet b hb) (cols_disjoint b hb)

end Cert.Proof.KI

end
-- ==== Proof.ValKI.lean ====
/-
  What the copies move, index by index. A copy of eight samples of the argument into a slab leaves row `r` of the slab
  at sample `N + r`; a copy of one part-column of such a slab into the result's window (samples `N … N + 7`, joint `j`)
  writes there what the specification asks, when the column is the joint's source part; and a write through a window keeps
  agreement with the specification wherever it held before and adds the window.
-/
import proofs.«217884_g26414048870634_cont_9to1_797_14_alg».proof.Proof.GeomKI
import Idealize.ShloMosaic.Lib.ValueIdx
import Idealize.ShloMosaic.Lib.ValueLayout

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}
local notation "𝕄" => MT nD τ sig (HIx 1) (Elt F) ℕ UU ℕ
local notation "aW" => (Memref.whole Cert.KernelIdeal.main_arg0_scv : Memref Cert.KernelIdeal.sig Kind.scVector Space.hbm Cert.KernelIdeal.S16384x10x256 EltTy.f32)
local notation "oW" => (Memref.whole Cert.KernelIdeal.main_v0_scv : Memref Cert.KernelIdeal.sig Kind.scVector Space.hbm Cert.KernelIdeal.S16384x16x256 EltTy.f32)
local notation "sW" => (Memref.whole Cert.KernelIdeal.cc0_scratch0 : Memref Cert.KernelIdeal.sig Kind.scVector Space.vmem Cert.KernelIdeal.S2x8x10x256 EltTy.f32)

variable (d : Dev nD) (L : grid0.Coords)

/-- Eight consecutive samples of the argument, as a transfer's source. -/
abbrev srcSl (off : Fin 3 → Nat) (h : ∀ a, off a + S8x10x256.size a ≤ S16384x10x256.size a) : Memref sig .scVector .hbm S8x10x256 .f32 :=
  (aW).slice (Rect.unit (s := S16384x10x256) off S8x10x256.size h) (fun _ => rfl)
/-- Eight consecutive samples of one joint of the result, as a transfer's destination. -/
abbrev winSl (off : Fin 3 → Nat) (h : ∀ a, off a + S8x1x256.size a ≤ S16384x16x256.size a) : Memref sig .scVector .hbm S8x1x256 .f32 :=
  (oW).slice (Rect.unit (s := S16384x16x256) off S8x1x256.size h) (fun _ => rfl)

/-- Slab `b` holds samples `N … N + 7` of the argument array `fa`. -/
def SlabHolds (b : ℕ) (hb : b < 2) (N : ℕ) (fa : Buf (Elt F) (aLoc d)) (f : Buf (Elt F) (sLoc d L)) : Prop :=
  ∀ (r : Fin 8) (p : Fin 10) (x : Fin 256) (hN : N + r.val < 16384),
    f (ix4 (n0 := 2) (n1 := 8) (n2 := 10) (n3 := 256) ⟨b, hb⟩ r p x) = fa (ix3 (n0 := 16384) (n1 := 10) (n2 := 256) ⟨N + r.val, hN⟩ p x)

/-- The result array `g` agrees with `want` wherever `P` holds. -/
def Agree (want g : Buf (Elt F) (oLoc d)) (P : S16384x16x256.Idx → Prop) : Prop := ∀ i, P i → g i = want i

/-! ## Where the views' indices sit -/

/-- Row `r`, part `p`, feature `x` of slab `b` is element `(b, r, p, x)` of the scratch. -/
theorem slab_emb (b : ℕ) (hb : b < 2) (r : Fin 8) (p : Fin 10) (x : Fin 256) :
    (slab b hb).view.emb (ix3 r p x) = ix4 (n0 := 2) (n1 := 8) (n2 := 10) (n3 := 256) ⟨b, hb⟩ r p x := by
  show (Rect.unit (s := S2x8x10x256) ![b, 0, 0, 0] S1x8x10x256.size (slab_inb b hb)).emb
      (Shape.reshapeEquiv squeezes_S1x8x10x256_S8x10x256.numel_eq (ix3 r p x)) = _
  rw [reshapeEquiv_ix3_1abc]
  funext a; apply Fin.ext
  rw [Rect.emb_apply]
  fin_cases a <;> simp

/-- Row `r`, feature `x` of column `p` of slab `b` is element `(b, r, p, x)` of the scratch. -/
theorem col_emb (b p : ℕ) (hb : b < 2) (hp : p < 10) (r : Fin 8) (z : Fin 1) (x : Fin 256) :
    (col b p hb hp).view.emb (ix3 r z x) = ix4 (n0 := 2) (n1 := 8) (n2 := 10) (n3 := 256) ⟨b, hb⟩ r ⟨p, hp⟩ x := by
  show (Rect.unit (s := S2x8x10x256) ![b, 0, p, 0] S1x8x1x256.size (col_inb b p hb hp)).emb
      (Shape.reshapeEquiv squeezes_S1x8x1x256_S8x1x256.numel_eq (ix3 r z x)) = _
  rw [reshapeEquiv_ix3_1abc]
  have hz : z.val = 0 := by have := z.isLt; omega
  funext a; apply Fin.ext
  rw [Rect.emb_apply]
  fin_cases a <;> simp [hz]

/-- Row `r`, part `p`, feature `x` of the eight samples from `N` is element `(N + r, p, x)` of the argument. -/
theorem srcSl_emb (N : ℕ) (off : Fin 3 → Nat) (h : ∀ a, off a + S8x10x256.size a ≤ S16384x10x256.size a) (hoff : off = ![N, 0, 0])
    (r : Fin 8) (p : Fin 10) (x : Fin 256) (hN : N + r.val < 16384) :
    (srcSl off h).view.emb (ix3 r p x) = ix3 (n0 := 16384) (n1 := 10) (n2 := 256) ⟨N + r.val, hN⟩ p x := by
  subst hoff
  show (Rect.unit (s := S16384x10x256) ![N, 0, 0] S8x10x256.size h).emb (ix3 r p x) = _
  funext a; apply Fin.ext
  rw [Rect.emb_apply]
  fin_cases a <;> simp

/-- Row `r`, feature `x` of the window of joint `j` from sample `N` is element `(N + r, j, x)` of the result. -/
theorem winSl_emb (N : ℕ) (j : Fin 16) (off : Fin 3 → Nat) (h : ∀ a, off a + S8x1x256.size a ≤ S16384x16x256.size a) (hoff : off = ![N, j.val, 0])
    (r : Fin 8) (z : Fin 1) (x : Fin 256) (hN : N + r.val < 16384) :
    (winSl off h).view.emb (ix3 r z x) = ix3 (n0 := 16384) (n1 := 16) (n2 := 256) ⟨N + r.val, hN⟩ j x := by
  subst hoff
  show (Rect.unit (s := S16384x16x256) ![N, j.val, 0] S8x1x256.size h).emb (ix3 r z x) = _
  have hz : z.val = 0 := by have := z.isLt; omega
  funext a; apply Fin.ext
  rw [Rect.emb_apply]
  fin_cases a <;> simp [hz]

/-! ## What the copies move -/

/-- A copy of samples `N … N + 7` of the argument into slab `b` leaves the slab holding them. -/
theorem slab_lands (b : ℕ) (hb : b < 2) (N : ℕ) (hN : N + 8 ≤ 16384) (off : Fin 3 → Nat)
    (h : ∀ a, off a + S8x10x256.size a ≤ S16384x10x256.size a) (hoff : off = ![N, 0, 0])
    (fprev : Buf (Elt F) (sLoc d L)) (fa : Buf (Elt F) (aLoc d)) :
    SlabHolds d L b hb N fa
      (View.write (Elt F) (slab b hb).view fprev (ReadAs.same.apply (View.read (Elt F) (srcSl off h).view fa)) Finset.univ) := by
  intro r p x hN'
  rw [← slab_emb b hb r p x, View.write_emb_of_mem _ _ (Finset.mem_univ _)]
  show _root_.cast _ (_root_.cast _ (fa ((srcSl off h).view.emb (ix3 r p x)))) = _
  rw [srcSl_emb N off h hoff r p x hN']
  rfl

/-- The elements of a result window: samples `N … N + 7` of joint `j`. -/
theorem mem_win (N j : ℕ) (off : Fin 3 → Nat) (h : ∀ a, off a + S8x1x256.size a ≤ S16384x16x256.size a) (hoff : off = ![N, j, 0])
    (i : S16384x16x256.Idx) : i ∈ (winSl off h).view.set ↔ (N ≤ (i 0).val ∧ (i 0).val < N + 8 ∧ (i 1).val = j) := by
  subst hoff
  rw [show (winSl ![N, j, 0] h).view.set = (Rect.unit (s := S16384x16x256) ![N, j, 0] S8x1x256.size h).set from View.set_slice_whole _ _,
    Rect.mem_set_unit]
  have h2 : (i 2).val < 256 := (i 2).isLt
  constructor
  · intro hh; have a0 := hh 0; have a1 := hh 1; simp at a0 a1; omega
  · rintro ⟨e0, e1, e2⟩ a; fin_cases a <;> simp <;> omega

/-- What a copy of column `p` of slab `b` carries is what the specification asks of joint `j`'s window, when `p` is
    the joint's source part and the slab holds the window's samples. -/
theorem piece_ok (b : ℕ) (hb : b < 2) (p : ℕ) (hp : p < 10) (j : Fin 16) (hpj : (⟨p, hp⟩ : Fin 10) = Cert.Spec.src j)
    (N : ℕ) (hN : N + 8 ≤ 16384) (off : Fin 3 → Nat) (h : ∀ a, off a + S8x1x256.size a ≤ S16384x16x256.size a) (hoff : off = ![N, j.val, 0])
    (fa : Buf (Elt F) (aLoc d)) (f : Buf (Elt F) (sLoc d L)) (hf : SlabHolds d L b hb N fa f) (y : S8x1x256.Idx) :
    ReadAs.same.apply (View.read (Elt F) (col b p hb hp).view f) y = (Cert.Spec.G fa : Buf (Elt F) (oLoc d)) ((winSl off h).view.emb y) := by
  obtain ⟨r, z, x, rfl⟩ : ∃ r z x, y = ix3 (n0 := 8) (n1 := 1) (n2 := 256) r z x := ⟨y 0, y 1, y 2, eq_ix3 y⟩
  have hN' : N + r.val < 16384 := by have := r.isLt; omega
  rw [winSl_emb N j off h hoff r z x hN']
  show _root_.cast _ (f ((col b p hb hp).view.emb (ix3 r z x))) = _
  rw [col_emb b p hb hp r z x, hf r ⟨p, hp⟩ x hN', hpj]
  rfl

/-- A write through a window whose payload is the specification's keeps agreement and extends it to the window. -/
theorem agree_write (want g : Buf (Elt F) (oLoc d)) (P : S16384x16x256.Idx → Prop) (hg : Agree d want g P)
    (off : Fin 3 → Nat) (h : ∀ a, off a + S8x1x256.size a ≤ S16384x16x256.size a)
    (w : S8x1x256.Idx → Elt F .f32) (hw : ∀ y, w y = want ((winSl off h).view.emb y)) :
    Agree d want (View.write (Elt F) (winSl off h).view g w Finset.univ) (fun i => P i ∨ i ∈ (winSl off h).view.set) := by
  intro i hi
  by_cases hm : i ∈ (winSl off h).view.set
  · obtain ⟨y, -, rfl⟩ := Finset.mem_map.mp hm
    rw [View.write_emb_of_mem _ _ (Finset.mem_univ _)]
    exact (cast_eq _ _).trans (hw y)
  · rw [View.write_of_not_mem _ _ _ (by rw [View.setOn_univ]; exact hm)]
    exact hg i (hi.resolve_right hm)

end Cert.Proof.KI

end
-- ==== Proof.BodyKI.lean ====
/-
  One tile's task. Two slabs are filled in turn with eight samples each; each filled slab is fanned out by sixteen copies,
  one per joint, of the joint's source part-column into the joint's window of the result; a slab is refilled only after all
  sixteen copies out of it have been waited for. The loop's invariant: the two fills for the trip's two chunks are in
  flight, and the result agrees with the specification on every sample before the trip's first.
-/
import proofs.«217884_g26414048870634_cont_9to1_797_14_alg».proof.Proof.ValKI

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}
local notation "𝕄" => MT nD τ sig (HIx 1) (Elt F) ℕ UU ℕ
local notation "aW" => (Memref.whole Cert.KernelIdeal.main_arg0_scv : Memref Cert.KernelIdeal.sig Kind.scVector Space.hbm Cert.KernelIdeal.S16384x10x256 EltTy.f32)
local notation "oW" => (Memref.whole Cert.KernelIdeal.main_v0_scv : Memref Cert.KernelIdeal.sig Kind.scVector Space.hbm Cert.KernelIdeal.S16384x16x256 EltTy.f32)
local notation "sW" => (Memref.whole Cert.KernelIdeal.cc0_scratch0 : Memref Cert.KernelIdeal.sig Kind.scVector Space.vmem Cert.KernelIdeal.S2x8x10x256 EltTy.f32)

variable (m : (ℓ : Loc nD τ sig) → Buf (Elt F) ℓ)
variable (d : Dev nD) (L : grid0.Coords)

/-- The box of the result the tile owns: its 512 samples, all joints. -/
theorem tile_inb (L : grid0.Coords) : ∀ a, (![1024 * (L 1).val + 512 * (L 0).val, 0, 0] : Fin 3 → Nat) a + (![512, 16, 256] : Fin 3 → Nat) a ≤ S16384x16x256.size a := by
  have h1 : (L 1).val < 16 := (L 1).isLt
  have h0 : (L 0).val < 2 := (L 0).isLt
  intro a; fin_cases a <;> simp <;> omega
abbrev tileRect (L : grid0.Coords) : Rect S16384x16x256 := Rect.unit ![1024 * (L 1).val + 512 * (L 0).val, 0, 0] ![512, 16, 256] (tile_inb L)

theorem tileRect_rows : (oW).view.setOn (tileRect L).set = tileRows (cL L) (sL L) := by
  ext i
  have hi0 : (i 0).val < 16384 := (i 0).isLt
  have hi1 : (i 1).val < 16 := (i 1).isLt
  have hi2 : (i 2).val < 256 := (i 2).isLt
  have h1 : (L 1).val < 16 := (L 1).isLt
  have h0 : (L 0).val < 2 := (L 0).isLt
  have e : i ∈ (oW).view.setOn (tileRect L).set ↔ i ∈ (tileRect L).set := by
    unfold View.setOn; simp only [Memref.view_whole, View.emb_whole]; exact Finset.mem_map' _
  rw [e, Rect.mem_set_unit]
  unfold tileRows; rw [Finset.mem_filter]
  constructor
  · intro h; have a0 := h 0; simp at a0
    refine ⟨Finset.mem_univ _, ?_⟩
    show (i 0).val / 512 = 2 * (L 1).val + (L 0).val
    omega
  · rintro ⟨-, h⟩
    have h' : (i 0).val / 512 = 2 * (L 1).val + (L 0).val := h
    intro a; fin_cases a <;> simp <;> omega

/-! ## The arrays as the tile's memrefs address them -/

theorem pts_a (q : PosShare TreeShare) (f : Buf (Elt F) (aLoc d)) :
    ((aW).view.loc (thr d L) ↦{q} f : sProp 𝕄) = aLoc d ↦{q} f := by
  simp only [Memref.view_whole, View.set_whole]
theorem pts_o (f : Buf (Elt F) (oLoc d)) :
    ((oW).view.loc (thr d L) ↦[(oW).view.setOn (tileRect L).set]{fullShare} f : sProp 𝕄) = oLoc d ↦[tileRows (cL L) (sL L)]{fullShare} f := by
  rw [tileRect_rows]

/-! ## The tile's own semaphores and scratch among what the launch hands it -/

omit F d L in
theorem dma_scoped (n : DmaSem sig) : (SemLoc.dma n : SemLoc sig).isScoped .scVector = true := by revert n; decide

abbrev cell (n : DmaSem sig) : GSem nD τ sig := (thr d L, SemLoc.dma n)
theorem cell_mem (n : DmaSem sig) : cell d L n ∈ ownCells (thr d L) :=
  mem_ownCells.mpr ⟨rfl, dma_scoped n⟩
theorem cell_ne {a b : DmaSem sig} (h : a ≠ b) : cell d L a ≠ cell d L b :=
  fun e => h (SemLoc.dma.inj (Prod.mk.inj e).2)

theorem ownSems0_V :
    (ownSems0 (thr d L) : sProp 𝕄)
      = iprop(semVal (cell d L 0) 0 ∗ semVal (cell d L 1) 0 ∗ semVal (cell d L 2) 0 ∗ semVal (cell d L 3) 0
          ∗ bigSep (((((ownCells (thr d L)).erase (cell d L 0)).erase (cell d L 1)).erase (cell d L 2)).erase (cell d L 3)) fun g => semVal g 0) := by
  unfold SparseCore.Cfg.ownSems0
  rw [SparseCore.bigSep_erase' (cell_mem d L 0),
    SparseCore.bigSep_erase' (Finset.mem_erase.mpr ⟨cell_ne d L (by decide), cell_mem d L 1⟩),
    SparseCore.bigSep_erase' (Finset.mem_erase.mpr ⟨cell_ne d L (by decide), Finset.mem_erase.mpr ⟨cell_ne d L (by decide), cell_mem d L 2⟩⟩),
    SparseCore.bigSep_erase' (Finset.mem_erase.mpr ⟨cell_ne d L (by decide), Finset.mem_erase.mpr ⟨cell_ne d L (by decide),
      Finset.mem_erase.mpr ⟨cell_ne d L (by decide), cell_mem d L 3⟩⟩⟩)]

theorem ownBufs_V :
    (ownBufs (thr d L) : sProp 𝕄)
      = iprop((∃ f, sLoc d L ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-- The scratch whole is its two slabs. -/
theorem slabs_whole (f : Buf (Elt F) (sLoc d L)) :
    (sLoc d L ↦{fullShare} f : sProp 𝕄)
      ⊣⊢ iprop(((slab 0 Nat.zero_lt_two).view.loc (thr d L) ↦[(slab 0 Nat.zero_lt_two).view.set]{fullShare} f)
          ∗ ((slab 1 Nat.one_lt_two).view.loc (thr d L) ↦[(slab 1 Nat.one_lt_two).view.set]{fullShare} f)) := by
  have hu : (Finset.univ : Finset S2x8x10x256.Idx) = (slab 0 Nat.zero_lt_two).view.set ∪ (slab 1 Nat.one_lt_two).view.set := by
    ext i
    refine ⟨fun _ => ?_, fun _ => Finset.mem_univ _⟩
    have h0 : (i 0).val < 2 := (i 0).isLt
    rw [Finset.mem_union, mem_slabSet, mem_slabSet]; omega
  have hd : Disjoint (slab 0 Nat.zero_lt_two).view.set (slab 1 Nat.one_lt_two).view.set :=
    Finset.disjoint_left.mpr fun i h h' => by
      have := (mem_slabSet 0 Nat.zero_lt_two i).mp h; have := (mem_slabSet 1 Nat.one_lt_two i).mp h'; omega
  have key : (sLoc d L ↦[(slab 0 Nat.zero_lt_two).view.set ∪ (slab 1 Nat.one_lt_two).view.set]{fullShare} f : sProp 𝕄) ⊣⊢ _ :=
    pointsTo_union (ℓ := sLoc d L) (q := fullShare) (f := f) hd
  rw [← hu] at key
  exact key

theorem bigSep_fin2 (Φ : Fin 2 → sProp 𝕄) : bigSep (Finset.univ : Finset (Fin 2)) Φ = iprop(Φ 0 ∗ Φ 1) := by
  rw [show (Finset.univ : Finset (Fin 2)) = {0, 1} by decide, SparseCore.bigSep_insert' (by decide), bigSep_singleton]

variable [FloatOps F]

abbrev tok (r : Fin 2) : PosShare TreeShare := Transfers.shareTok (qTile (cL L) (sL L)) 2 r

/-- The tile's first sample as the body computes it. -/
abbrev v2w (L : grid0.Coords) : BitVec 32 :=
  Scalar.muli (Scalar.addi (Scalar.muli (BitVec.ofNat 32 (L 1).val) 2#32) (BitVec.ofNat 32 (L 0).val)) 512#32

/-- What the task hands back. -/
abbrev postT (O : CellTallies nD τ sig (HIx 1)) (W : Waits sig (HIx 1)) : PUnit → sProp 𝕄 := fun _ =>
  iprop((aShare m d (qTile (cL L) (sL L)) ∗ oRows d (tileRows (cL L) (sL L)) (want m d))
    ∗ (ownBufs (thr d L)) ∗ (ownSems0 (thr d L))
    ∗ ∃ W', ⌜∀ p ∈ W', p ∈ W ∨ p.2 = none⌝ ∗ owes (thr d L) O W')

/-- After the loop: the two batches of sixteen outgoing copies of the last two chunks are drained. -/
def epi (L : grid0.Coords) : Prog (TpuEff nD τ sig (Elt F) Λ₀ (.scVector ((L 0).castLE hcore0) ((L 1).castLE hsub0))) PUnit := do
  k0_part26 L aW (Memref.isWhole_whole _) oW (Memref.isWhole_whole _) sW (Memref.isWhole_whole _) cc0_scratch1 cc0_scratch2 (v2w L)
  k0_part27 L aW (Memref.isWhole_whole _) oW (Memref.isWhole_whole _) sW (Memref.isWhole_whole _) cc0_scratch1 cc0_scratch2
  k0_part28 L aW (Memref.isWhole_whole _) oW (Memref.isWhole_whole _) sW (Memref.isWhole_whole _) cc0_scratch1 cc0_scratch2
  k0_part29 L aW (Memref.isWhole_whole _) oW (Memref.isWhole_whole _) sW (Memref.isWhole_whole _) cc0_scratch1 cc0_scratch2
  k0_part30 L aW (Memref.isWhole_whole _) oW (Memref.isWhole_whole _) sW (Memref.isWhole_whole _) cc0_scratch1 cc0_scratch2
  k0_part31 L aW (Memref.isWhole_whole _) oW (Memref.isWhole_whole _) sW (Memref.isWhole_whole _) cc0_scratch1 cc0_scratch2 (v2w L)
  k0_part32 L aW (Memref.isWhole_whole _) oW (Memref.isWhole_whole _) sW (Memref.isWhole_whole _) cc0_scratch1 cc0_scratch2
  k0_part33 L aW (Memref.isWhole_whole _) oW (Memref.isWhole_whole _) sW (Memref.isWhole_whole _) cc0_scratch1 cc0_scratch2
  k0_part34 L aW (Memref.isWhole_whole _) oW (Memref.isWhole_whole _) sW (Memref.isWhole_whole _) cc0_scratch1 cc0_scratch2
  k0_part35 L aW (Memref.isWhole_whole _) oW (Memref.isWhole_whole _) sW (Memref.isWhole_whole _) cc0_scratch1 cc0_scratch2
  k0_part36 L aW (Memref.isWhole_whole _) oW (Memref.isWhole_whole _) sW (Memref.isWhole_whole _) cc0_scratch1 cc0_scratch2
  let v276 : DmaSems sig S1 := cc0_scratch2.slice (Rect.unit (s := S2) ![1] S1.size inb_S2_S1_1)
  let v277 : DmaSems sig S_ := v276.squeeze S_ squeezes_S1_S_
  let v278 : Memref sig .scVector .hbm S8x1x256 .f32 := (oW).slice (Rect.unit (s := S16384x16x256) (k0_off68 L 504#32) S8x1x256.size (k0_off68_inb L 1)) (fun _ => rfl)
  let v279 : Memref sig .scVector .vmem S1x8x1x256 .f32 := (sW).slice (Rect.unit (s := S2x8x10x256) ![1, 0, 9, 0] S1x8x1x256.size inb_S2x8x10x256_S1x8x1x256_1_0_9_0) (fun _ => rfl)
  let v280 : Memref sig .scVector .vmem S8x1x256 .f32 := v279.squeeze S8x1x256 squeezes_S1x8x1x256_S8x1x256
  Prog.lift (.waitDma2 v277.sem v280 v278 ((View.wordExact_bits rfl).reshape _ _) (View.wordExact_bits rfl))
  pure ⟨⟩

/-- Before trip `k`: the fills of both slabs with the trip's two chunks are in flight; the result agrees with the
    specification on the tile's samples before the trip's first; both outgoing semaphores rest at zero. -/
def invA (O : CellTallies nD τ sig (HIx 1)) (W : Waits sig (HIx 1)) (k : ℕ) : sProp 𝕄 :=
  iprop(∃ (f0 f1 : Buf (Elt F) (sLoc d L)) (fo : Buf (Elt F) (oLoc d)) (off0 off1 : Fin 3 → ℕ)
      (h0 : ∀ a, off0 a + S8x10x256.size a ≤ S16384x10x256.size a) (h1 : ∀ a, off1 a + S8x10x256.size a ≤ S16384x10x256.size a)
      (W' : Waits sig (HIx 1)),
    ⌜SlabHolds d L 0 Nat.zero_lt_two (n0 L + 16 * k) (m (aLoc d)) f0⌝ ∗ ⌜SlabHolds d L 1 Nat.one_lt_two (n0 L + 16 * k + 8) (m (aLoc d)) f1⌝
    ∗ ⌜Agree d (want m d) fo (fun i => n0 L ≤ (i 0).val ∧ (i 0).val < n0 L + 16 * k)⌝ ∗ ⌜∀ p ∈ W', p ∈ W ∨ p.2 = none⌝
    ∗ Transfers.MayWaits (thr d L) (none : HIx 1) O
    ∗ Transfers.Flight countersEmb (thr d L) (SemLoc.dma (0 : DmaSem sig)) (default : HIx 1) 655360
        iprop(((slab 0 Nat.zero_lt_two).view.loc (thr d L) ↦[(slab 0 Nat.zero_lt_two).view.set]{fullShare} f0)
          ∗ ((aW).view.loc (thr d L) ↦[(srcSl off0 h0).view.set]{tok L 0} m (aLoc d)))
    ∗ ((aW).view.loc (thr d L) ↦[Finset.univ \ (srcSl off0 h0).view.set]{tok L 0} m (aLoc d))
    ∗ Transfers.Flight countersEmb (thr d L) (SemLoc.dma (1 : DmaSem sig)) (default : HIx 1) 655360
        iprop(((slab 1 Nat.one_lt_two).view.loc (thr d L) ↦[(slab 1 Nat.one_lt_two).view.set]{fullShare} f1)
          ∗ ((aW).view.loc (thr d L) ↦[(srcSl off1 h1).view.set]{tok L 1} m (aLoc d)))
    ∗ ((aW).view.loc (thr d L) ↦[Finset.univ \ (srcSl off1 h1).view.set]{tok L 1} m (aLoc d))
    ∗ ((oW).view.loc (thr d L) ↦[(oW).view.setOn (tileRect L).set]{fullShare} fo)
    ∗ semVal (cell d L 2) 0 ∗ semVal (cell d L 3) 0
    ∗ owes (thr d L) O W')

/-- The rest of what the task holds throughout the loop and gives back at its end. -/
def restT : sProp 𝕄 :=
  iprop((aLoc d ↦{Transfers.shareDrop (qTile (cL L) (sL L)) 2} m (aLoc d))
    ∗ (bigSep ((ownRefs (τ := τ) (.scVector (cV L) (jV L))).erase ((Proc.scVector (cV L) (jV L)).devRef cc0_scratch0))
        fun b => iprop(∃ f, ((d, b) : Loc nD τ sig) ↦{fullShare} f))
    ∗ bigSep (((((ownCells (thr d L)).erase (cell d L 0)).erase (cell d L 1)).erase (cell d L 2)).erase (cell d L 3)) fun g => semVal g 0)

/-- The loop's invariant; at the exit, what remains to run and what it must leave. -/
def inv [∀ e, Nonempty (Elt F e)] (O : CellTallies nD τ sig (HIx 1)) (W : Waits sig (HIx 1)) (k : ℕ) (_ : BitVec 32) : sProp 𝕄 :=
  if k < 32 then iprop(invA m d L O W k ∗ restT m d L)
  else wp frame (wpE (defs₀ (F := F)) 𝒱₀ (thr d L) none) Set.univ (epi (F := F) L) (postT m d L O W)

omit F m d L in
theorem cond1_iff (k : Fin k0_t1_loop.trips) : k0_cond1 k = 1#1 ↔ k.val < 31 := by revert k; decide
omit F m d L in
theorem cond2_iff (k : Fin k0_t1_loop.trips) : k0_cond2 k = 1#1 ↔ k.val < 31 := by revert k; decide

omit [FloatOps F] in
/-- A fill of slab `b` from samples `N … N + 7` leaves the slab holding them (the slab held by its own elements: the
    fill is its one listed write). -/
theorem slab_lands' (b : ℕ) (hb : b < 2) (N : ℕ) (hN : N + 8 ≤ 16384) (off : Fin 3 → Nat)
    (h : ∀ a, off a + S8x10x256.size a ≤ S16384x10x256.size a) (hoff : off = ![N, 0, 0])
    (fprev : Buf (Elt F) (sLoc d L)) (fa : Buf (Elt F) (aLoc d)) :
    SlabHolds d L b hb N fa
      ((slab b hb).view.writes (Elt F) fprev [⟨Rect.whole S8x10x256, ReadAs.same.apply (View.read (Elt F) (srcSl off h).view fa)⟩]) := by
  have key := slab_lands d L b hb N hN off h hoff fprev fa
  rwa [show (slab b hb).view.write (Elt F) fprev (ReadAs.same.apply (View.read (Elt F) (srcSl off h).view fa)) Finset.univ = _ from
    View.write_univ_eq_writes_whole (slab b hb).view fprev [] _] at key

omit [FloatOps F] in
/-- One outgoing copy: joint `j`'s window of samples `N … N + 7` joins the part of the result that agrees with the
    specification, the joints below `j` of those samples being there already. -/
theorem agree_step (b : ℕ) (hb : b < 2) (p : ℕ) (hp : p < 10) (j : Fin 16) (hpj : (⟨p, hp⟩ : Fin 10) = Cert.Spec.src j)
    (N : ℕ) (hN : N + 8 ≤ 16384) (off : Fin 3 → Nat) (h : ∀ a, off a + S8x1x256.size a ≤ S16384x16x256.size a) (hoff : off = ![N, j.val, 0])
    (f : Buf (Elt F) (sLoc d L)) (hf : SlabHolds d L b hb N (m (aLoc d)) f) (g : Buf (Elt F) (oLoc d)) (A : ℕ)
    (hA : Agree d (want m d) g (fun i => (A ≤ (i 0).val ∧ (i 0).val < N) ∨ (N ≤ (i 0).val ∧ (i 0).val < N + 8 ∧ (i 1).val < j.val))) :
    Agree d (want m d) (View.write (Elt F) (winSl off h).view g (ReadAs.same.apply (View.read (Elt F) (col b p hb hp).view f)) Finset.univ)
      (fun i => (A ≤ (i 0).val ∧ (i 0).val < N) ∨ (N ≤ (i 0).val ∧ (i 0).val < N + 8 ∧ (i 1).val < j.val + 1)) := by
  have key := agree_write d (want m d) g _ hA off h _ (piece_ok d L b hb p hp j hpj N hN off h hoff (m (aLoc d)) f hf)
  intro i hi
  refine key i ?_
  rcases hi with hi | ⟨h1, h2, h3⟩
  · exact .inl (.inl hi)
  · by_cases hj : (i 1).val < j.val
    · exact .inl (.inr ⟨h1, h2, hj⟩)
    · exact .inr ((mem_win N j.val off h hoff i).mpr ⟨h1, h2, by omega⟩)

omit F m d L in
theorem vec3_congr {a b : ℕ} (h : a = b) : (![a, 0, 0] : Fin 3 → ℕ) = ![b, 0, 0] := h ▸ rfl

omit F m d L in
theorem waits_ins {W W' : Waits sig (HIx 1)} (h : ∀ p ∈ W', p ∈ W ∨ p.2 = none) (sm : SemLoc sig) :
    ∀ p ∈ insert (sm, (default : HIx 1)) W', p ∈ W ∨ p.2 = none := by
  intro p hp
  rcases Finset.mem_insert.mp hp with rfl | hp
  · exact .inr rfl
  · exact h p hp

omit [FloatOps F] in
theorem mem_tileS (i : S16384x16x256.Idx) (hi : i ∈ (oW).view.setOn (tileRect L).set) :
    n0 L ≤ (i 0).val ∧ (i 0).val < n0 L + 512 := by
  have e : i ∈ (oW).view.setOn (tileRect L).set ↔ i ∈ (tileRect L).set := by
    unfold View.setOn; simp only [Memref.view_whole, View.emb_whole]; exact Finset.mem_map' _
  have h := (Rect.mem_set_unit.mp (e.mp hi)) 0
  simp at h; unfold n0; omega

omit [FloatOps F] in
theorem win_sub_tile (N j : ℕ) (hN : n0 L ≤ N ∧ N + 8 ≤ n0 L + 512) (hj : j < 16) (off : Fin 3 → Nat)
    (h : ∀ a, off a + S8x1x256.size a ≤ S16384x16x256.size a) (hoff : off = ![N, j, 0]) :
    (winSl off h).view.set ⊆ (oW).view.setOn (tileRect L).set := by
  intro i hi
  obtain ⟨h1, h2, h3⟩ := (mem_win N j off h hoff i).mp hi
  have hi2 : (i 2).val < 256 := (i 2).isLt
  have e : i ∈ (oW).view.setOn (tileRect L).set ↔ i ∈ (tileRect L).set := by
    unfold View.setOn; simp only [Memref.view_whole, View.emb_whole]; exact Finset.mem_map' _
  rw [e, Rect.mem_set_unit]
  intro a; fin_cases a <;> simp <;> (unfold n0 at hN; omega)

omit [FloatOps F] m d L in
theorem win_disj (N j l : ℕ) (hne : j ≠ l) (off : Fin 3 → Nat) (h : ∀ a, off a + S8x1x256.size a ≤ S16384x16x256.size a) (hoff : off = ![N, j, 0])
    (off' : Fin 3 → Nat) (h' : ∀ a, off' a + S8x1x256.size a ≤ S16384x16x256.size a) (hoff' : off' = ![N, l, 0]) :
    Disjoint (winSl off h).view.set (winSl off' h').view.set :=
  Finset.disjoint_left.mpr fun i hi hi' => by
    have a := (mem_win N j off h hoff i).mp hi; have b := (mem_win N l off' h' hoff' i).mp hi'; omega

omit F m d L in
theorem sub_sdiff_of {α : Type} [DecidableEq α] {S W U : Finset α} (h : W ⊆ S) (hd : Disjoint W U) : W ⊆ S \ U :=
  Finset.subset_sdiff.mpr ⟨h, hd⟩

omit [FloatOps F] in
/-- The two slabs, whatever each holds, are the scratch whole at some contents. -/
theorem slabs_join (f g : Buf (Elt F) (sLoc d L)) :
    iprop(((slab 0 Nat.zero_lt_two).view.loc (thr d L) ↦[(slab 0 Nat.zero_lt_two).view.set]{fullShare} f)
        ∗ ((slab 1 Nat.one_lt_two).view.loc (thr d L) ↦[(slab 1 Nat.one_lt_two).view.set]{fullShare} g))
      ⊢ (iprop(∃ e, sLoc d L ↦{fullShare} e) : sProp 𝕄) := by
  have hu : (slab 0 Nat.zero_lt_two).view.set ∪ (slab 1 Nat.one_lt_two).view.set = (Finset.univ : Finset S2x8x10x256.Idx) := by
    ext i
    refine ⟨fun _ => Finset.mem_univ _, fun _ => ?_⟩
    have h0 : (i 0).val < 2 := (i 0).isLt
    rw [Finset.mem_union, mem_slabSet, mem_slabSet]; omega
  have hd : Disjoint (slab 0 Nat.zero_lt_two).view.set (slab 1 Nat.one_lt_two).view.set :=
    Finset.disjoint_left.mpr fun i h h' => by
      have := (mem_slabSet 0 Nat.zero_lt_two i).mp h; have := (mem_slabSet 1 Nat.one_lt_two i).mp h'; omega
  have key : (iprop((sLoc d L ↦[(slab 0 Nat.zero_lt_two).view.set]{fullShare} f) ∗ (sLoc d L ↦[(slab 1 Nat.one_lt_two).view.set]{fullShare} g)) : sProp 𝕄)
      ⊢ sLoc d L ↦[(slab 0 Nat.zero_lt_two).view.set ∪ (slab 1 Nat.one_lt_two).view.set]{fullShare} ((slab 1 Nat.one_lt_two).view.set.piecewise g f) :=
    pointsTo_join hd
  rw [hu] at key
  iintro H
  ihave H' := key $$ H
  iexists _; iexact H'

theorem inv_exit [∀ e, Nonempty (Elt F e)] (O : CellTallies nD τ sig (HIx 1)) (W : Waits sig (HIx 1)) (acc : BitVec 32) :
    inv m d L O W (Scf.trips k0_t1_loop.lb k0_t1_loop.ub k0_t1_loop.st) acc
      = wp frame (wpE (defs₀ (F := F)) 𝒱₀ (thr d L) none) Set.univ (epi (F := F) L) (postT m d L O W) := by
  have htr : Scf.trips k0_t1_loop.lb k0_t1_loop.ub k0_t1_loop.st = 32 := by decide
  unfold inv; rw [htr, if_neg (by decide)]

set_option maxHeartbeats 1600000 in
set_option sl_exec.dmaWindow true in
set_option sl_exec.dmaWindowLent true in
theorem tile_body [∀ e, Nonempty (Elt F e)] (hF : (K (F := F)).Facts) (O : CellTallies nD τ sig (HIx 1)) (W : Waits sig (HIx 1)) (hO : ∀ g, O g none = 0) :
    iprop(levAts (K (F := F)).L (K (F := F)).lev ∗ emp
        ∗ (aShare m d (qTile (cL L) (sL L)) ∗ oRows d (tileRows (cL L) (sL L)) (m (oLoc d)))
        ∗ scopedBufs (thr d L) ∗ scopedSems0 (thr d L) ∗ owes (thr d L) O W)
      ⊢ wp frame (wpE (defs₀ (F := F)) 𝒱₀ (thr d L) none) Set.univ
          (cc0__sc_body L aW (Memref.isWhole_whole _) oW (Memref.isWhole_whole _) sW (Memref.isWhole_whole _) cc0_scratch1 cc0_scratch2)
          fun _ => iprop((aShare m d (qTile (cL L) (sL L)) ∗ oRows d (tileRows (cL L) (sL L)) (want m d))
            ∗ scopedBufs (thr d L) ∗ scopedSems0 (thr d L)
            ∗ ∃ W', ⌜∀ p ∈ W', p ∈ W ∨ p.2 = none⌝ ∗ owes (thr d L) O W') := by
  have _p0 : Transfers.BatchOf (thr d L) (SemLoc.dma (sig := sig) (2 : DmaSem sig)) 16 (windows := true) := trivial
  have _p1 : Transfers.BatchOf (thr d L) (SemLoc.dma (sig := sig) (3 : DmaSem sig)) 16 (windows := true) := trivial
  simp only [cc0__sc_body_eq_skeleton]; unfold cc0__sc_body_skel
  simp only [k0_part25_eq_skeleton]; unfold k0_part25_skel
  rw [(K (F := F)).scopedBufs_V hF d (cV L) (jV L), SparseCore.Cfg.scopedSems0_V (Val := Elt F) d (cV L) (jV L)]
  show _ ⊢ wp _ _ _ _ (postT m d L O W)
  rw [ownSems0_V, ownBufs_V]
  iintro ⟨#Hlv, -, ⟨Ha, Ho⟩, ⟨⟨%fs, Hs⟩, Hbufs⟩, ⟨Hg0, Hg1, Hw0, Hw1, Hsems⟩, HO⟩
  ihave Hmw := ((K (F := F)).mayWaits_none (thr := thr d L) hO) $$ Hlv
  ihave Ha' := (Transfers.pointsTo_toks (ℓ := aLoc d) (S := Finset.univ) (f := m (aLoc d)) (qTile (cL L) (sL L)) 2).1 $$ Ha
  rw [bigSep_fin2]
  icases Ha' with ⟨Had, Ha0, Ha1⟩
  ihave Ha0 := (Entails.of_eq (pts_a (F := F) d L _ _).symm) $$ Ha0
  ihave Ha1 := (Entails.of_eq (pts_a (F := F) d L _ _).symm) $$ Ha1
  ihave Ho := (Entails.of_eq (pts_o (F := F) d L _).symm) $$ Ho
  ihave Hs' := (slabs_whole (F := F) d L fs).1 $$ Hs
  icases Hs' with ⟨Hs0, Hs1⟩
  sl_exec
  rw [wp_bind]
  sl_for (inv m d L O W) $$ [Hmw Hg0 Ha0 Hg1 Ha1 Ho Hw0 Hw1 HO Had Hbufs Hsems]

  case region =>
    intro k acc
    have hk : k.val < 32 := Nat.lt_of_lt_of_le k.isLt k0_t1_abs.2.1
    by_cases h31 : k.val < 31
    · have hc1 : k0_cond1 k = 1#1 := (cond1_iff k).mpr h31
      have hc2 : k0_cond2 k = 1#1 := (cond2_iff k).mpr h31
      unfold inv; rw [if_pos hk, if_pos (show k.val + 1 < 32 by omega)]
      unfold invA restT
      iintro ⟨⟨%f0, %f1, %fo, %off0, %off1, %h0, %h1, %W', %hS0, %hS1, %hAg, %hW', Hmw, Hg0, Ha0, Hg1, Ha1, Ho, Hw0, Hw1, HO⟩, Hrest⟩
      sl_exec
      ihave Hc := (Entails.of_eq ((slab_cols (F := F) d L 0 Nat.zero_lt_two _).trans (bigSep_fin10 _))) $$ Hg0_dst
      icases Hc with ⟨Hc0, Hc1, Hc2, Hc3, Hc4, Hc5, Hc6, Hc7, Hc8, Hc9⟩
      sl_exec
      ihave Hs0 := (Entails.of_eq ((slab_cols (F := F) d L 0 Nat.zero_lt_two _).trans (bigSep_fin10 _)).symm) $$ [Hc0 Hc1 Hc2 Hc3 Hc4 Hc5 Hc6 Hc7 Hc8 Hc9]
      · isplitl [Hc0]; · iexact Hc0
        isplitl [Hc1]; · iexact Hc1
        isplitl [Hc2]; · iexact Hc2
        isplitl [Hc3]; · iexact Hc3
        isplitl [Hc4]; · iexact Hc4
        isplitl [Hc5]; · iexact Hc5
        isplitl [Hc6]; · iexact Hc6
        isplitl [Hc7]; · iexact Hc7
        isplitl [Hc8]; · iexact Hc8
        iexact Hc9
      sl_exec
      ihave Hc := (Entails.of_eq ((slab_cols (F := F) d L 1 Nat.one_lt_two _).trans (bigSep_fin10 _))) $$ Hg1_dst
      icases Hc with ⟨Hd0, Hd1, Hd2, Hd3, Hd4, Hd5, Hd6, Hd7, Hd8, Hd9⟩
      sl_exec
      ihave Hs1 := (Entails.of_eq ((slab_cols (F := F) d L 1 Nat.one_lt_two _).trans (bigSep_fin10 _)).symm) $$ [Hd0 Hd1 Hd2 Hd3 Hd4 Hd5 Hd6 Hd7 Hd8 Hd9]
      · isplitl [Hd0]; · iexact Hd0
        isplitl [Hd1]; · iexact Hd1
        isplitl [Hd2]; · iexact Hd2
        isplitl [Hd3]; · iexact Hd3
        isplitl [Hd4]; · iexact Hd4
        isplitl [Hd5]; · iexact Hd5
        isplitl [Hd6]; · iexact Hd6
        isplitl [Hd7]; · iexact Hd7
        isplitl [Hd8]; · iexact Hd8
        iexact Hd9
      sl_exec
      sl_step
      have hn := n0_le L
      have hN0 : n0 L + 16 * k.val + 8 * 0 + 8 ≤ 16384 := by omega
      have hN1 : n0 L + 16 * k.val + 8 * 1 + 8 ≤ 16384 := by omega
      have hS0' : SlabHolds d L 0 Nat.zero_lt_two (n0 L + 16 * k.val + 8 * 0) (m (aLoc d)) f0 := hS0
      have hS1' : SlabHolds d L 1 Nat.one_lt_two (n0 L + 16 * k.val + 8 * 1) (m (aLoc d)) f1 := hS1
      have B0 : Agree d (want m d) fo (fun i => (n0 L ≤ (i 0).val ∧ (i 0).val < n0 L + 16 * k.val + 8 * 0)
          ∨ (n0 L + 16 * k.val + 8 * 0 ≤ (i 0).val ∧ (i 0).val < n0 L + 16 * k.val + 8 * 0 + 8 ∧ (i 1).val < (0 : Fin 16).val)) :=
        fun i hi => hAg i (by
          rcases hi with h | ⟨_, _, h⟩
          · exact ⟨h.1, (by omega)⟩
          · exact absurd h (Nat.not_lt_zero _))
      have B1 := agree_step m d L 0 Nat.zero_lt_two 4 (by decide) 0 rfl (n0 L + 16 * k.val + 8 * 0) hN0 _ (k0_off3_inb L k 0) (k0_off3_eq L k 0) f0 hS0' _ (n0 L) B0
      have B2 := agree_step m d L 0 Nat.zero_lt_two 2 (by decide) 1 rfl (n0 L + 16 * k.val + 8 * 0) hN0 _ (k0_off4_inb L k 0) (k0_off4_eq L k 0) f0 hS0' _ (n0 L) B1
      have B3 := agree_step m d L 0 Nat.zero_lt_two 3 (by decide) 2 rfl (n0 L + 16 * k.val + 8 * 0) hN0 _ (k0_off5_inb L k 0) (k0_off5_eq L k 0) f0 hS0' _ (n0 L) B2
      have B4 := agree_step m d L 0 Nat.zero_lt_two 3 (by decide) 3 rfl (n0 L + 16 * k.val + 8 * 0) hN0 _ (k0_off6_inb L k 0) (k0_off6_eq L k 0) f0 hS0' _ (n0 L) B3
      have B5 := agree_step m d L 0 Nat.zero_lt_two 0 (by decide) 4 rfl (n0 L + 16 * k.val + 8 * 0) hN0 _ (k0_off7_inb L k 0) (k0_off7_eq L k 0) f0 hS0' _ (n0 L) B4
      have B6 := agree_step m d L 0 Nat.zero_lt_two 1 (by decide) 5 rfl (n0 L + 16 * k.val + 8 * 0) hN0 _ (k0_off8_inb L k 0) (k0_off8_eq L k 0) f0 hS0' _ (n0 L) B5
      have B7 := agree_step m d L 0 Nat.zero_lt_two 1 (by decide) 6 rfl (n0 L + 16 * k.val + 8 * 0) hN0 _ (k0_off9_inb L k 0) (k0_off9_eq L k 0) f0 hS0' _ (n0 L) B6
      have B8 := agree_step m d L 0 Nat.zero_lt_two 4 (by decide) 7 rfl (n0 L + 16 * k.val + 8 * 0) hN0 _ (k0_off10_inb L k 0) (k0_off10_eq L k 0) f0 hS0' _ (n0 L) B7
      have B9 := agree_step m d L 0 Nat.zero_lt_two 4 (by decide) 8 rfl (n0 L + 16 * k.val + 8 * 0) hN0 _ (k0_off11_inb L k 0) (k0_off11_eq L k 0) f0 hS0' _ (n0 L) B8
      have B10 := agree_step m d L 0 Nat.zero_lt_two 5 (by decide) 9 rfl (n0 L + 16 * k.val + 8 * 0) hN0 _ (k0_off12_inb L k 0) (k0_off12_eq L k 0) f0 hS0' _ (n0 L) B9
      have B11 := agree_step m d L 0 Nat.zero_lt_two 6 (by decide) 10 rfl (n0 L + 16 * k.val + 8 * 0) hN0 _ (k0_off13_inb L k 0) (k0_off13_eq L k 0) f0 hS0' _ (n0 L) B10
      have B12 := agree_step m d L 0 Nat.zero_lt_two 7 (by decide) 11 rfl (n0 L + 16 * k.val + 8 * 0) hN0 _ (k0_off14_inb L k 0) (k0_off14_eq L k 0) f0 hS0' _ (n0 L) B11
      have B13 := agree_step m d L 0 Nat.zero_lt_two 7 (by decide) 12 rfl (n0 L + 16 * k.val + 8 * 0) hN0 _ (k0_off15_inb L k 0) (k0_off15_eq L k 0) f0 hS0' _ (n0 L) B12
      have B14 := agree_step m d L 0 Nat.zero_lt_two 8 (by decide) 13 rfl (n0 L + 16 * k.val + 8 * 0) hN0 _ (k0_off16_inb L k 0) (k0_off16_eq L k 0) f0 hS0' _ (n0 L) B13
      have B15 := agree_step m d L 0 Nat.zero_lt_two 9 (by decide) 14 rfl (n0 L + 16 * k.val + 8 * 0) hN0 _ (k0_off17_inb L k 0) (k0_off17_eq L k 0) f0 hS0' _ (n0 L) B14
      have B16 := agree_step m d L 0 Nat.zero_lt_two 9 (by decide) 15 rfl (n0 L + 16 * k.val + 8 * 0) hN0 _ (k0_off18_inb L k 0) (k0_off18_eq L k 0) f0 hS0' _ (n0 L) B15
      have C0 : Agree d (want m d) _ (fun i => (n0 L ≤ (i 0).val ∧ (i 0).val < n0 L + 16 * k.val + 8 * 1)
          ∨ (n0 L + 16 * k.val + 8 * 1 ≤ (i 0).val ∧ (i 0).val < n0 L + 16 * k.val + 8 * 1 + 8 ∧ (i 1).val < (0 : Fin 16).val)) :=
        fun i hi => B16 i (by
          have h1 : (i 1).val < 16 := (i 1).isLt
          rcases hi with h | ⟨_, _, h⟩
          · by_cases hlt : (i 0).val < n0 L + 16 * k.val + 8 * 0
            · exact .inl ⟨h.1, hlt⟩
            · exact .inr ⟨by omega, by omega, h1⟩
          · exact absurd h (Nat.not_lt_zero _))
      have C1 := agree_step m d L 1 Nat.one_lt_two 4 (by decide) 0 rfl (n0 L + 16 * k.val + 8 * 1) hN1 _ (k0_off3_inb L k 1) (k0_off3_eq L k 1) f1 hS1' _ (n0 L) C0
      have C2 := agree_step m d L 1 Nat.one_lt_two 2 (by decide) 1 rfl (n0 L + 16 * k.val + 8 * 1) hN1 _ (k0_off4_inb L k 1) (k0_off4_eq L k 1) f1 hS1' _ (n0 L) C1
      have C3 := agree_step m d L 1 Nat.one_lt_two 3 (by decide) 2 rfl (n0 L + 16 * k.val + 8 * 1) hN1 _ (k0_off5_inb L k 1) (k0_off5_eq L k 1) f1 hS1' _ (n0 L) C2
      have C4 := agree_step m d L 1 Nat.one_lt_two 3 (by decide) 3 rfl (n0 L + 16 * k.val + 8 * 1) hN1 _ (k0_off6_inb L k 1) (k0_off6_eq L k 1) f1 hS1' _ (n0 L) C3
      have C5 := agree_step m d L 1 Nat.one_lt_two 0 (by decide) 4 rfl (n0 L + 16 * k.val + 8 * 1) hN1 _ (k0_off7_inb L k 1) (k0_off7_eq L k 1) f1 hS1' _ (n0 L) C4
      have C6 := agree_step m d L 1 Nat.one_lt_two 1 (by decide) 5 rfl (n0 L + 16 * k.val + 8 * 1) hN1 _ (k0_off8_inb L k 1) (k0_off8_eq L k 1) f1 hS1' _ (n0 L) C5
      have C7 := agree_step m d L 1 Nat.one_lt_two 1 (by decide) 6 rfl (n0 L + 16 * k.val + 8 * 1) hN1 _ (k0_off9_inb L k 1) (k0_off9_eq L k 1) f1 hS1' _ (n0 L) C6
      have C8 := agree_step m d L 1 Nat.one_lt_two 4 (by decide) 7 rfl (n0 L + 16 * k.val + 8 * 1) hN1 _ (k0_off10_inb L k 1) (k0_off10_eq L k 1) f1 hS1' _ (n0 L) C7
      have C9 := agree_step m d L 1 Nat.one_lt_two 4 (by decide) 8 rfl (n0 L + 16 * k.val + 8 * 1) hN1 _ (k0_off11_inb L k 1) (k0_off11_eq L k 1) f1 hS1' _ (n0 L) C8
      have C10 := agree_step m d L 1 Nat.one_lt_two 5 (by decide) 9 rfl (n0 L + 16 * k.val + 8 * 1) hN1 _ (k0_off12_inb L k 1) (k0_off12_eq L k 1) f1 hS1' _ (n0 L) C9
      have C11 := agree_step m d L 1 Nat.one_lt_two 6 (by decide) 10 rfl (n0 L + 16 * k.val + 8 * 1) hN1 _ (k0_off13_inb L k 1) (k0_off13_eq L k 1) f1 hS1' _ (n0 L) C10
      have C12 := agree_step m d L 1 Nat.one_lt_two 7 (by decide) 11 rfl (n0 L + 16 * k.val + 8 * 1) hN1 _ (k0_off14_inb L k 1) (k0_off14_eq L k 1) f1 hS1' _ (n0 L) C11
      have C13 := agree_step m d L 1 Nat.one_lt_two 7 (by decide) 12 rfl (n0 L + 16 * k.val + 8 * 1) hN1 _ (k0_off15_inb L k 1) (k0_off15_eq L k 1) f1 hS1' _ (n0 L) C12
      have C14 := agree_step m d L 1 Nat.one_lt_two 8 (by decide) 13 rfl (n0 L + 16 * k.val + 8 * 1) hN1 _ (k0_off16_inb L k 1) (k0_off16_eq L k 1) f1 hS1' _ (n0 L) C13
      have C15 := agree_step m d L 1 Nat.one_lt_two 9 (by decide) 14 rfl (n0 L + 16 * k.val + 8 * 1) hN1 _ (k0_off17_inb L k 1) (k0_off17_eq L k 1) f1 hS1' _ (n0 L) C14
      have C16 := agree_step m d L 1 Nat.one_lt_two 9 (by decide) 15 rfl (n0 L + 16 * k.val + 8 * 1) hN1 _ (k0_off18_inb L k 1) (k0_off18_eq L k 1) f1 hS1' _ (n0 L) C15
      have hAg' : Agree d (want m d) _ (fun i => n0 L ≤ (i 0).val ∧ (i 0).val < n0 L + 16 * (k.val + 1)) :=
        fun i hi => C16 i (by
          have h1 : (i 1).val < 16 := (i 1).isLt
          by_cases hlt : (i 0).val < n0 L + 16 * k.val + 8 * 1
          · exact .inl ⟨hi.1, hlt⟩
          · exact .inr ⟨by omega, by omega, h1⟩)
      have hL0 := slab_lands' (F := F) d L 0 Nat.zero_lt_two (n0 L + 16 * (k.val + 1)) (by omega) _ (k0_off35_inb L k hc1)
        ((k0_off35_eq L k).trans (vec3_congr (by unfold n0; omega))) f0 (m (aLoc d))
      have hL1 := slab_lands' (F := F) d L 1 Nat.one_lt_two (n0 L + 16 * (k.val + 1) + 8) (by omega) _ (k0_off52_inb L k hc2)
        ((k0_off52_eq L k).trans (vec3_congr (by unfold n0; omega))) f1 (m (aLoc d))
      isplitr [Hrest]; swap
      · iexact Hrest
      iexists _, _, _, _, _, _, _, _
      isplitr; swap
      isplitr; swap
      isplitr; swap
      isplitr; swap
      · isplitl [Hmw]; · iexact Hmw
        isplitl [Hg0]; · iexact Hg0
        isplitl [Ha0]; · iexact Ha0
        isplitl [Hg1]; · iexact Hg1
        isplitl [Ha1]; · iexact Ha1
        isplitl [Ho]; · iexact Ho
        isplitl [Hw0]; · iexact Hw0
        isplitl [Hw1]; · iexact Hw1
        iexact HO
      · ipureintro; repeat (first | exact hW' | apply waits_ins)
      · ipureintro; exact hAg'
      · ipureintro; exact hL1
      · ipureintro; exact hL0
    · have hk31 : k.val = 31 := by omega
      have hc1 : ¬ k0_cond1 k = 1#1 := fun h => h31 ((cond1_iff k).mp h)
      have hc2 : ¬ k0_cond2 k = 1#1 := fun h => h31 ((cond2_iff k).mp h)
      unfold inv; rw [if_pos hk, if_neg (show ¬ k.val + 1 < 32 by omega)]
      unfold invA restT
      iintro ⟨⟨%f0, %f1, %fo, %off0, %off1, %h0, %h1, %W', %hS0, %hS1, %hAg, %hW', Hmw, Hg0, Ha0, Hg1, Ha1, Ho, Hw0, Hw1, HO⟩, Had, Hbufs, Hsems⟩
      sl_exec
      ihave Hc := (Entails.of_eq ((slab_cols (F := F) d L 0 Nat.zero_lt_two _).trans (bigSep_fin10 _))) $$ Hg0_dst
      icases Hc with ⟨Hc0, Hc1, Hc2, Hc3, Hc4, Hc5, Hc6, Hc7, Hc8, Hc9⟩
      sl_exec
      ihave Hc := (Entails.of_eq ((slab_cols (F := F) d L 1 Nat.one_lt_two _).trans (bigSep_fin10 _))) $$ Hg1_dst
      icases Hc with ⟨Hd0, Hd1, Hd2, Hd3, Hd4, Hd5, Hd6, Hd7, Hd8, Hd9⟩
      sl_exec
      sl_step
      have hn := n0_le L
      have hN0 : n0 L + 16 * k.val + 8 * 0 + 8 ≤ 16384 := by omega
      have hN1 : n0 L + 16 * k.val + 8 * 1 + 8 ≤ 16384 := by omega
      have hS0' : SlabHolds d L 0 Nat.zero_lt_two (n0 L + 16 * k.val + 8 * 0) (m (aLoc d)) f0 := hS0
      have hS1' : SlabHolds d L 1 Nat.one_lt_two (n0 L + 16 * k.val + 8 * 1) (m (aLoc d)) f1 := hS1
      have B0 : Agree d (want m d) fo (fun i => (n0 L ≤ (i 0).val ∧ (i 0).val < n0 L + 16 * k.val + 8 * 0)
          ∨ (n0 L + 16 * k.val + 8 * 0 ≤ (i 0).val ∧ (i 0).val < n0 L + 16 * k.val + 8 * 0 + 8 ∧ (i 1).val < (0 : Fin 16).val)) :=
        fun i hi => hAg i (by
          rcases hi with h | ⟨_, _, h⟩
          · exact ⟨h.1, (by omega)⟩
          · exact absurd h (Nat.not_lt_zero _))
      have B1 := agree_step m d L 0 Nat.zero_lt_two 4 (by decide) 0 rfl (n0 L + 16 * k.val + 8 * 0) hN0 _ (k0_off3_inb L k 0) (k0_off3_eq L k 0) f0 hS0' _ (n0 L) B0
      have B2 := agree_step m d L 0 Nat.zero_lt_two 2 (by decide) 1 rfl (n0 L + 16 * k.val + 8 * 0) hN0 _ (k0_off4_inb L k 0) (k0_off4_eq L k 0) f0 hS0' _ (n0 L) B1
      have B3 := agree_step m d L 0 Nat.zero_lt_two 3 (by decide) 2 rfl (n0 L + 16 * k.val + 8 * 0) hN0 _ (k0_off5_inb L k 0) (k0_off5_eq L k 0) f0 hS0' _ (n0 L) B2
      have B4 := agree_step m d L 0 Nat.zero_lt_two 3 (by decide) 3 rfl (n0 L + 16 * k.val + 8 * 0) hN0 _ (k0_off6_inb L k 0) (k0_off6_eq L k 0) f0 hS0' _ (n0 L) B3
      have B5 := agree_step m d L 0 Nat.zero_lt_two 0 (by decide) 4 rfl (n0 L + 16 * k.val + 8 * 0) hN0 _ (k0_off7_inb L k 0) (k0_off7_eq L k 0) f0 hS0' _ (n0 L) B4
      have B6 := agree_step m d L 0 Nat.zero_lt_two 1 (by decide) 5 rfl (n0 L + 16 * k.val + 8 * 0) hN0 _ (k0_off8_inb L k 0) (k0_off8_eq L k 0) f0 hS0' _ (n0 L) B5
      have B7 := agree_step m d L 0 Nat.zero_lt_two 1 (by decide) 6 rfl (n0 L + 16 * k.val + 8 * 0) hN0 _ (k0_off9_inb L k 0) (k0_off9_eq L k 0) f0 hS0' _ (n0 L) B6
      have B8 := agree_step m d L 0 Nat.zero_lt_two 4 (by decide) 7 rfl (n0 L + 16 * k.val + 8 * 0) hN0 _ (k0_off10_inb L k 0) (k0_off10_eq L k 0) f0 hS0' _ (n0 L) B7
      have B9 := agree_step m d L 0 Nat.zero_lt_two 4 (by decide) 8 rfl (n0 L + 16 * k.val + 8 * 0) hN0 _ (k0_off11_inb L k 0) (k0_off11_eq L k 0) f0 hS0' _ (n0 L) B8
      have B10 := agree_step m d L 0 Nat.zero_lt_two 5 (by decide) 9 rfl (n0 L + 16 * k.val + 8 * 0) hN0 _ (k0_off12_inb L k 0) (k0_off12_eq L k 0) f0 hS0' _ (n0 L) B9
      have B11 := agree_step m d L 0 Nat.zero_lt_two 6 (by decide) 10 rfl (n0 L + 16 * k.val + 8 * 0) hN0 _ (k0_off13_inb L k 0) (k0_off13_eq L k 0) f0 hS0' _ (n0 L) B10
      have B12 := agree_step m d L 0 Nat.zero_lt_two 7 (by decide) 11 rfl (n0 L + 16 * k.val + 8 * 0) hN0 _ (k0_off14_inb L k 0) (k0_off14_eq L k 0) f0 hS0' _ (n0 L) B11
      have B13 := agree_step m d L 0 Nat.zero_lt_two 7 (by decide) 12 rfl (n0 L + 16 * k.val + 8 * 0) hN0 _ (k0_off15_inb L k 0) (k0_off15_eq L k 0) f0 hS0' _ (n0 L) B12
      have B14 := agree_step m d L 0 Nat.zero_lt_two 8 (by decide) 13 rfl (n0 L + 16 * k.val + 8 * 0) hN0 _ (k0_off16_inb L k 0) (k0_off16_eq L k 0) f0 hS0' _ (n0 L) B13
      have B15 := agree_step m d L 0 Nat.zero_lt_two 9 (by decide) 14 rfl (n0 L + 16 * k.val + 8 * 0) hN0 _ (k0_off17_inb L k 0) (k0_off17_eq L k 0) f0 hS0' _ (n0 L) B14
      have B16 := agree_step m d L 0 Nat.zero_lt_two 9 (by decide) 15 rfl (n0 L + 16 * k.val + 8 * 0) hN0 _ (k0_off18_inb L k 0) (k0_off18_eq L k 0) f0 hS0' _ (n0 L) B15
      have C0 : Agree d (want m d) _ (fun i => (n0 L ≤ (i 0).val ∧ (i 0).val < n0 L + 16 * k.val + 8 * 1)
          ∨ (n0 L + 16 * k.val + 8 * 1 ≤ (i 0).val ∧ (i 0).val < n0 L + 16 * k.val + 8 * 1 + 8 ∧ (i 1).val < (0 : Fin 16).val)) :=
        fun i hi => B16 i (by
          have h1 : (i 1).val < 16 := (i 1).isLt
          rcases hi with h | ⟨_, _, h⟩
          · by_cases hlt : (i 0).val < n0 L + 16 * k.val + 8 * 0
            · exact .inl ⟨h.1, hlt⟩
            · exact .inr ⟨by omega, by omega, h1⟩
          · exact absurd h (Nat.not_lt_zero _))
      have C1 := agree_step m d L 1 Nat.one_lt_two 4 (by decide) 0 rfl (n0 L + 16 * k.val + 8 * 1) hN1 _ (k0_off3_inb L k 1) (k0_off3_eq L k 1) f1 hS1' _ (n0 L) C0
      have C2 := agree_step m d L 1 Nat.one_lt_two 2 (by decide) 1 rfl (n0 L + 16 * k.val + 8 * 1) hN1 _ (k0_off4_inb L k 1) (k0_off4_eq L k 1) f1 hS1' _ (n0 L) C1
      have C3 := agree_step m d L 1 Nat.one_lt_two 3 (by decide) 2 rfl (n0 L + 16 * k.val + 8 * 1) hN1 _ (k0_off5_inb L k 1) (k0_off5_eq L k 1) f1 hS1' _ (n0 L) C2
      have C4 := agree_step m d L 1 Nat.one_lt_two 3 (by decide) 3 rfl (n0 L + 16 * k.val + 8 * 1) hN1 _ (k0_off6_inb L k 1) (k0_off6_eq L k 1) f1 hS1' _ (n0 L) C3
      have C5 := agree_step m d L 1 Nat.one_lt_two 0 (by decide) 4 rfl (n0 L + 16 * k.val + 8 * 1) hN1 _ (k0_off7_inb L k 1) (k0_off7_eq L k 1) f1 hS1' _ (n0 L) C4
      have C6 := agree_step m d L 1 Nat.one_lt_two 1 (by decide) 5 rfl (n0 L + 16 * k.val + 8 * 1) hN1 _ (k0_off8_inb L k 1) (k0_off8_eq L k 1) f1 hS1' _ (n0 L) C5
      have C7 := agree_step m d L 1 Nat.one_lt_two 1 (by decide) 6 rfl (n0 L + 16 * k.val + 8 * 1) hN1 _ (k0_off9_inb L k 1) (k0_off9_eq L k 1) f1 hS1' _ (n0 L) C6
      have C8 := agree_step m d L 1 Nat.one_lt_two 4 (by decide) 7 rfl (n0 L + 16 * k.val + 8 * 1) hN1 _ (k0_off10_inb L k 1) (k0_off10_eq L k 1) f1 hS1' _ (n0 L) C7
      have C9 := agree_step m d L 1 Nat.one_lt_two 4 (by decide) 8 rfl (n0 L + 16 * k.val + 8 * 1) hN1 _ (k0_off11_inb L k 1) (k0_off11_eq L k 1) f1 hS1' _ (n0 L) C8
      have C10 := agree_step m d L 1 Nat.one_lt_two 5 (by decide) 9 rfl (n0 L + 16 * k.val + 8 * 1) hN1 _ (k0_off12_inb L k 1) (k0_off12_eq L k 1) f1 hS1' _ (n0 L) C9
      have C11 := agree_step m d L 1 Nat.one_lt_two 6 (by decide) 10 rfl (n0 L + 16 * k.val + 8 * 1) hN1 _ (k0_off13_inb L k 1) (k0_off13_eq L k 1) f1 hS1' _ (n0 L) C10
      have C12 := agree_step m d L 1 Nat.one_lt_two 7 (by decide) 11 rfl (n0 L + 16 * k.val + 8 * 1) hN1 _ (k0_off14_inb L k 1) (k0_off14_eq L k 1) f1 hS1' _ (n0 L) C11
      have C13 := agree_step m d L 1 Nat.one_lt_two 7 (by decide) 12 rfl (n0 L + 16 * k.val + 8 * 1) hN1 _ (k0_off15_inb L k 1) (k0_off15_eq L k 1) f1 hS1' _ (n0 L) C12
      have C14 := agree_step m d L 1 Nat.one_lt_two 8 (by decide) 13 rfl (n0 L + 16 * k.val + 8 * 1) hN1 _ (k0_off16_inb L k 1) (k0_off16_eq L k 1) f1 hS1' _ (n0 L) C13
      have C15 := agree_step m d L 1 Nat.one_lt_two 9 (by decide) 14 rfl (n0 L + 16 * k.val + 8 * 1) hN1 _ (k0_off17_inb L k 1) (k0_off17_eq L k 1) f1 hS1' _ (n0 L) C14
      have C16 := agree_step m d L 1 Nat.one_lt_two 9 (by decide) 15 rfl (n0 L + 16 * k.val + 8 * 1) hN1 _ (k0_off18_inb L k 1) (k0_off18_eq L k 1) f1 hS1' _ (n0 L) C15
      have hAg' : Agree d (want m d) _ (fun i => n0 L ≤ (i 0).val ∧ (i 0).val < n0 L + 512) :=
        fun i hi => C16 i (by
          have h1 : (i 1).val < 16 := (i 1).isLt
          by_cases hlt : (i 0).val < n0 L + 16 * k.val + 8 * 1
          · exact .inl ⟨hi.1, hlt⟩
          · exact .inr ⟨by omega, by omega, h1⟩)
      -- every piece of the result's box holds the specification's values
      ihave Ho_17 := (Entails.of_eq (pointsTo_congr (fun i hi => by
        obtain ⟨a1, a2, a3⟩ := (mem_win (n0 L + 16 * k.val + 8 * 0) 0 _ (k0_off3_inb L k 0) (k0_off3_eq L k 0) i).mp hi
        exact (B1 i (.inr ⟨a1, a2, by omega⟩)).trans (hAg' i ⟨by omega, by omega⟩).symm))) $$ Ho_17
      ihave Ho_16 := (Entails.of_eq (pointsTo_congr (fun i hi => by
        obtain ⟨a1, a2, a3⟩ := (mem_win (n0 L + 16 * k.val + 8 * 0) 1 _ (k0_off4_inb L k 0) (k0_off4_eq L k 0) i).mp hi
        exact (B2 i (.inr ⟨a1, a2, by omega⟩)).trans (hAg' i ⟨by omega, by omega⟩).symm))) $$ Ho_16
      ihave Ho_15 := (Entails.of_eq (pointsTo_congr (fun i hi => by
        obtain ⟨a1, a2, a3⟩ := (mem_win (n0 L + 16 * k.val + 8 * 0) 2 _ (k0_off5_inb L k 0) (k0_off5_eq L k 0) i).mp hi
        exact (B3 i (.inr ⟨a1, a2, by omega⟩)).trans (hAg' i ⟨by omega, by omega⟩).symm))) $$ Ho_15
      ihave Ho_14 := (Entails.of_eq (pointsTo_congr (fun i hi => by
        obtain ⟨a1, a2, a3⟩ := (mem_win (n0 L + 16 * k.val + 8 * 0) 3 _ (k0_off6_inb L k 0) (k0_off6_eq L k 0) i).mp hi
        exact (B4 i (.inr ⟨a1, a2, by omega⟩)).trans (hAg' i ⟨by omega, by omega⟩).symm))) $$ Ho_14
      ihave Ho_13 := (Entails.of_eq (pointsTo_congr (fun i hi => by
        obtain ⟨a1, a2, a3⟩ := (mem_win (n0 L + 16 * k.val + 8 * 0) 4 _ (k0_off7_inb L k 0) (k0_off7_eq L k 0) i).mp hi
        exact (B5 i (.inr ⟨a1, a2, by omega⟩)).trans (hAg' i ⟨by omega, by omega⟩).symm))) $$ Ho_13
      ihave Ho_12 := (Entails.of_eq (pointsTo_congr (fun i hi => by
        obtain ⟨a1, a2, a3⟩ := (mem_win (n0 L + 16 * k.val + 8 * 0) 5 _ (k0_off8_inb L k 0) (k0_off8_eq L k 0) i).mp hi
        exact (B6 i (.inr ⟨a1, a2, by omega⟩)).trans (hAg' i ⟨by omega, by omega⟩).symm))) $$ Ho_12
      ihave Ho_11 := (Entails.of_eq (pointsTo_congr (fun i hi => by
        obtain ⟨a1, a2, a3⟩ := (mem_win (n0 L + 16 * k.val + 8 * 0) 6 _ (k0_off9_inb L k 0) (k0_off9_eq L k 0) i).mp hi
        exact (B7 i (.inr ⟨a1, a2, by omega⟩)).trans (hAg' i ⟨by omega, by omega⟩).symm))) $$ Ho_11
      ihave Ho_10 := (Entails.of_eq (pointsTo_congr (fun i hi => by
        obtain ⟨a1, a2, a3⟩ := (mem_win (n0 L + 16 * k.val + 8 * 0) 7 _ (k0_off10_inb L k 0) (k0_off10_eq L k 0) i).mp hi
        exact (B8 i (.inr ⟨a1, a2, by omega⟩)).trans (hAg' i ⟨by omega, by omega⟩).symm))) $$ Ho_10
      ihave Ho_9 := (Entails.of_eq (pointsTo_congr (fun i hi => by
        obtain ⟨a1, a2, a3⟩ := (mem_win (n0 L + 16 * k.val + 8 * 0) 8 _ (k0_off11_inb L k 0) (k0_off11_eq L k 0) i).mp hi
        exact (B9 i (.inr ⟨a1, a2, by omega⟩)).trans (hAg' i ⟨by omega, by omega⟩).symm))) $$ Ho_9
      ihave Ho_8 := (Entails.of_eq (pointsTo_congr (fun i hi => by
        obtain ⟨a1, a2, a3⟩ := (mem_win (n0 L + 16 * k.val + 8 * 0) 9 _ (k0_off12_inb L k 0) (k0_off12_eq L k 0) i).mp hi
        exact (B10 i (.inr ⟨a1, a2, by omega⟩)).trans (hAg' i ⟨by omega, by omega⟩).symm))) $$ Ho_8
      ihave Ho_7 := (Entails.of_eq (pointsTo_congr (fun i hi => by
        obtain ⟨a1, a2, a3⟩ := (mem_win (n0 L + 16 * k.val + 8 * 0) 10 _ (k0_off13_inb L k 0) (k0_off13_eq L k 0) i).mp hi
        exact (B11 i (.inr ⟨a1, a2, by omega⟩)).trans (hAg' i ⟨by omega, by omega⟩).symm))) $$ Ho_7
      ihave Ho_6 := (Entails.of_eq (pointsTo_congr (fun i hi => by
        obtain ⟨a1, a2, a3⟩ := (mem_win (n0 L + 16 * k.val + 8 * 0) 11 _ (k0_off14_inb L k 0) (k0_off14_eq L k 0) i).mp hi
        exact (B12 i (.inr ⟨a1, a2, by omega⟩)).trans (hAg' i ⟨by omega, by omega⟩).symm))) $$ Ho_6
      ihave Ho_5 := (Entails.of_eq (pointsTo_congr (fun i hi => by
        obtain ⟨a1, a2, a3⟩ := (mem_win (n0 L + 16 * k.val + 8 * 0) 12 _ (k0_off15_inb L k 0) (k0_off15_eq L k 0) i).mp hi
        exact (B13 i (.inr ⟨a1, a2, by omega⟩)).trans (hAg' i ⟨by omega, by omega⟩).symm))) $$ Ho_5
      ihave Ho_4 := (Entails.of_eq (pointsTo_congr (fun i hi => by
        obtain ⟨a1, a2, a3⟩ := (mem_win (n0 L + 16 * k.val + 8 * 0) 13 _ (k0_off16_inb L k 0) (k0_off16_eq L k 0) i).mp hi
        exact (B14 i (.inr ⟨a1, a2, by omega⟩)).trans (hAg' i ⟨by omega, by omega⟩).symm))) $$ Ho_4
      ihave Ho_3 := (Entails.of_eq (pointsTo_congr (fun i hi => by
        obtain ⟨a1, a2, a3⟩ := (mem_win (n0 L + 16 * k.val + 8 * 0) 14 _ (k0_off17_inb L k 0) (k0_off17_eq L k 0) i).mp hi
        exact (B15 i (.inr ⟨a1, a2, by omega⟩)).trans (hAg' i ⟨by omega, by omega⟩).symm))) $$ Ho_3
      ihave Ho_2 := (Entails.of_eq (pointsTo_congr (fun i hi => by
        obtain ⟨a1, a2, a3⟩ := (mem_win (n0 L + 16 * k.val + 8 * 0) 15 _ (k0_off18_inb L k 0) (k0_off18_eq L k 0) i).mp hi
        exact (B16 i (.inr ⟨a1, a2, by omega⟩)).trans (hAg' i ⟨by omega, by omega⟩).symm))) $$ Ho_2
      have hsub15 : (winSl _ (k0_off18_inb L k 0)).view.set ⊆ ((((((((((((((((oW).view.setOn (tileRect L).set \ (winSl _ (k0_off3_inb L k 0)).view.set) \ (winSl _ (k0_off4_inb L k 0)).view.set) \ (winSl _ (k0_off5_inb L k 0)).view.set) \ (winSl _ (k0_off6_inb L k 0)).view.set) \ (winSl _ (k0_off7_inb L k 0)).view.set) \ (winSl _ (k0_off8_inb L k 0)).view.set) \ (winSl _ (k0_off9_inb L k 0)).view.set) \ (winSl _ (k0_off10_inb L k 0)).view.set) \ (winSl _ (k0_off11_inb L k 0)).view.set) \ (winSl _ (k0_off12_inb L k 0)).view.set) \ (winSl _ (k0_off13_inb L k 0)).view.set) \ (winSl _ (k0_off14_inb L k 0)).view.set) \ (winSl _ (k0_off15_inb L k 0)).view.set) \ (winSl _ (k0_off16_inb L k 0)).view.set) \ (winSl _ (k0_off17_inb L k 0)).view.set) :=
        (sub_sdiff_of (sub_sdiff_of (sub_sdiff_of (sub_sdiff_of (sub_sdiff_of (sub_sdiff_of (sub_sdiff_of (sub_sdiff_of (sub_sdiff_of (sub_sdiff_of (sub_sdiff_of (sub_sdiff_of (sub_sdiff_of (sub_sdiff_of (sub_sdiff_of (win_sub_tile L (n0 L + 16 * k.val + 8 * 0) 15 ⟨by omega, by omega⟩ (by decide) _ (k0_off18_inb L k 0) (k0_off18_eq L k 0)) (win_disj (n0 L + 16 * k.val + 8 * 0) 15 0 (by decide) _ (k0_off18_inb L k 0) (k0_off18_eq L k 0) _ (k0_off3_inb L k 0) (k0_off3_eq L k 0))) (win_disj (n0 L + 16 * k.val + 8 * 0) 15 1 (by decide) _ (k0_off18_inb L k 0) (k0_off18_eq L k 0) _ (k0_off4_inb L k 0) (k0_off4_eq L k 0))) (win_disj (n0 L + 16 * k.val + 8 * 0) 15 2 (by decide) _ (k0_off18_inb L k 0) (k0_off18_eq L k 0) _ (k0_off5_inb L k 0) (k0_off5_eq L k 0))) (win_disj (n0 L + 16 * k.val + 8 * 0) 15 3 (by decide) _ (k0_off18_inb L k 0) (k0_off18_eq L k 0) _ (k0_off6_inb L k 0) (k0_off6_eq L k 0))) (win_disj (n0 L + 16 * k.val + 8 * 0) 15 4 (by decide) _ (k0_off18_inb L k 0) (k0_off18_eq L k 0) _ (k0_off7_inb L k 0) (k0_off7_eq L k 0))) (win_disj (n0 L + 16 * k.val + 8 * 0) 15 5 (by decide) _ (k0_off18_inb L k 0) (k0_off18_eq L k 0) _ (k0_off8_inb L k 0) (k0_off8_eq L k 0))) (win_disj (n0 L + 16 * k.val + 8 * 0) 15 6 (by decide) _ (k0_off18_inb L k 0) (k0_off18_eq L k 0) _ (k0_off9_inb L k 0) (k0_off9_eq L k 0))) (win_disj (n0 L + 16 * k.val + 8 * 0) 15 7 (by decide) _ (k0_off18_inb L k 0) (k0_off18_eq L k 0) _ (k0_off10_inb L k 0) (k0_off10_eq L k 0))) (win_disj (n0 L + 16 * k.val + 8 * 0) 15 8 (by decide) _ (k0_off18_inb L k 0) (k0_off18_eq L k 0) _ (k0_off11_inb L k 0) (k0_off11_eq L k 0))) (win_disj (n0 L + 16 * k.val + 8 * 0) 15 9 (by decide) _ (k0_off18_inb L k 0) (k0_off18_eq L k 0) _ (k0_off12_inb L k 0) (k0_off12_eq L k 0))) (win_disj (n0 L + 16 * k.val + 8 * 0) 15 10 (by decide) _ (k0_off18_inb L k 0) (k0_off18_eq L k 0) _ (k0_off13_inb L k 0) (k0_off13_eq L k 0))) (win_disj (n0 L + 16 * k.val + 8 * 0) 15 11 (by decide) _ (k0_off18_inb L k 0) (k0_off18_eq L k 0) _ (k0_off14_inb L k 0) (k0_off14_eq L k 0))) (win_disj (n0 L + 16 * k.val + 8 * 0) 15 12 (by decide) _ (k0_off18_inb L k 0) (k0_off18_eq L k 0) _ (k0_off15_inb L k 0) (k0_off15_eq L k 0))) (win_disj (n0 L + 16 * k.val + 8 * 0) 15 13 (by decide) _ (k0_off18_inb L k 0) (k0_off18_eq L k 0) _ (k0_off16_inb L k 0) (k0_off16_eq L k 0))) (win_disj (n0 L + 16 * k.val + 8 * 0) 15 14 (by decide) _ (k0_off18_inb L k 0) (k0_off18_eq L k 0) _ (k0_off17_inb L k 0) (k0_off17_eq L k 0)))
      ihave Ho := (pointsTo_split_subset (ℓ := (oW).view.loc (thr d L)) (q := fullShare) hsub15).2 $$ [Ho_2 Ho]
      · isplitl [Ho_2]; · iexact Ho_2
        iexact Ho
      have hsub14 : (winSl _ (k0_off17_inb L k 0)).view.set ⊆ (((((((((((((((oW).view.setOn (tileRect L).set \ (winSl _ (k0_off3_inb L k 0)).view.set) \ (winSl _ (k0_off4_inb L k 0)).view.set) \ (winSl _ (k0_off5_inb L k 0)).view.set) \ (winSl _ (k0_off6_inb L k 0)).view.set) \ (winSl _ (k0_off7_inb L k 0)).view.set) \ (winSl _ (k0_off8_inb L k 0)).view.set) \ (winSl _ (k0_off9_inb L k 0)).view.set) \ (winSl _ (k0_off10_inb L k 0)).view.set) \ (winSl _ (k0_off11_inb L k 0)).view.set) \ (winSl _ (k0_off12_inb L k 0)).view.set) \ (winSl _ (k0_off13_inb L k 0)).view.set) \ (winSl _ (k0_off14_inb L k 0)).view.set) \ (winSl _ (k0_off15_inb L k 0)).view.set) \ (winSl _ (k0_off16_inb L k 0)).view.set) :=
        (sub_sdiff_of (sub_sdiff_of (sub_sdiff_of (sub_sdiff_of (sub_sdiff_of (sub_sdiff_of (sub_sdiff_of (sub_sdiff_of (sub_sdiff_of (sub_sdiff_of (sub_sdiff_of (sub_sdiff_of (sub_sdiff_of (sub_sdiff_of (win_sub_tile L (n0 L + 16 * k.val + 8 * 0) 14 ⟨by omega, by omega⟩ (by decide) _ (k0_off17_inb L k 0) (k0_off17_eq L k 0)) (win_disj (n0 L + 16 * k.val + 8 * 0) 14 0 (by decide) _ (k0_off17_inb L k 0) (k0_off17_eq L k 0) _ (k0_off3_inb L k 0) (k0_off3_eq L k 0))) (win_disj (n0 L + 16 * k.val + 8 * 0) 14 1 (by decide) _ (k0_off17_inb L k 0) (k0_off17_eq L k 0) _ (k0_off4_inb L k 0) (k0_off4_eq L k 0))) (win_disj (n0 L + 16 * k.val + 8 * 0) 14 2 (by decide) _ (k0_off17_inb L k 0) (k0_off17_eq L k 0) _ (k0_off5_inb L k 0) (k0_off5_eq L k 0))) (win_disj (n0 L + 16 * k.val + 8 * 0) 14 3 (by decide) _ (k0_off17_inb L k 0) (k0_off17_eq L k 0) _ (k0_off6_inb L k 0) (k0_off6_eq L k 0))) (win_disj (n0 L + 16 * k.val + 8 * 0) 14 4 (by decide) _ (k0_off17_inb L k 0) (k0_off17_eq L k 0) _ (k0_off7_inb L k 0) (k0_off7_eq L k 0))) (win_disj (n0 L + 16 * k.val + 8 * 0) 14 5 (by decide) _ (k0_off17_inb L k 0) (k0_off17_eq L k 0) _ (k0_off8_inb L k 0) (k0_off8_eq L k 0))) (win_disj (n0 L + 16 * k.val + 8 * 0) 14 6 (by decide) _ (k0_off17_inb L k 0) (k0_off17_eq L k 0) _ (k0_off9_inb L k 0) (k0_off9_eq L k 0))) (win_disj (n0 L + 16 * k.val + 8 * 0) 14 7 (by decide) _ (k0_off17_inb L k 0) (k0_off17_eq L k 0) _ (k0_off10_inb L k 0) (k0_off10_eq L k 0))) (win_disj (n0 L + 16 * k.val + 8 * 0) 14 8 (by decide) _ (k0_off17_inb L k 0) (k0_off17_eq L k 0) _ (k0_off11_inb L k 0) (k0_off11_eq L k 0))) (win_disj (n0 L + 16 * k.val + 8 * 0) 14 9 (by decide) _ (k0_off17_inb L k 0) (k0_off17_eq L k 0) _ (k0_off12_inb L k 0) (k0_off12_eq L k 0))) (win_disj (n0 L + 16 * k.val + 8 * 0) 14 10 (by decide) _ (k0_off17_inb L k 0) (k0_off17_eq L k 0) _ (k0_off13_inb L k 0) (k0_off13_eq L k 0))) (win_disj (n0 L + 16 * k.val + 8 * 0) 14 11 (by decide) _ (k0_off17_inb L k 0) (k0_off17_eq L k 0) _ (k0_off14_inb L k 0) (k0_off14_eq L k 0))) (win_disj (n0 L + 16 * k.val + 8 * 0) 14 12 (by decide) _ (k0_off17_inb L k 0) (k0_off17_eq L k 0) _ (k0_off15_inb L k 0) (k0_off15_eq L k 0))) (win_disj (n0 L + 16 * k.val + 8 * 0) 14 13 (by decide) _ (k0_off17_inb L k 0) (k0_off17_eq L k 0) _ (k0_off16_inb L k 0) (k0_off16_eq L k 0)))
      ihave Ho := (pointsTo_split_subset (ℓ := (oW).view.loc (thr d L)) (q := fullShare) hsub14).2 $$ [Ho_3 Ho]
      · isplitl [Ho_3]; · iexact Ho_3
        iexact Ho
      have hsub13 : (winSl _ (k0_off16_inb L k 0)).view.set ⊆ ((((((((((((((oW).view.setOn (tileRect L).set \ (winSl _ (k0_off3_inb L k 0)).view.set) \ (winSl _ (k0_off4_inb L k 0)).view.set) \ (winSl _ (k0_off5_inb L k 0)).view.set) \ (winSl _ (k0_off6_inb L k 0)).view.set) \ (winSl _ (k0_off7_inb L k 0)).view.set) \ (winSl _ (k0_off8_inb L k 0)).view.set) \ (winSl _ (k0_off9_inb L k 0)).view.set) \ (winSl _ (k0_off10_inb L k 0)).view.set) \ (winSl _ (k0_off11_inb L k 0)).view.set) \ (winSl _ (k0_off12_inb L k 0)).view.set) \ (winSl _ (k0_off13_inb L k 0)).view.set) \ (winSl _ (k0_off14_inb L k 0)).view.set) \ (winSl _ (k0_off15_inb L k 0)).view.set) :=
        (sub_sdiff_of (sub_sdiff_of (sub_sdiff_of (sub_sdiff_of (sub_sdiff_of (sub_sdiff_of (sub_sdiff_of (sub_sdiff_of (sub_sdiff_of (sub_sdiff_of (sub_sdiff_of (sub_sdiff_of (sub_sdiff_of (win_sub_tile L (n0 L + 16 * k.val + 8 * 0) 13 ⟨by omega, by omega⟩ (by decide) _ (k0_off16_inb L k 0) (k0_off16_eq L k 0)) (win_disj (n0 L + 16 * k.val + 8 * 0) 13 0 (by decide) _ (k0_off16_inb L k 0) (k0_off16_eq L k 0) _ (k0_off3_inb L k 0) (k0_off3_eq L k 0))) (win_disj (n0 L + 16 * k.val + 8 * 0) 13 1 (by decide) _ (k0_off16_inb L k 0) (k0_off16_eq L k 0) _ (k0_off4_inb L k 0) (k0_off4_eq L k 0))) (win_disj (n0 L + 16 * k.val + 8 * 0) 13 2 (by decide) _ (k0_off16_inb L k 0) (k0_off16_eq L k 0) _ (k0_off5_inb L k 0) (k0_off5_eq L k 0))) (win_disj (n0 L + 16 * k.val + 8 * 0) 13 3 (by decide) _ (k0_off16_inb L k 0) (k0_off16_eq L k 0) _ (k0_off6_inb L k 0) (k0_off6_eq L k 0))) (win_disj (n0 L + 16 * k.val + 8 * 0) 13 4 (by decide) _ (k0_off16_inb L k 0) (k0_off16_eq L k 0) _ (k0_off7_inb L k 0) (k0_off7_eq L k 0))) (win_disj (n0 L + 16 * k.val + 8 * 0) 13 5 (by decide) _ (k0_off16_inb L k 0) (k0_off16_eq L k 0) _ (k0_off8_inb L k 0) (k0_off8_eq L k 0))) (win_disj (n0 L + 16 * k.val + 8 * 0) 13 6 (by decide) _ (k0_off16_inb L k 0) (k0_off16_eq L k 0) _ (k0_off9_inb L k 0) (k0_off9_eq L k 0))) (win_disj (n0 L + 16 * k.val + 8 * 0) 13 7 (by decide) _ (k0_off16_inb L k 0) (k0_off16_eq L k 0) _ (k0_off10_inb L k 0) (k0_off10_eq L k 0))) (win_disj (n0 L + 16 * k.val + 8 * 0) 13 8 (by decide) _ (k0_off16_inb L k 0) (k0_off16_eq L k 0) _ (k0_off11_inb L k 0) (k0_off11_eq L k 0))) (win_disj (n0 L + 16 * k.val + 8 * 0) 13 9 (by decide) _ (k0_off16_inb L k 0) (k0_off16_eq L k 0) _ (k0_off12_inb L k 0) (k0_off12_eq L k 0))) (win_disj (n0 L + 16 * k.val + 8 * 0) 13 10 (by decide) _ (k0_off16_inb L k 0) (k0_off16_eq L k 0) _ (k0_off13_inb L k 0) (k0_off13_eq L k 0))) (win_disj (n0 L + 16 * k.val + 8 * 0) 13 11 (by decide) _ (k0_off16_inb L k 0) (k0_off16_eq L k 0) _ (k0_off14_inb L k 0) (k0_off14_eq L k 0))) (win_disj (n0 L + 16 * k.val + 8 * 0) 13 12 (by decide) _ (k0_off16_inb L k 0) (k0_off16_eq L k 0) _ (k0_off15_inb L k 0) (k0_off15_eq L k 0)))
      ihave Ho := (pointsTo_split_subset (ℓ := (oW).view.loc (thr d L)) (q := fullShare) hsub13).2 $$ [Ho_4 Ho]
      · isplitl [Ho_4]; · iexact Ho_4
        iexact Ho
      have hsub12 : (winSl _ (k0_off15_inb L k 0)).view.set ⊆ (((((((((((((oW).view.setOn (tileRect L).set \ (winSl _ (k0_off3_inb L k 0)).view.set) \ (winSl _ (k0_off4_inb L k 0)).view.set) \ (winSl _ (k0_off5_inb L k 0)).view.set) \ (winSl _ (k0_off6_inb L k 0)).view.set) \ (winSl _ (k0_off7_inb L k 0)).view.set) \ (winSl _ (k0_off8_inb L k 0)).view.set) \ (winSl _ (k0_off9_inb L k 0)).view.set) \ (winSl _ (k0_off10_inb L k 0)).view.set) \ (winSl _ (k0_off11_inb L k 0)).view.set) \ (winSl _ (k0_off12_inb L k 0)).view.set) \ (winSl _ (k0_off13_inb L k 0)).view.set) \ (winSl _ (k0_off14_inb L k 0)).view.set) :=
        (sub_sdiff_of (sub_sdiff_of (sub_sdiff_of (sub_sdiff_of (sub_sdiff_of (sub_sdiff_of (sub_sdiff_of (sub_sdiff_of (sub_sdiff_of (sub_sdiff_of (sub_sdiff_of (sub_sdiff_of (win_sub_tile L (n0 L + 16 * k.val + 8 * 0) 12 ⟨by omega, by omega⟩ (by decide) _ (k0_off15_inb L k 0) (k0_off15_eq L k 0)) (win_disj (n0 L + 16 * k.val + 8 * 0) 12 0 (by decide) _ (k0_off15_inb L k 0) (k0_off15_eq L k 0) _ (k0_off3_inb L k 0) (k0_off3_eq L k 0))) (win_disj (n0 L + 16 * k.val + 8 * 0) 12 1 (by decide) _ (k0_off15_inb L k 0) (k0_off15_eq L k 0) _ (k0_off4_inb L k 0) (k0_off4_eq L k 0))) (win_disj (n0 L + 16 * k.val + 8 * 0) 12 2 (by decide) _ (k0_off15_inb L k 0) (k0_off15_eq L k 0) _ (k0_off5_inb L k 0) (k0_off5_eq L k 0))) (win_disj (n0 L + 16 * k.val + 8 * 0) 12 3 (by decide) _ (k0_off15_inb L k 0) (k0_off15_eq L k 0) _ (k0_off6_inb L k 0) (k0_off6_eq L k 0))) (win_disj (n0 L + 16 * k.val + 8 * 0) 12 4 (by decide) _ (k0_off15_inb L k 0) (k0_off15_eq L k 0) _ (k0_off7_inb L k 0) (k0_off7_eq L k 0))) (win_disj (n0 L + 16 * k.val + 8 * 0) 12 5 (by decide) _ (k0_off15_inb L k 0) (k0_off15_eq L k 0) _ (k0_off8_inb L k 0) (k0_off8_eq L k 0))) (win_disj (n0 L + 16 * k.val + 8 * 0) 12 6 (by decide) _ (k0_off15_inb L k 0) (k0_off15_eq L k 0) _ (k0_off9_inb L k 0) (k0_off9_eq L k 0))) (win_disj (n0 L + 16 * k.val + 8 * 0) 12 7 (by decide) _ (k0_off15_inb L k 0) (k0_off15_eq L k 0) _ (k0_off10_inb L k 0) (k0_off10_eq L k 0))) (win_disj (n0 L + 16 * k.val + 8 * 0) 12 8 (by decide) _ (k0_off15_inb L k 0) (k0_off15_eq L k 0) _ (k0_off11_inb L k 0) (k0_off11_eq L k 0))) (win_disj (n0 L + 16 * k.val + 8 * 0) 12 9 (by decide) _ (k0_off15_inb L k 0) (k0_off15_eq L k 0) _ (k0_off12_inb L k 0) (k0_off12_eq L k 0))) (win_disj (n0 L + 16 * k.val + 8 * 0) 12 10 (by decide) _ (k0_off15_inb L k 0) (k0_off15_eq L k 0) _ (k0_off13_inb L k 0) (k0_off13_eq L k 0))) (win_disj (n0 L + 16 * k.val + 8 * 0) 12 11 (by decide) _ (k0_off15_inb L k 0) (k0_off15_eq L k 0) _ (k0_off14_inb L k 0) (k0_off14_eq L k 0)))
      ihave Ho := (pointsTo_split_subset (ℓ := (oW).view.loc (thr d L)) (q := fullShare) hsub12).2 $$ [Ho_5 Ho]
      · isplitl [Ho_5]; · iexact Ho_5
        iexact Ho
      have hsub11 : (winSl _ (k0_off14_inb L k 0)).view.set ⊆ ((((((((((((oW).view.setOn (tileRect L).set \ (winSl _ (k0_off3_inb L k 0)).view.set) \ (winSl _ (k0_off4_inb L k 0)).view.set) \ (winSl _ (k0_off5_inb L k 0)).view.set) \ (winSl _ (k0_off6_inb L k 0)).view.set) \ (winSl _ (k0_off7_inb L k 0)).view.set) \ (winSl _ (k0_off8_inb L k 0)).view.set) \ (winSl _ (k0_off9_inb L k 0)).view.set) \ (winSl _ (k0_off10_inb L k 0)).view.set) \ (winSl _ (k0_off11_inb L k 0)).view.set) \ (winSl _ (k0_off12_inb L k 0)).view.set) \ (winSl _ (k0_off13_inb L k 0)).view.set) :=
        (sub_sdiff_of (sub_sdiff_of (sub_sdiff_of (sub_sdiff_of (sub_sdiff_of (sub_sdiff_of (sub_sdiff_of (sub_sdiff_of (sub_sdiff_of (sub_sdiff_of (sub_sdiff_of (win_sub_tile L (n0 L + 16 * k.val + 8 * 0) 11 ⟨by omega, by omega⟩ (by decide) _ (k0_off14_inb L k 0) (k0_off14_eq L k 0)) (win_disj (n0 L + 16 * k.val + 8 * 0) 11 0 (by decide) _ (k0_off14_inb L k 0) (k0_off14_eq L k 0) _ (k0_off3_inb L k 0) (k0_off3_eq L k 0))) (win_disj (n0 L + 16 * k.val + 8 * 0) 11 1 (by decide) _ (k0_off14_inb L k 0) (k0_off14_eq L k 0) _ (k0_off4_inb L k 0) (k0_off4_eq L k 0))) (win_disj (n0 L + 16 * k.val + 8 * 0) 11 2 (by decide) _ (k0_off14_inb L k 0) (k0_off14_eq L k 0) _ (k0_off5_inb L k 0) (k0_off5_eq L k 0))) (win_disj (n0 L + 16 * k.val + 8 * 0) 11 3 (by decide) _ (k0_off14_inb L k 0) (k0_off14_eq L k 0) _ (k0_off6_inb L k 0) (k0_off6_eq L k 0))) (win_disj (n0 L + 16 * k.val + 8 * 0) 11 4 (by decide) _ (k0_off14_inb L k 0) (k0_off14_eq L k 0) _ (k0_off7_inb L k 0) (k0_off7_eq L k 0))) (win_disj (n0 L + 16 * k.val + 8 * 0) 11 5 (by decide) _ (k0_off14_inb L k 0) (k0_off14_eq L k 0) _ (k0_off8_inb L k 0) (k0_off8_eq L k 0))) (win_disj (n0 L + 16 * k.val + 8 * 0) 11 6 (by decide) _ (k0_off14_inb L k 0) (k0_off14_eq L k 0) _ (k0_off9_inb L k 0) (k0_off9_eq L k 0))) (win_disj (n0 L + 16 * k.val + 8 * 0) 11 7 (by decide) _ (k0_off14_inb L k 0) (k0_off14_eq L k 0) _ (k0_off10_inb L k 0) (k0_off10_eq L k 0))) (win_disj (n0 L + 16 * k.val + 8 * 0) 11 8 (by decide) _ (k0_off14_inb L k 0) (k0_off14_eq L k 0) _ (k0_off11_inb L k 0) (k0_off11_eq L k 0))) (win_disj (n0 L + 16 * k.val + 8 * 0) 11 9 (by decide) _ (k0_off14_inb L k 0) (k0_off14_eq L k 0) _ (k0_off12_inb L k 0) (k0_off12_eq L k 0))) (win_disj (n0 L + 16 * k.val + 8 * 0) 11 10 (by decide) _ (k0_off14_inb L k 0) (k0_off14_eq L k 0) _ (k0_off13_inb L k 0) (k0_off13_eq L k 0)))
      ihave Ho := (pointsTo_split_subset (ℓ := (oW).view.loc (thr d L)) (q := fullShare) hsub11).2 $$ [Ho_6 Ho]
      · isplitl [Ho_6]; · iexact Ho_6
        iexact Ho
      have hsub10 : (winSl _ (k0_off13_inb L k 0)).view.set ⊆ (((((((((((oW).view.setOn (tileRect L).set \ (winSl _ (k0_off3_inb L k 0)).view.set) \ (winSl _ (k0_off4_inb L k 0)).view.set) \ (winSl _ (k0_off5_inb L k 0)).view.set) \ (winSl _ (k0_off6_inb L k 0)).view.set) \ (winSl _ (k0_off7_inb L k 0)).view.set) \ (winSl _ (k0_off8_inb L k 0)).view.set) \ (winSl _ (k0_off9_inb L k 0)).view.set) \ (winSl _ (k0_off10_inb L k 0)).view.set) \ (winSl _ (k0_off11_inb L k 0)).view.set) \ (winSl _ (k0_off12_inb L k 0)).view.set) :=
        (sub_sdiff_of (sub_sdiff_of (sub_sdiff_of (sub_sdiff_of (sub_sdiff_of (sub_sdiff_of (sub_sdiff_of (sub_sdiff_of (sub_sdiff_of (sub_sdiff_of (win_sub_tile L (n0 L + 16 * k.val + 8 * 0) 10 ⟨by omega, by omega⟩ (by decide) _ (k0_off13_inb L k 0) (k0_off13_eq L k 0)) (win_disj (n0 L + 16 * k.val + 8 * 0) 10 0 (by decide) _ (k0_off13_inb L k 0) (k0_off13_eq L k 0) _ (k0_off3_inb L k 0) (k0_off3_eq L k 0))) (win_disj (n0 L + 16 * k.val + 8 * 0) 10 1 (by decide) _ (k0_off13_inb L k 0) (k0_off13_eq L k 0) _ (k0_off4_inb L k 0) (k0_off4_eq L k 0))) (win_disj (n0 L + 16 * k.val + 8 * 0) 10 2 (by decide) _ (k0_off13_inb L k 0) (k0_off13_eq L k 0) _ (k0_off5_inb L k 0) (k0_off5_eq L k 0))) (win_disj (n0 L + 16 * k.val + 8 * 0) 10 3 (by decide) _ (k0_off13_inb L k 0) (k0_off13_eq L k 0) _ (k0_off6_inb L k 0) (k0_off6_eq L k 0))) (win_disj (n0 L + 16 * k.val + 8 * 0) 10 4 (by decide) _ (k0_off13_inb L k 0) (k0_off13_eq L k 0) _ (k0_off7_inb L k 0) (k0_off7_eq L k 0))) (win_disj (n0 L + 16 * k.val + 8 * 0) 10 5 (by decide) _ (k0_off13_inb L k 0) (k0_off13_eq L k 0) _ (k0_off8_inb L k 0) (k0_off8_eq L k 0))) (win_disj (n0 L + 16 * k.val + 8 * 0) 10 6 (by decide) _ (k0_off13_inb L k 0) (k0_off13_eq L k 0) _ (k0_off9_inb L k 0) (k0_off9_eq L k 0))) (win_disj (n0 L + 16 * k.val + 8 * 0) 10 7 (by decide) _ (k0_off13_inb L k 0) (k0_off13_eq L k 0) _ (k0_off10_inb L k 0) (k0_off10_eq L k 0))) (win_disj (n0 L + 16 * k.val + 8 * 0) 10 8 (by decide) _ (k0_off13_inb L k 0) (k0_off13_eq L k 0) _ (k0_off11_inb L k 0) (k0_off11_eq L k 0))) (win_disj (n0 L + 16 * k.val + 8 * 0) 10 9 (by decide) _ (k0_off13_inb L k 0) (k0_off13_eq L k 0) _ (k0_off12_inb L k 0) (k0_off12_eq L k 0)))
      ihave Ho := (pointsTo_split_subset (ℓ := (oW).view.loc (thr d L)) (q := fullShare) hsub10).2 $$ [Ho_7 Ho]
      · isplitl [Ho_7]; · iexact Ho_7
        iexact Ho
      have hsub9 : (winSl _ (k0_off12_inb L k 0)).view.set ⊆ ((((((((((oW).view.setOn (tileRect L).set \ (winSl _ (k0_off3_inb L k 0)).view.set) \ (winSl _ (k0_off4_inb L k 0)).view.set) \ (winSl _ (k0_off5_inb L k 0)).view.set) \ (winSl _ (k0_off6_inb L k 0)).view.set) \ (winSl _ (k0_off7_inb L k 0)).view.set) \ (winSl _ (k0_off8_inb L k 0)).view.set) \ (winSl _ (k0_off9_inb L k 0)).view.set) \ (winSl _ (k0_off10_inb L k 0)).view.set) \ (winSl _ (k0_off11_inb L k 0)).view.set) :=
        (sub_sdiff_of (sub_sdiff_of (sub_sdiff_of (sub_sdiff_of (sub_sdiff_of (sub_sdiff_of (sub_sdiff_of (sub_sdiff_of (sub_sdiff_of (win_sub_tile L (n0 L + 16 * k.val + 8 * 0) 9 ⟨by omega, by omega⟩ (by decide) _ (k0_off12_inb L k 0) (k0_off12_eq L k 0)) (win_disj (n0 L + 16 * k.val + 8 * 0) 9 0 (by decide) _ (k0_off12_inb L k 0) (k0_off12_eq L k 0) _ (k0_off3_inb L k 0) (k0_off3_eq L k 0))) (win_disj (n0 L + 16 * k.val + 8 * 0) 9 1 (by decide) _ (k0_off12_inb L k 0) (k0_off12_eq L k 0) _ (k0_off4_inb L k 0) (k0_off4_eq L k 0))) (win_disj (n0 L + 16 * k.val + 8 * 0) 9 2 (by decide) _ (k0_off12_inb L k 0) (k0_off12_eq L k 0) _ (k0_off5_inb L k 0) (k0_off5_eq L k 0))) (win_disj (n0 L + 16 * k.val + 8 * 0) 9 3 (by decide) _ (k0_off12_inb L k 0) (k0_off12_eq L k 0) _ (k0_off6_inb L k 0) (k0_off6_eq L k 0))) (win_disj (n0 L + 16 * k.val + 8 * 0) 9 4 (by decide) _ (k0_off12_inb L k 0) (k0_off12_eq L k 0) _ (k0_off7_inb L k 0) (k0_off7_eq L k 0))) (win_disj (n0 L + 16 * k.val + 8 * 0) 9 5 (by decide) _ (k0_off12_inb L k 0) (k0_off12_eq L k 0) _ (k0_off8_inb L k 0) (k0_off8_eq L k 0))) (win_disj (n0 L + 16 * k.val + 8 * 0) 9 6 (by decide) _ (k0_off12_inb L k 0) (k0_off12_eq L k 0) _ (k0_off9_inb L k 0) (k0_off9_eq L k 0))) (win_disj (n0 L + 16 * k.val + 8 * 0) 9 7 (by decide) _ (k0_off12_inb L k 0) (k0_off12_eq L k 0) _ (k0_off10_inb L k 0) (k0_off10_eq L k 0))) (win_disj (n0 L + 16 * k.val + 8 * 0) 9 8 (by decide) _ (k0_off12_inb L k 0) (k0_off12_eq L k 0) _ (k0_off11_inb L k 0) (k0_off11_eq L k 0)))
      ihave Ho := (pointsTo_split_subset (ℓ := (oW).view.loc (thr d L)) (q := fullShare) hsub9).2 $$ [Ho_8 Ho]
      · isplitl [Ho_8]; · iexact Ho_8
        iexact Ho
      have hsub8 : (winSl _ (k0_off11_inb L k 0)).view.set ⊆ (((((((((oW).view.setOn (tileRect L).set \ (winSl _ (k0_off3_inb L k 0)).view.set) \ (winSl _ (k0_off4_inb L k 0)).view.set) \ (winSl _ (k0_off5_inb L k 0)).view.set) \ (winSl _ (k0_off6_inb L k 0)).view.set) \ (winSl _ (k0_off7_inb L k 0)).view.set) \ (winSl _ (k0_off8_inb L k 0)).view.set) \ (winSl _ (k0_off9_inb L k 0)).view.set) \ (winSl _ (k0_off10_inb L k 0)).view.set) :=
        (sub_sdiff_of (sub_sdiff_of (sub_sdiff_of (sub_sdiff_of (sub_sdiff_of (sub_sdiff_of (sub_sdiff_of (sub_sdiff_of (win_sub_tile L (n0 L + 16 * k.val + 8 * 0) 8 ⟨by omega, by omega⟩ (by decide) _ (k0_off11_inb L k 0) (k0_off11_eq L k 0)) (win_disj (n0 L + 16 * k.val + 8 * 0) 8 0 (by decide) _ (k0_off11_inb L k 0) (k0_off11_eq L k 0) _ (k0_off3_inb L k 0) (k0_off3_eq L k 0))) (win_disj (n0 L + 16 * k.val + 8 * 0) 8 1 (by decide) _ (k0_off11_inb L k 0) (k0_off11_eq L k 0) _ (k0_off4_inb L k 0) (k0_off4_eq L k 0))) (win_disj (n0 L + 16 * k.val + 8 * 0) 8 2 (by decide) _ (k0_off11_inb L k 0) (k0_off11_eq L k 0) _ (k0_off5_inb L k 0) (k0_off5_eq L k 0))) (win_disj (n0 L + 16 * k.val + 8 * 0) 8 3 (by decide) _ (k0_off11_inb L k 0) (k0_off11_eq L k 0) _ (k0_off6_inb L k 0) (k0_off6_eq L k 0))) (win_disj (n0 L + 16 * k.val + 8 * 0) 8 4 (by decide) _ (k0_off11_inb L k 0) (k0_off11_eq L k 0) _ (k0_off7_inb L k 0) (k0_off7_eq L k 0))) (win_disj (n0 L + 16 * k.val + 8 * 0) 8 5 (by decide) _ (k0_off11_inb L k 0) (k0_off11_eq L k 0) _ (k0_off8_inb L k 0) (k0_off8_eq L k 0))) (win_disj (n0 L + 16 * k.val + 8 * 0) 8 6 (by decide) _ (k0_off11_inb L k 0) (k0_off11_eq L k 0) _ (k0_off9_inb L k 0) (k0_off9_eq L k 0))) (win_disj (n0 L + 16 * k.val + 8 * 0) 8 7 (by decide) _ (k0_off11_inb L k 0) (k0_off11_eq L k 0) _ (k0_off10_inb L k 0) (k0_off10_eq L k 0)))
      ihave Ho := (pointsTo_split_subset (ℓ := (oW).view.loc (thr d L)) (q := fullShare) hsub8).2 $$ [Ho_9 Ho]
      · isplitl [Ho_9]; · iexact Ho_9
        iexact Ho
      have hsub7 : (winSl _ (k0_off10_inb L k 0)).view.set ⊆ ((((((((oW).view.setOn (tileRect L).set \ (winSl _ (k0_off3_inb L k 0)).view.set) \ (winSl _ (k0_off4_inb L k 0)).view.set) \ (winSl _ (k0_off5_inb L k 0)).view.set) \ (winSl _ (k0_off6_inb L k 0)).view.set) \ (winSl _ (k0_off7_inb L k 0)).view.set) \ (winSl _ (k0_off8_inb L k 0)).view.set) \ (winSl _ (k0_off9_inb L k 0)).view.set) :=
        (sub_sdiff_of (sub_sdiff_of (sub_sdiff_of (sub_sdiff_of (sub_sdiff_of (sub_sdiff_of (sub_sdiff_of (win_sub_tile L (n0 L + 16 * k.val + 8 * 0) 7 ⟨by omega, by omega⟩ (by decide) _ (k0_off10_inb L k 0) (k0_off10_eq L k 0)) (win_disj (n0 L + 16 * k.val + 8 * 0) 7 0 (by decide) _ (k0_off10_inb L k 0) (k0_off10_eq L k 0) _ (k0_off3_inb L k 0) (k0_off3_eq L k 0))) (win_disj (n0 L + 16 * k.val + 8 * 0) 7 1 (by decide) _ (k0_off10_inb L k 0) (k0_off10_eq L k 0) _ (k0_off4_inb L k 0) (k0_off4_eq L k 0))) (win_disj (n0 L + 16 * k.val + 8 * 0) 7 2 (by decide) _ (k0_off10_inb L k 0) (k0_off10_eq L k 0) _ (k0_off5_inb L k 0) (k0_off5_eq L k 0))) (win_disj (n0 L + 16 * k.val + 8 * 0) 7 3 (by decide) _ (k0_off10_inb L k 0) (k0_off10_eq L k 0) _ (k0_off6_inb L k 0) (k0_off6_eq L k 0))) (win_disj (n0 L + 16 * k.val + 8 * 0) 7 4 (by decide) _ (k0_off10_inb L k 0) (k0_off10_eq L k 0) _ (k0_off7_inb L k 0) (k0_off7_eq L k 0))) (win_disj (n0 L + 16 * k.val + 8 * 0) 7 5 (by decide) _ (k0_off10_inb L k 0) (k0_off10_eq L k 0) _ (k0_off8_inb L k 0) (k0_off8_eq L k 0))) (win_disj (n0 L + 16 * k.val + 8 * 0) 7 6 (by decide) _ (k0_off10_inb L k 0) (k0_off10_eq L k 0) _ (k0_off9_inb L k 0) (k0_off9_eq L k 0)))
      ihave Ho := (pointsTo_split_subset (ℓ := (oW).view.loc (thr d L)) (q := fullShare) hsub7).2 $$ [Ho_10 Ho]
      · isplitl [Ho_10]; · iexact Ho_10
        iexact Ho
      have hsub6 : (winSl _ (k0_off9_inb L k 0)).view.set ⊆ (((((((oW).view.setOn (tileRect L).set \ (winSl _ (k0_off3_inb L k 0)).view.set) \ (winSl _ (k0_off4_inb L k 0)).view.set) \ (winSl _ (k0_off5_inb L k 0)).view.set) \ (winSl _ (k0_off6_inb L k 0)).view.set) \ (winSl _ (k0_off7_inb L k 0)).view.set) \ (winSl _ (k0_off8_inb L k 0)).view.set) :=
        (sub_sdiff_of (sub_sdiff_of (sub_sdiff_of (sub_sdiff_of (sub_sdiff_of (sub_sdiff_of (win_sub_tile L (n0 L + 16 * k.val + 8 * 0) 6 ⟨by omega, by omega⟩ (by decide) _ (k0_off9_inb L k 0) (k0_off9_eq L k 0)) (win_disj (n0 L + 16 * k.val + 8 * 0) 6 0 (by decide) _ (k0_off9_inb L k 0) (k0_off9_eq L k 0) _ (k0_off3_inb L k 0) (k0_off3_eq L k 0))) (win_disj (n0 L + 16 * k.val + 8 * 0) 6 1 (by decide) _ (k0_off9_inb L k 0) (k0_off9_eq L k 0) _ (k0_off4_inb L k 0) (k0_off4_eq L k 0))) (win_disj (n0 L + 16 * k.val + 8 * 0) 6 2 (by decide) _ (k0_off9_inb L k 0) (k0_off9_eq L k 0) _ (k0_off5_inb L k 0) (k0_off5_eq L k 0))) (win_disj (n0 L + 16 * k.val + 8 * 0) 6 3 (by decide) _ (k0_off9_inb L k 0) (k0_off9_eq L k 0) _ (k0_off6_inb L k 0) (k0_off6_eq L k 0))) (win_disj (n0 L + 16 * k.val + 8 * 0) 6 4 (by decide) _ (k0_off9_inb L k 0) (k0_off9_eq L k 0) _ (k0_off7_inb L k 0) (k0_off7_eq L k 0))) (win_disj (n0 L + 16 * k.val + 8 * 0) 6 5 (by decide) _ (k0_off9_inb L k 0) (k0_off9_eq L k 0) _ (k0_off8_inb L k 0) (k0_off8_eq L k 0)))
      ihave Ho := (pointsTo_split_subset (ℓ := (oW).view.loc (thr d L)) (q := fullShare) hsub6).2 $$ [Ho_11 Ho]
      · isplitl [Ho_11]; · iexact Ho_11
        iexact Ho
      have hsub5 : (winSl _ (k0_off8_inb L k 0)).view.set ⊆ ((((((oW).view.setOn (tileRect L).set \ (winSl _ (k0_off3_inb L k 0)).view.set) \ (winSl _ (k0_off4_inb L k 0)).view.set) \ (winSl _ (k0_off5_inb L k 0)).view.set) \ (winSl _ (k0_off6_inb L k 0)).view.set) \ (winSl _ (k0_off7_inb L k 0)).view.set) :=
        (sub_sdiff_of (sub_sdiff_of (sub_sdiff_of (sub_sdiff_of (sub_sdiff_of (win_sub_tile L (n0 L + 16 * k.val + 8 * 0) 5 ⟨by omega, by omega⟩ (by decide) _ (k0_off8_inb L k 0) (k0_off8_eq L k 0)) (win_disj (n0 L + 16 * k.val + 8 * 0) 5 0 (by decide) _ (k0_off8_inb L k 0) (k0_off8_eq L k 0) _ (k0_off3_inb L k 0) (k0_off3_eq L k 0))) (win_disj (n0 L + 16 * k.val + 8 * 0) 5 1 (by decide) _ (k0_off8_inb L k 0) (k0_off8_eq L k 0) _ (k0_off4_inb L k 0) (k0_off4_eq L k 0))) (win_disj (n0 L + 16 * k.val + 8 * 0) 5 2 (by decide) _ (k0_off8_inb L k 0) (k0_off8_eq L k 0) _ (k0_off5_inb L k 0) (k0_off5_eq L k 0))) (win_disj (n0 L + 16 * k.val + 8 * 0) 5 3 (by decide) _ (k0_off8_inb L k 0) (k0_off8_eq L k 0) _ (k0_off6_inb L k 0) (k0_off6_eq L k 0))) (win_disj (n0 L + 16 * k.val + 8 * 0) 5 4 (by decide) _ (k0_off8_inb L k 0) (k0_off8_eq L k 0) _ (k0_off7_inb L k 0) (k0_off7_eq L k 0)))
      ihave Ho := (pointsTo_split_subset (ℓ := (oW).view.loc (thr d L)) (q := fullShare) hsub5).2 $$ [Ho_12 Ho]
      · isplitl [Ho_12]; · iexact Ho_12
        iexact Ho
      have hsub4 : (winSl _ (k0_off7_inb L k 0)).view.set ⊆ (((((oW).view.setOn (tileRect L).set \ (winSl _ (k0_off3_inb L k 0)).view.set) \ (winSl _ (k0_off4_inb L k 0)).view.set) \ (winSl _ (k0_off5_inb L k 0)).view.set) \ (winSl _ (k0_off6_inb L k 0)).view.set) :=
        (sub_sdiff_of (sub_sdiff_of (sub_sdiff_of (sub_sdiff_of (win_sub_tile L (n0 L + 16 * k.val + 8 * 0) 4 ⟨by omega, by omega⟩ (by decide) _ (k0_off7_inb L k 0) (k0_off7_eq L k 0)) (win_disj (n0 L + 16 * k.val + 8 * 0) 4 0 (by decide) _ (k0_off7_inb L k 0) (k0_off7_eq L k 0) _ (k0_off3_inb L k 0) (k0_off3_eq L k 0))) (win_disj (n0 L + 16 * k.val + 8 * 0) 4 1 (by decide) _ (k0_off7_inb L k 0) (k0_off7_eq L k 0) _ (k0_off4_inb L k 0) (k0_off4_eq L k 0))) (win_disj (n0 L + 16 * k.val + 8 * 0) 4 2 (by decide) _ (k0_off7_inb L k 0) (k0_off7_eq L k 0) _ (k0_off5_inb L k 0) (k0_off5_eq L k 0))) (win_disj (n0 L + 16 * k.val + 8 * 0) 4 3 (by decide) _ (k0_off7_inb L k 0) (k0_off7_eq L k 0) _ (k0_off6_inb L k 0) (k0_off6_eq L k 0)))
      ihave Ho := (pointsTo_split_subset (ℓ := (oW).view.loc (thr d L)) (q := fullShare) hsub4).2 $$ [Ho_13 Ho]
      · isplitl [Ho_13]; · iexact Ho_13
        iexact Ho
      have hsub3 : (winSl _ (k0_off6_inb L k 0)).view.set ⊆ ((((oW).view.setOn (tileRect L).set \ (winSl _ (k0_off3_inb L k 0)).view.set) \ (winSl _ (k0_off4_inb L k 0)).view.set) \ (winSl _ (k0_off5_inb L k 0)).view.set) :=
        (sub_sdiff_of (sub_sdiff_of (sub_sdiff_of (win_sub_tile L (n0 L + 16 * k.val + 8 * 0) 3 ⟨by omega, by omega⟩ (by decide) _ (k0_off6_inb L k 0) (k0_off6_eq L k 0)) (win_disj (n0 L + 16 * k.val + 8 * 0) 3 0 (by decide) _ (k0_off6_inb L k 0) (k0_off6_eq L k 0) _ (k0_off3_inb L k 0) (k0_off3_eq L k 0))) (win_disj (n0 L + 16 * k.val + 8 * 0) 3 1 (by decide) _ (k0_off6_inb L k 0) (k0_off6_eq L k 0) _ (k0_off4_inb L k 0) (k0_off4_eq L k 0))) (win_disj (n0 L + 16 * k.val + 8 * 0) 3 2 (by decide) _ (k0_off6_inb L k 0) (k0_off6_eq L k 0) _ (k0_off5_inb L k 0) (k0_off5_eq L k 0)))
      ihave Ho := (pointsTo_split_subset (ℓ := (oW).view.loc (thr d L)) (q := fullShare) hsub3).2 $$ [Ho_14 Ho]
      · isplitl [Ho_14]; · iexact Ho_14
        iexact Ho
      have hsub2 : (winSl _ (k0_off5_inb L k 0)).view.set ⊆ (((oW).view.setOn (tileRect L).set \ (winSl _ (k0_off3_inb L k 0)).view.set) \ (winSl _ (k0_off4_inb L k 0)).view.set) :=
        (sub_sdiff_of (sub_sdiff_of (win_sub_tile L (n0 L + 16 * k.val + 8 * 0) 2 ⟨by omega, by omega⟩ (by decide) _ (k0_off5_inb L k 0) (k0_off5_eq L k 0)) (win_disj (n0 L + 16 * k.val + 8 * 0) 2 0 (by decide) _ (k0_off5_inb L k 0) (k0_off5_eq L k 0) _ (k0_off3_inb L k 0) (k0_off3_eq L k 0))) (win_disj (n0 L + 16 * k.val + 8 * 0) 2 1 (by decide) _ (k0_off5_inb L k 0) (k0_off5_eq L k 0) _ (k0_off4_inb L k 0) (k0_off4_eq L k 0)))
      ihave Ho := (pointsTo_split_subset (ℓ := (oW).view.loc (thr d L)) (q := fullShare) hsub2).2 $$ [Ho_15 Ho]
      · isplitl [Ho_15]; · iexact Ho_15
        iexact Ho
      have hsub1 : (winSl _ (k0_off4_inb L k 0)).view.set ⊆ ((oW).view.setOn (tileRect L).set \ (winSl _ (k0_off3_inb L k 0)).view.set) :=
        (sub_sdiff_of (win_sub_tile L (n0 L + 16 * k.val + 8 * 0) 1 ⟨by omega, by omega⟩ (by decide) _ (k0_off4_inb L k 0) (k0_off4_eq L k 0)) (win_disj (n0 L + 16 * k.val + 8 * 0) 1 0 (by decide) _ (k0_off4_inb L k 0) (k0_off4_eq L k 0) _ (k0_off3_inb L k 0) (k0_off3_eq L k 0)))
      ihave Ho := (pointsTo_split_subset (ℓ := (oW).view.loc (thr d L)) (q := fullShare) hsub1).2 $$ [Ho_16 Ho]
      · isplitl [Ho_16]; · iexact Ho_16
        iexact Ho
      have hsub0 : (winSl _ (k0_off3_inb L k 0)).view.set ⊆ (oW).view.setOn (tileRect L).set :=
        (win_sub_tile L (n0 L + 16 * k.val + 8 * 0) 0 ⟨by omega, by omega⟩ (by decide) _ (k0_off3_inb L k 0) (k0_off3_eq L k 0))
      ihave Ho := (pointsTo_split_subset (ℓ := (oW).view.loc (thr d L)) (q := fullShare) hsub0).2 $$ [Ho_17 Ho]
      · isplitl [Ho_17]; · iexact Ho_17
        iexact Ho
      ihave Ho := (Entails.of_eq (pointsTo_congr (g := want m d) (fun i hi => hAg' i (mem_tileS L i hi)))) $$ Ho
      ihave Ho := (Entails.of_eq (pts_o (F := F) d L _)) $$ Ho
      ihave Ha0 := (Entails.of_eq (pts_a (F := F) d L _ _)) $$ Ha0
      ihave Ha1 := (Entails.of_eq (pts_a (F := F) d L _ _)) $$ Ha1
      ihave Ha := (Transfers.pointsTo_toks (ℓ := aLoc d) (S := Finset.univ) (f := m (aLoc d)) (qTile (cL L) (sL L)) 2).2 $$ [Had Ha0 Ha1]
      · rw [bigSep_fin2]
        isplitl [Had]; · iexact Had
        isplitl [Ha0]; · iexact Ha0
        iexact Ha1
      ihave Hs0 := (Entails.of_eq ((slab_cols (F := F) d L 0 Nat.zero_lt_two _).trans (bigSep_fin10 _)).symm) $$ [Hc0 Hc1 Hc2 Hc3 Hc4 Hc5 Hc6 Hc7 Hc8 Hc9]
      · isplitl [Hc0]; · iexact Hc0
        isplitl [Hc1]; · iexact Hc1
        isplitl [Hc2]; · iexact Hc2
        isplitl [Hc3]; · iexact Hc3
        isplitl [Hc4]; · iexact Hc4
        isplitl [Hc5]; · iexact Hc5
        isplitl [Hc6]; · iexact Hc6
        isplitl [Hc7]; · iexact Hc7
        isplitl [Hc8]; · iexact Hc8
        iexact Hc9
      ihave Hs1 := (Entails.of_eq ((slab_cols (F := F) d L 1 Nat.one_lt_two _).trans (bigSep_fin10 _)).symm) $$ [Hd0 Hd1 Hd2 Hd3 Hd4 Hd5 Hd6 Hd7 Hd8 Hd9]
      · isplitl [Hd0]; · iexact Hd0
        isplitl [Hd1]; · iexact Hd1
        isplitl [Hd2]; · iexact Hd2
        isplitl [Hd3]; · iexact Hd3
        isplitl [Hd4]; · iexact Hd4
        isplitl [Hd5]; · iexact Hd5
        isplitl [Hd6]; · iexact Hd6
        isplitl [Hd7]; · iexact Hd7
        isplitl [Hd8]; · iexact Hd8
        iexact Hd9
      ihave Hs := (slabs_join (F := F) d L _ _) $$ [Hs0 Hs1]
      · isplitl [Hs0]; · iexact Hs0
        iexact Hs1
      simp only [postT]
      rw [ownSems0_V, ownBufs_V]
      isplitl [Ha Ho]
      · isplitl [Ha]; · iexact Ha
        iexact Ho
      isplitl [Hs Hbufs]
      · isplitl [Hs]; · iexact Hs
        iexact Hbufs
      isplitl [Hg0 Hg1 Hw0 Hw1 Hsems]
      · isplitl [Hg0]; · iexact Hg0
        isplitl [Hg1]; · iexact Hg1
        isplitl [Hw0]; · iexact Hw0
        isplitl [Hw1]; · iexact Hw1
        iexact Hsems
      iexists _
      isplitr; swap
      · iexact HO
      · ipureintro; repeat (first | exact hW' | apply waits_ins)
  · unfold inv; rw [if_pos (show (0 : ℕ) < 32 by decide)]
    unfold invA restT
    have hn := n0_le L
    isplitr [Had Hbufs Hsems]; swap
    · isplitl [Had]; · iexact Had
      isplitl [Hbufs]; · iexact Hbufs
      iexact Hsems
    iexists _, _, _, _, _, _, _, W
    isplitr; swap
    isplitr; swap
    isplitr; swap
    isplitr; swap
    · isplitl []; · iexact Hmw
      isplitl [Hg0]; · iexact Hg0
      isplitl [Ha0]; · iexact Ha0
      isplitl [Hg1]; · iexact Hg1
      isplitl [Ha1]; · iexact Ha1
      isplitl [Ho]; · iexact Ho
      isplitl [Hw0]; · iexact Hw0
      isplitl [Hw1]; · iexact Hw1
      iexact HO
    · ipureintro; exact fun p hp => .inl hp
    · ipureintro; exact fun i hi => absurd hi.2 (by omega)
    · ipureintro
      exact slab_lands' (F := F) d L 1 Nat.one_lt_two (n0 L + 16 * 0 + 8) (by omega) _ (k0_off1_inb L 1)
        ((k0_off1_eq L 1).trans (vec3_congr (by unfold n0; simp))) fs (m (aLoc d))
    · ipureintro
      exact slab_lands' (F := F) d L 0 Nat.zero_lt_two (n0 L + 16 * 0) (by omega) _ (k0_off1_inb L 0)
        ((k0_off1_eq L 0).trans (vec3_congr (by unfold n0; simp))) fs (m (aLoc d))
  iintro %acc HI
  ihave HI := (Entails.of_eq (inv_exit (F := F) m d L O W acc)) $$ HI
  unfold tile_body.sl.prog.cont_1
  rw [wp_pure]
  imodintro
  iexact HI

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          aW (Memref.isWhole_whole _) oW (Memref.isWhole_whole _) sW (Memref.isWhole_whole _) cc0_scratch1 cc0_scratch2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task meets the launch theorem's obligation: from its share of the argument and its samples of the result
    it returns the samples at the specification's values. -/
theorem tileObl [∀ e, Nonempty (Elt F e)] : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) facts O W hO).trans (wp_mono frame _ _ fun _ => obl_post)

end Cert.Proof.KI

end
-- ==== Proof.GeomKB.lean ====
/-
  The geometry of one tile's work. The tile's vector memory holds two slabs of eight samples (all ten parts of each); a
  slab is the disjoint union of its ten part-columns, and a column is what one outgoing copy reads. Of the result the tile
  owns the box of its 512 samples. These are statements about index sets only.
-/
import proofs.«217884_g26414048870634_cont_9to1_797_14_alg».proof.Proof.PayKB

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
local notation "aW" => (Memref.whole Cert.Kernel.main_arg0_scv : Memref Cert.Kernel.sig Kind.scVector Space.hbm Cert.Kernel.S16384x10x256 EltTy.f32)
local notation "oW" => (Memref.whole Cert.Kernel.main_v0_scv : Memref Cert.Kernel.sig Kind.scVector Space.hbm Cert.Kernel.S16384x16x256 EltTy.f32)
local notation "sW" => (Memref.whole Cert.Kernel.cc0_scratch0 : Memref Cert.Kernel.sig Kind.scVector Space.vmem Cert.Kernel.S2x8x10x256 EltTy.f32)

variable (d : Dev nD) (L : grid0.Coords)

/-- The tile at grid point `L`: its SparseCore, its subcore, its thread. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)
theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)

/-- The tile's first sample. -/
abbrev n0 (L : grid0.Coords) : ℕ := 1024 * (L 1).val + 512 * (L 0).val
theorem n0_le (L : grid0.Coords) : n0 L + 512 ≤ 16384 := by
  have h1 : (L 1).val < 16 := (L 1).isLt
  have h0 : (L 0).val < 2 := (L 0).isLt
  unfold n0; omega

/-- The tile's scratch location. -/
abbrev sLoc (d : Dev nD) (L : grid0.Coords) : Loc nD τ sig := (thr d L).loc cc0_scratch0

/-! ## Slabs and columns of the scratch -/

theorem slab_inb (b : ℕ) (hb : b < 2) : ∀ a, (![b, 0, 0, 0] : Fin 4 → Nat) a + S1x8x10x256.size a ≤ S2x8x10x256.size a := by
  intro a; fin_cases a <;> simp <;> omega
theorem col_inb (b p : ℕ) (hb : b < 2) (hp : p < 10) : ∀ a, (![b, 0, p, 0] : Fin 4 → Nat) a + S1x8x1x256.size a ≤ S2x8x10x256.size a := by
  intro a; fin_cases a <;> simp <;> omega

/-- Slab `b`: samples' staging area number `b`, all parts. Column `p` of it: part `p` of its eight samples. -/
abbrev slab (b : ℕ) (hb : b < 2) : Memref sig .scVector .vmem S8x10x256 .f32 :=
  ((sW).slice (Rect.unit (s := S2x8x10x256) ![b, 0, 0, 0] S1x8x10x256.size (slab_inb b hb)) (fun _ => rfl)).squeeze S8x10x256 squeezes_S1x8x10x256_S8x10x256
abbrev col (b p : ℕ) (hb : b < 2) (hp : p < 10) : Memref sig .scVector .vmem S8x1x256 .f32 :=
  ((sW).slice (Rect.unit (s := S2x8x10x256) ![b, 0, p, 0] S1x8x1x256.size (col_inb b p hb hp)) (fun _ => rfl)).squeeze S8x1x256 squeezes_S1x8x1x256_S8x1x256

theorem slab_set (b : ℕ) (hb : b < 2) :
    (slab b hb).view.set = (Rect.unit (s := S2x8x10x256) ![b, 0, 0, 0] S1x8x10x256.size (slab_inb b hb)).set := by
  exact (View.set_reshape _ _).trans (View.set_slice_whole _ _)
theorem col_set (b p : ℕ) (hb : b < 2) (hp : p < 10) :
    (col b p hb hp).view.set = (Rect.unit (s := S2x8x10x256) ![b, 0, p, 0] S1x8x1x256.size (col_inb b p hb hp)).set := by
  exact (View.set_reshape _ _).trans (View.set_slice_whole _ _)

/-- The columns of a slab, as a family over the ten parts. -/
def colSet (b : ℕ) (hb : b < 2) (p : Fin 10) : Finset S2x8x10x256.Idx := (col b p.val hb p.isLt).view.set

theorem mem_colSet (b : ℕ) (hb : b < 2) (p : Fin 10) (i : S2x8x10x256.Idx) :
    i ∈ colSet b hb p ↔ (i 0).val = b ∧ (i 2).val = p.val := by
  unfold colSet; rw [col_set, Rect.mem_set_unit]
  have h0 : (i 0).val < 2 := (i 0).isLt; have h1 : (i 1).val < 8 := (i 1).isLt
  have h2 : (i 2).val < 10 := (i 2).isLt; have h3 : (i 3).val < 256 := (i 3).isLt
  constructor
  · intro h; have a0 := h 0; have a2 := h 2; simp at a0 a2; omega
  · rintro ⟨e0, e2⟩ a; fin_cases a <;> simp <;> omega

theorem mem_slabSet (b : ℕ) (hb : b < 2) (i : S2x8x10x256.Idx) : i ∈ (slab b hb).view.set ↔ (i 0).val = b := by
  rw [slab_set, Rect.mem_set_unit]
  have h0 : (i 0).val < 2 := (i 0).isLt; have h1 : (i 1).val < 8 := (i 1).isLt
  have h2 : (i 2).val < 10 := (i 2).isLt; have h3 : (i 3).val < 256 := (i 3).isLt
  constructor
  · intro h; have a0 := h 0; simp at a0; omega
  · intro e0 a; fin_cases a <;> simp <;> omega

theorem cols_disjoint (b : ℕ) (hb : b < 2) :
    ∀ p ∈ (Finset.univ : Finset (Fin 10)), ∀ p' ∈ (Finset.univ : Finset (Fin 10)), p ≠ p' → Disjoint (colSet b hb p) (colSet b hb p') := by
  intro p _ p' _ hne
  refine Finset.disjoint_left.mpr fun i h h' => hne (Fin.ext ?_)
  have := (mem_colSet b hb p i).mp h; have := (mem_colSet b hb p' i).mp h'; omega

theorem cols_cover (b : ℕ) (hb : b < 2) : (Finset.univ : Finset (Fin 10)).biUnion (colSet b hb) = (slab b hb).view.set := by
  ext i
  rw [Finset.mem_biUnion, mem_slabSet]
  constructor
  · rintro ⟨p, -, hp⟩; exact ((mem_colSet b hb p i).mp hp).1
  · intro e; exact ⟨⟨(i 2).val, (i 2).isLt⟩, Finset.mem_univ _, (mem_colSet b hb _ i).mpr ⟨e, rfl⟩⟩

theorem bigSep_fin10 (Φ : Fin 10 → sProp 𝕄) :
    bigSep (Finset.univ : Finset (Fin 10)) Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- A slab held by its own elements is its ten columns, each held by its own. -/
theorem slab_cols (b : ℕ) (hb : b < 2) (f : Buf (Elt F) (sLoc d L)) :
    ((slab b hb).view.loc (thr d L) ↦[(slab b hb).view.set]{fullShare} f : sProp 𝕄)
      = bigSep (Finset.univ : Finset (Fin 10)) fun p => ((col b p.val hb p.isLt).view.loc (thr d L) ↦[(col b p.val hb p.isLt).view.set]{fullShare} f : sProp 𝕄) := by
  rw [← cols_cover b hb]
  exact pointsTo_biUnion Finset.univ (ℓ := sLoc d L) (colSet b hb) (cols_disjoint b hb)

end Cert.Proof.KB

end
-- ==== Proof.ValKB.lean ====
/-
  What the copies move, index by index. A copy of eight samples of the argument into a slab leaves row `r` of the slab
  at sample `N + r`; a copy of one part-column of such a slab into the result's window (samples `N … N + 7`, joint `j`)
  writes there what the specification asks, when the column is the joint's source part; and a write through a window keeps
  agreement with the specification wherever it held before and adds the window.
-/
import proofs.«217884_g26414048870634_cont_9to1_797_14_alg».proof.Proof.GeomKB
import Idealize.ShloMosaic.Lib.ValueIdx
import Idealize.ShloMosaic.Lib.ValueLayout

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}
local notation "𝕄" => MT nD τ sig (HIx 1) (Elt F) ℕ UU ℕ
local notation "aW" => (Memref.whole Cert.Kernel.main_arg0_scv : Memref Cert.Kernel.sig Kind.scVector Space.hbm Cert.Kernel.S16384x10x256 EltTy.f32)
local notation "oW" => (Memref.whole Cert.Kernel.main_v0_scv : Memref Cert.Kernel.sig Kind.scVector Space.hbm Cert.Kernel.S16384x16x256 EltTy.f32)
local notation "sW" => (Memref.whole Cert.Kernel.cc0_scratch0 : Memref Cert.Kernel.sig Kind.scVector Space.vmem Cert.Kernel.S2x8x10x256 EltTy.f32)

variable (d : Dev nD) (L : grid0.Coords)

/-- Eight consecutive samples of the argument, as a transfer's source. -/
abbrev srcSl (off : Fin 3 → Nat) (h : ∀ a, off a + S8x10x256.size a ≤ S16384x10x256.size a) : Memref sig .scVector .hbm S8x10x256 .f32 :=
  (aW).slice (Rect.unit (s := S16384x10x256) off S8x10x256.size h) (fun _ => rfl)
/-- Eight consecutive samples of one joint of the result, as a transfer's destination. -/
abbrev winSl (off : Fin 3 → Nat) (h : ∀ a, off a + S8x1x256.size a ≤ S16384x16x256.size a) : Memref sig .scVector .hbm S8x1x256 .f32 :=
  (oW).slice (Rect.unit (s := S16384x16x256) off S8x1x256.size h) (fun _ => rfl)

/-- Slab `b` holds samples `N … N + 7` of the argument array `fa`. -/
def SlabHolds (b : ℕ) (hb : b < 2) (N : ℕ) (fa : Buf (Elt F) (aLoc d)) (f : Buf (Elt F) (sLoc d L)) : Prop :=
  ∀ (r : Fin 8) (p : Fin 10) (x : Fin 256) (hN : N + r.val < 16384),
    f (ix4 (n0 := 2) (n1 := 8) (n2 := 10) (n3 := 256) ⟨b, hb⟩ r p x) = fa (ix3 (n0 := 16384) (n1 := 10) (n2 := 256) ⟨N + r.val, hN⟩ p x)

/-- The result array `g` agrees with `want` wherever `P` holds. -/
def Agree (want g : Buf (Elt F) (oLoc d)) (P : S16384x16x256.Idx → Prop) : Prop := ∀ i, P i → g i = want i

/-! ## Where the views' indices sit -/

/-- Row `r`, part `p`, feature `x` of slab `b` is element `(b, r, p, x)` of the scratch. -/
theorem slab_emb (b : ℕ) (hb : b < 2) (r : Fin 8) (p : Fin 10) (x : Fin 256) :
    (slab b hb).view.emb (ix3 r p x) = ix4 (n0 := 2) (n1 := 8) (n2 := 10) (n3 := 256) ⟨b, hb⟩ r p x := by
  show (Rect.unit (s := S2x8x10x256) ![b, 0, 0, 0] S1x8x10x256.size (slab_inb b hb)).emb
      (Shape.reshapeEquiv squeezes_S1x8x10x256_S8x10x256.numel_eq (ix3 r p x)) = _
  rw [reshapeEquiv_ix3_1abc]
  funext a; apply Fin.ext
  rw [Rect.emb_apply]
  fin_cases a <;> simp

/-- Row `r`, feature `x` of column `p` of slab `b` is element `(b, r, p, x)` of the scratch. -/
theorem col_emb (b p : ℕ) (hb : b < 2) (hp : p < 10) (r : Fin 8) (z : Fin 1) (x : Fin 256) :
    (col b p hb hp).view.emb (ix3 r z x) = ix4 (n0 := 2) (n1 := 8) (n2 := 10) (n3 := 256) ⟨b, hb⟩ r ⟨p, hp⟩ x := by
  show (Rect.unit (s := S2x8x10x256) ![b, 0, p, 0] S1x8x1x256.size (col_inb b p hb hp)).emb
      (Shape.reshapeEquiv squeezes_S1x8x1x256_S8x1x256.numel_eq (ix3 r z x)) = _
  rw [reshapeEquiv_ix3_1abc]
  have hz : z.val = 0 := by have := z.isLt; omega
  funext a; apply Fin.ext
  rw [Rect.emb_apply]
  fin_cases a <;> simp [hz]

/-- Row `r`, part `p`, feature `x` of the eight samples from `N` is element `(N + r, p, x)` of the argument. -/
theorem srcSl_emb (N : ℕ) (off : Fin 3 → Nat) (h : ∀ a, off a + S8x10x256.size a ≤ S16384x10x256.size a) (hoff : off = ![N, 0, 0])
    (r : Fin 8) (p : Fin 10) (x : Fin 256) (hN : N + r.val < 16384) :
    (srcSl off h).view.emb (ix3 r p x) = ix3 (n0 := 16384) (n1 := 10) (n2 := 256) ⟨N + r.val, hN⟩ p x := by
  subst hoff
  show (Rect.unit (s := S16384x10x256) ![N, 0, 0] S8x10x256.size h).emb (ix3 r p x) = _
  funext a; apply Fin.ext
  rw [Rect.emb_apply]
  fin_cases a <;> simp

/-- Row `r`, feature `x` of the window of joint `j` from sample `N` is element `(N + r, j, x)` of the result. -/
theorem winSl_emb (N : ℕ) (j : Fin 16) (off : Fin 3 → Nat) (h : ∀ a, off a + S8x1x256.size a ≤ S16384x16x256.size a) (hoff : off = ![N, j.val, 0])
    (r : Fin 8) (z : Fin 1) (x : Fin 256) (hN : N + r.val < 16384) :
    (winSl off h).view.emb (ix3 r z x) = ix3 (n0 := 16384) (n1 := 16) (n2 := 256) ⟨N + r.val, hN⟩ j x := by
  subst hoff
  show (Rect.unit (s := S16384x16x256) ![N, j.val, 0] S8x1x256.size h).emb (ix3 r z x) = _
  have hz : z.val = 0 := by have := z.isLt; omega
  funext a; apply Fin.ext
  rw [Rect.emb_apply]
  fin_cases a <;> simp [hz]

/-! ## What the copies move -/

/-- A copy of samples `N … N + 7` of the argument into slab `b` leaves the slab holding them. -/
theorem slab_lands (b : ℕ) (hb : b < 2) (N : ℕ) (hN : N + 8 ≤ 16384) (off : Fin 3 → Nat)
    (h : ∀ a, off a + S8x10x256.size a ≤ S16384x10x256.size a) (hoff : off = ![N, 0, 0])
    (fprev : Buf (Elt F) (sLoc d L)) (fa : Buf (Elt F) (aLoc d)) :
    SlabHolds d L b hb N fa
      (View.write (Elt F) (slab b hb).view fprev (ReadAs.same.apply (View.read (Elt F) (srcSl off h).view fa)) Finset.univ) := by
  intro r p x hN'
  rw [← slab_emb b hb r p x, View.write_emb_of_mem _ _ (Finset.mem_univ _)]
  show _root_.cast _ (_root_.cast _ (fa ((srcSl off h).view.emb (ix3 r p x)))) = _
  rw [srcSl_emb N off h hoff r p x hN']
  rfl

/-- The elements of a result window: samples `N … N + 7` of joint `j`. -/
theorem mem_win (N j : ℕ) (off : Fin 3 → Nat) (h : ∀ a, off a + S8x1x256.size a ≤ S16384x16x256.size a) (hoff : off = ![N, j, 0])
    (i : S16384x16x256.Idx) : i ∈ (winSl off h).view.set ↔ (N ≤ (i 0).val ∧ (i 0).val < N + 8 ∧ (i 1).val = j) := by
  subst hoff
  rw [show (winSl ![N, j, 0] h).view.set = (Rect.unit (s := S16384x16x256) ![N, j, 0] S8x1x256.size h).set from View.set_slice_whole _ _,
    Rect.mem_set_unit]
  have h2 : (i 2).val < 256 := (i 2).isLt
  constructor
  · intro hh; have a0 := hh 0; have a1 := hh 1; simp at a0 a1; omega
  · rintro ⟨e0, e1, e2⟩ a; fin_cases a <;> simp <;> omega

/-- What a copy of column `p` of slab `b` carries is what the specification asks of joint `j`'s window, when `p` is
    the joint's source part and the slab holds the window's samples. -/
theorem piece_ok (b : ℕ) (hb : b < 2) (p : ℕ) (hp : p < 10) (j : Fin 16) (hpj : (⟨p, hp⟩ : Fin 10) = Cert.Spec.src j)
    (N : ℕ) (hN : N + 8 ≤ 16384) (off : Fin 3 → Nat) (h : ∀ a, off a + S8x1x256.size a ≤ S16384x16x256.size a) (hoff : off = ![N, j.val, 0])
    (fa : Buf (Elt F) (aLoc d)) (f : Buf (Elt F) (sLoc d L)) (hf : SlabHolds d L b hb N fa f) (y : S8x1x256.Idx) :
    ReadAs.same.apply (View.read (Elt F) (col b p hb hp).view f) y = (Cert.Spec.G fa : Buf (Elt F) (oLoc d)) ((winSl off h).view.emb y) := by
  obtain ⟨r, z, x, rfl⟩ : ∃ r z x, y = ix3 (n0 := 8) (n1 := 1) (n2 := 256) r z x := ⟨y 0, y 1, y 2, eq_ix3 y⟩
  have hN' : N + r.val < 16384 := by have := r.isLt; omega
  rw [winSl_emb N j off h hoff r z x hN']
  show _root_.cast _ (f ((col b p hb hp).view.emb (ix3 r z x))) = _
  rw [col_emb b p hb hp r z x, hf r ⟨p, hp⟩ x hN', hpj]
  rfl

/-- A write through a window whose payload is the specification's keeps agreement and extends it to the window. -/
theorem agree_write (want g : Buf (Elt F) (oLoc d)) (P : S16384x16x256.Idx → Prop) (hg : Agree d want g P)
    (off : Fin 3 → Nat) (h : ∀ a, off a + S8x1x256.size a ≤ S16384x16x256.size a)
    (w : S8x1x256.Idx → Elt F .f32) (hw : ∀ y, w y = want ((winSl off h).view.emb y)) :
    Agree d want (View.write (Elt F) (winSl off h).view g w Finset.univ) (fun i => P i ∨ i ∈ (winSl off h).view.set) := by
  intro i hi
  by_cases hm : i ∈ (winSl off h).view.set
  · obtain ⟨y, -, rfl⟩ := Finset.mem_map.mp hm
    rw [View.write_emb_of_mem _ _ (Finset.mem_univ _)]
    exact (cast_eq _ _).trans (hw y)
  · rw [View.write_of_not_mem _ _ _ (by rw [View.setOn_univ]; exact hm)]
    exact hg i (hi.resolve_right hm)

end Cert.Proof.KB

end
-- ==== Proof.BodyKB.lean ====
/-
  One tile's task. Two slabs are filled in turn with eight samples each; each filled slab is fanned out by sixteen copies,
  one per joint, of the joint's source part-column into the joint's window of the result; a slab is refilled only after all
  sixteen copies out of it have been waited for. The loop's invariant: the two fills for the trip's two chunks are in
  flight, and the result agrees with the specification on every sample before the trip's first.
-/
import proofs.«217884_g26414048870634_cont_9to1_797_14_alg».proof.Proof.ValKB

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}
local notation "𝕄" => MT nD τ sig (HIx 1) (Elt F) ℕ UU ℕ
local notation "aW" => (Memref.whole Cert.Kernel.main_arg0_scv : Memref Cert.Kernel.sig Kind.scVector Space.hbm Cert.Kernel.S16384x10x256 EltTy.f32)
local notation "oW" => (Memref.whole Cert.Kernel.main_v0_scv : Memref Cert.Kernel.sig Kind.scVector Space.hbm Cert.Kernel.S16384x16x256 EltTy.f32)
local notation "sW" => (Memref.whole Cert.Kernel.cc0_scratch0 : Memref Cert.Kernel.sig Kind.scVector Space.vmem Cert.Kernel.S2x8x10x256 EltTy.f32)

variable (m : (ℓ : Loc nD τ sig) → Buf (Elt F) ℓ)
variable (d : Dev nD) (L : grid0.Coords)

/-- The box of the result the tile owns: its 512 samples, all joints. -/
theorem tile_inb (L : grid0.Coords) : ∀ a, (![1024 * (L 1).val + 512 * (L 0).val, 0, 0] : Fin 3 → Nat) a + (![512, 16, 256] : Fin 3 → Nat) a ≤ S16384x16x256.size a := by
  have h1 : (L 1).val < 16 := (L 1).isLt
  have h0 : (L 0).val < 2 := (L 0).isLt
  intro a; fin_cases a <;> simp <;> omega
abbrev tileRect (L : grid0.Coords) : Rect S16384x16x256 := Rect.unit ![1024 * (L 1).val + 512 * (L 0).val, 0, 0] ![512, 16, 256] (tile_inb L)

theorem tileRect_rows : (oW).view.setOn (tileRect L).set = tileRows (cL L) (sL L) := by
  ext i
  have hi0 : (i 0).val < 16384 := (i 0).isLt
  have hi1 : (i 1).val < 16 := (i 1).isLt
  have hi2 : (i 2).val < 256 := (i 2).isLt
  have h1 : (L 1).val < 16 := (L 1).isLt
  have h0 : (L 0).val < 2 := (L 0).isLt
  have e : i ∈ (oW).view.setOn (tileRect L).set ↔ i ∈ (tileRect L).set := by
    unfold View.setOn; simp only [Memref.view_whole, View.emb_whole]; exact Finset.mem_map' _
  rw [e, Rect.mem_set_unit]
  unfold tileRows; rw [Finset.mem_filter]
  constructor
  · intro h; have a0 := h 0; simp at a0
    refine ⟨Finset.mem_univ _, ?_⟩
    show (i 0).val / 512 = 2 * (L 1).val + (L 0).val
    omega
  · rintro ⟨-, h⟩
    have h' : (i 0).val / 512 = 2 * (L 1).val + (L 0).val := h
    intro a; fin_cases a <;> simp <;> omega

/-! ## The arrays as the tile's memrefs address them -/

theorem pts_a (q : PosShare TreeShare) (f : Buf (Elt F) (aLoc d)) :
    ((aW).view.loc (thr d L) ↦{q} f : sProp 𝕄) = aLoc d ↦{q} f := by
  simp only [Memref.view_whole, View.set_whole]
theorem pts_o (f : Buf (Elt F) (oLoc d)) :
    ((oW).view.loc (thr d L) ↦[(oW).view.setOn (tileRect L).set]{fullShare} f : sProp 𝕄) = oLoc d ↦[tileRows (cL L) (sL L)]{fullShare} f := by
  rw [tileRect_rows]

/-! ## The tile's own semaphores and scratch among what the launch hands it -/

omit F d L in
theorem dma_scoped (n : DmaSem sig) : (SemLoc.dma n : SemLoc sig).isScoped .scVector = true := by revert n; decide

abbrev cell (n : DmaSem sig) : GSem nD τ sig := (thr d L, SemLoc.dma n)
theorem cell_mem (n : DmaSem sig) : cell d L n ∈ ownCells (thr d L) :=
  mem_ownCells.mpr ⟨rfl, dma_scoped n⟩
theorem cell_ne {a b : DmaSem sig} (h : a ≠ b) : cell d L a ≠ cell d L b :=
  fun e => h (SemLoc.dma.inj (Prod.mk.inj e).2)

theorem ownSems0_V :
    (ownSems0 (thr d L) : sProp 𝕄)
      = iprop(semVal (cell d L 0) 0 ∗ semVal (cell d L 1) 0 ∗ semVal (cell d L 2) 0 ∗ semVal (cell d L 3) 0
          ∗ bigSep (((((ownCells (thr d L)).erase (cell d L 0)).erase (cell d L 1)).erase (cell d L 2)).erase (cell d L 3)) fun g => semVal g 0) := by
  unfold SparseCore.Cfg.ownSems0
  rw [SparseCore.bigSep_erase' (cell_mem d L 0),
    SparseCore.bigSep_erase' (Finset.mem_erase.mpr ⟨cell_ne d L (by decide), cell_mem d L 1⟩),
    SparseCore.bigSep_erase' (Finset.mem_erase.mpr ⟨cell_ne d L (by decide), Finset.mem_erase.mpr ⟨cell_ne d L (by decide), cell_mem d L 2⟩⟩),
    SparseCore.bigSep_erase' (Finset.mem_erase.mpr ⟨cell_ne d L (by decide), Finset.mem_erase.mpr ⟨cell_ne d L (by decide),
      Finset.mem_erase.mpr ⟨cell_ne d L (by decide), cell_mem d L 3⟩⟩⟩)]

theorem ownBufs_V :
    (ownBufs (thr d L) : sProp 𝕄)
      = iprop((∃ f, sLoc d L ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-- The scratch whole is its two slabs. -/
theorem slabs_whole (f : Buf (Elt F) (sLoc d L)) :
    (sLoc d L ↦{fullShare} f : sProp 𝕄)
      ⊣⊢ iprop(((slab 0 Nat.zero_lt_two).view.loc (thr d L) ↦[(slab 0 Nat.zero_lt_two).view.set]{fullShare} f)
          ∗ ((slab 1 Nat.one_lt_two).view.loc (thr d L) ↦[(slab 1 Nat.one_lt_two).view.set]{fullShare} f)) := by
  have hu : (Finset.univ : Finset S2x8x10x256.Idx) = (slab 0 Nat.zero_lt_two).view.set ∪ (slab 1 Nat.one_lt_two).view.set := by
    ext i
    refine ⟨fun _ => ?_, fun _ => Finset.mem_univ _⟩
    have h0 : (i 0).val < 2 := (i 0).isLt
    rw [Finset.mem_union, mem_slabSet, mem_slabSet]; omega
  have hd : Disjoint (slab 0 Nat.zero_lt_two).view.set (slab 1 Nat.one_lt_two).view.set :=
    Finset.disjoint_left.mpr fun i h h' => by
      have := (mem_slabSet 0 Nat.zero_lt_two i).mp h; have := (mem_slabSet 1 Nat.one_lt_two i).mp h'; omega
  have key : (sLoc d L ↦[(slab 0 Nat.zero_lt_two).view.set ∪ (slab 1 Nat.one_lt_two).view.set]{fullShare} f : sProp 𝕄) ⊣⊢ _ :=
    pointsTo_union (ℓ := sLoc d L) (q := fullShare) (f := f) hd
  rw [← hu] at key
  exact key

theorem bigSep_fin2 (Φ : Fin 2 → sProp 𝕄) : bigSep (Finset.univ : Finset (Fin 2)) Φ = iprop(Φ 0 ∗ Φ 1) := by
  rw [show (Finset.univ : Finset (Fin 2)) = {0, 1} by decide, SparseCore.bigSep_insert' (by decide), bigSep_singleton]

variable [FloatOps F]

abbrev tok (r : Fin 2) : PosShare TreeShare := Transfers.shareTok (qTile (cL L) (sL L)) 2 r

/-- The tile's first sample as the body computes it. -/
abbrev v2w (L : grid0.Coords) : BitVec 32 :=
  Scalar.muli (Scalar.addi (Scalar.muli (BitVec.ofNat 32 (L 1).val) 2#32) (BitVec.ofNat 32 (L 0).val)) 512#32

/-- What the task hands back. -/
abbrev postT (O : CellTallies nD τ sig (HIx 1)) (W : Waits sig (HIx 1)) : PUnit → sProp 𝕄 := fun _ =>
  iprop((aShare m d (qTile (cL L) (sL L)) ∗ oRows d (tileRows (cL L) (sL L)) (want m d))
    ∗ (ownBufs (thr d L)) ∗ (ownSems0 (thr d L))
    ∗ ∃ W', ⌜∀ p ∈ W', p ∈ W ∨ p.2 = none⌝ ∗ owes (thr d L) O W')

/-- After the loop: the two batches of sixteen outgoing copies of the last two chunks are drained. -/
def epi (L : grid0.Coords) : Prog (TpuEff nD τ sig (Elt F) Λ₀ (.scVector ((L 0).castLE hcore0) ((L 1).castLE hsub0))) PUnit := do
  k0_part26 L aW (Memref.isWhole_whole _) oW (Memref.isWhole_whole _) sW (Memref.isWhole_whole _) cc0_scratch1 cc0_scratch2 (v2w L)
  k0_part27 L aW (Memref.isWhole_whole _) oW (Memref.isWhole_whole _) sW (Memref.isWhole_whole _) cc0_scratch1 cc0_scratch2
  k0_part28 L aW (Memref.isWhole_whole _) oW (Memref.isWhole_whole _) sW (Memref.isWhole_whole _) cc0_scratch1 cc0_scratch2
  k0_part29 L aW (Memref.isWhole_whole _) oW (Memref.isWhole_whole _) sW (Memref.isWhole_whole _) cc0_scratch1 cc0_scratch2
  k0_part30 L aW (Memref.isWhole_whole _) oW (Memref.isWhole_whole _) sW (Memref.isWhole_whole _) cc0_scratch1 cc0_scratch2
  k0_part31 L aW (Memref.isWhole_whole _) oW (Memref.isWhole_whole _) sW (Memref.isWhole_whole _) cc0_scratch1 cc0_scratch2 (v2w L)
  k0_part32 L aW (Memref.isWhole_whole _) oW (Memref.isWhole_whole _) sW (Memref.isWhole_whole _) cc0_scratch1 cc0_scratch2
  k0_part33 L aW (Memref.isWhole_whole _) oW (Memref.isWhole_whole _) sW (Memref.isWhole_whole _) cc0_scratch1 cc0_scratch2
  k0_part34 L aW (Memref.isWhole_whole _) oW (Memref.isWhole_whole _) sW (Memref.isWhole_whole _) cc0_scratch1 cc0_scratch2
  k0_part35 L aW (Memref.isWhole_whole _) oW (Memref.isWhole_whole _) sW (Memref.isWhole_whole _) cc0_scratch1 cc0_scratch2
  k0_part36 L aW (Memref.isWhole_whole _) oW (Memref.isWhole_whole _) sW (Memref.isWhole_whole _) cc0_scratch1 cc0_scratch2
  let v276 : DmaSems sig S1 := cc0_scratch2.slice (Rect.unit (s := S2) ![1] S1.size inb_S2_S1_1)
  let v277 : DmaSems sig S_ := v276.squeeze S_ squeezes_S1_S_
  let v278 : Memref sig .scVector .hbm S8x1x256 .f32 := (oW).slice (Rect.unit (s := S16384x16x256) (k0_off68 L 504#32) S8x1x256.size (k0_off68_inb L 1)) (fun _ => rfl)
  let v279 : Memref sig .scVector .vmem S1x8x1x256 .f32 := (sW).slice (Rect.unit (s := S2x8x10x256) ![1, 0, 9, 0] S1x8x1x256.size inb_S2x8x10x256_S1x8x1x256_1_0_9_0) (fun _ => rfl)
  let v280 : Memref sig .scVector .vmem S8x1x256 .f32 := v279.squeeze S8x1x256 squeezes_S1x8x1x256_S8x1x256
  Prog.lift (.waitDma2 v277.sem v280 v278 ((View.wordExact_bits rfl).reshape _ _) (View.wordExact_bits rfl))
  pure ⟨⟩

/-- Before trip `k`: the fills of both slabs with the trip's two chunks are in flight; the result agrees with the
    specification on the tile's samples before the trip's first; both outgoing semaphores rest at zero. -/
def invA (O : CellTallies nD τ sig (HIx 1)) (W : Waits sig (HIx 1)) (k : ℕ) : sProp 𝕄 :=
  iprop(∃ (f0 f1 : Buf (Elt F) (sLoc d L)) (fo : Buf (Elt F) (oLoc d)) (off0 off1 : Fin 3 → ℕ)
      (h0 : ∀ a, off0 a + S8x10x256.size a ≤ S16384x10x256.size a) (h1 : ∀ a, off1 a + S8x10x256.size a ≤ S16384x10x256.size a)
      (W' : Waits sig (HIx 1)),
    ⌜SlabHolds d L 0 Nat.zero_lt_two (n0 L + 16 * k) (m (aLoc d)) f0⌝ ∗ ⌜SlabHolds d L 1 Nat.one_lt_two (n0 L + 16 * k + 8) (m (aLoc d)) f1⌝
    ∗ ⌜Agree d (want m d) fo (fun i => n0 L ≤ (i 0).val ∧ (i 0).val < n0 L + 16 * k)⌝ ∗ ⌜∀ p ∈ W', p ∈ W ∨ p.2 = none⌝
    ∗ Transfers.MayWaits (thr d L) (none : HIx 1) O
    ∗ Transfers.Flight countersEmb (thr d L) (SemLoc.dma (0 : DmaSem sig)) (default : HIx 1) 655360
        iprop(((slab 0 Nat.zero_lt_two).view.loc (thr d L) ↦[(slab 0 Nat.zero_lt_two).view.set]{fullShare} f0)
          ∗ ((aW).view.loc (thr d L) ↦[(srcSl off0 h0).view.set]{tok L 0} m (aLoc d)))
    ∗ ((aW).view.loc (thr d L) ↦[Finset.univ \ (srcSl off0 h0).view.set]{tok L 0} m (aLoc d))
    ∗ Transfers.Flight countersEmb (thr d L) (SemLoc.dma (1 : DmaSem sig)) (default : HIx 1) 655360
        iprop(((slab 1 Nat.one_lt_two).view.loc (thr d L) ↦[(slab 1 Nat.one_lt_two).view.set]{fullShare} f1)
          ∗ ((aW).view.loc (thr d L) ↦[(srcSl off1 h1).view.set]{tok L 1} m (aLoc d)))
    ∗ ((aW).view.loc (thr d L) ↦[Finset.univ \ (srcSl off1 h1).view.set]{tok L 1} m (aLoc d))
    ∗ ((oW).view.loc (thr d L) ↦[(oW).view.setOn (tileRect L).set]{fullShare} fo)
    ∗ semVal (cell d L 2) 0 ∗ semVal (cell d L 3) 0
    ∗ owes (thr d L) O W')

/-- The rest of what the task holds throughout the loop and gives back at its end. -/
def restT : sProp 𝕄 :=
  iprop((aLoc d ↦{Transfers.shareDrop (qTile (cL L) (sL L)) 2} m (aLoc d))
    ∗ (bigSep ((ownRefs (τ := τ) (.scVector (cV L) (jV L))).erase ((Proc.scVector (cV L) (jV L)).devRef cc0_scratch0))
        fun b => iprop(∃ f, ((d, b) : Loc nD τ sig) ↦{fullShare} f))
    ∗ bigSep (((((ownCells (thr d L)).erase (cell d L 0)).erase (cell d L 1)).erase (cell d L 2)).erase (cell d L 3)) fun g => semVal g 0)

/-- The loop's invariant; at the exit, what remains to run and what it must leave. -/
def inv [∀ e, Nonempty (Elt F e)] (O : CellTallies nD τ sig (HIx 1)) (W : Waits sig (HIx 1)) (k : ℕ) (_ : BitVec 32) : sProp 𝕄 :=
  if k < 32 then iprop(invA m d L O W k ∗ restT m d L)
  else wp frame (wpE (defs₀ (F := F)) 𝒱₀ (thr d L) none) Set.univ (epi (F := F) L) (postT m d L O W)

omit F m d L in
theorem cond1_iff (k : Fin k0_t1_loop.trips) : k0_cond1 k = 1#1 ↔ k.val < 31 := by revert k; decide
omit F m d L in
theorem cond2_iff (k : Fin k0_t1_loop.trips) : k0_cond2 k = 1#1 ↔ k.val < 31 := by revert k; decide

omit [FloatOps F] in
/-- A fill of slab `b` from samples `N … N + 7` leaves the slab holding them (the slab held by its own elements: the
    fill is its one listed write). -/
theorem slab_lands' (b : ℕ) (hb : b < 2) (N : ℕ) (hN : N + 8 ≤ 16384) (off : Fin 3 → Nat)
    (h : ∀ a, off a + S8x10x256.size a ≤ S16384x10x256.size a) (hoff : off = ![N, 0, 0])
    (fprev : Buf (Elt F) (sLoc d L)) (fa : Buf (Elt F) (aLoc d)) :
    SlabHolds d L b hb N fa
      ((slab b hb).view.writes (Elt F) fprev [⟨Rect.whole S8x10x256, ReadAs.same.apply (View.read (Elt F) (srcSl off h).view fa)⟩]) := by
  have key := slab_lands d L b hb N hN off h hoff fprev fa
  rwa [show (slab b hb).view.write (Elt F) fprev (ReadAs.same.apply (View.read (Elt F) (srcSl off h).view fa)) Finset.univ = _ from
    View.write_univ_eq_writes_whole (slab b hb).view fprev [] _] at key

omit [FloatOps F] in
/-- One outgoing copy: joint `j`'s window of samples `N … N + 7` joins the part of the result that agrees with the
    specification, the joints below `j` of those samples being there already. -/
theorem agree_step (b : ℕ) (hb : b < 2) (p : ℕ) (hp : p < 10) (j : Fin 16) (hpj : (⟨p, hp⟩ : Fin 10) = Cert.Spec.src j)
    (N : ℕ) (hN : N + 8 ≤ 16384) (off : Fin 3 → Nat) (h : ∀ a, off a + S8x1x256.size a ≤ S16384x16x256.size a) (hoff : off = ![N, j.val, 0])
    (f : Buf (Elt F) (sLoc d L)) (hf : SlabHolds d L b hb N (m (aLoc d)) f) (g : Buf (Elt F) (oLoc d)) (A : ℕ)
    (hA : Agree d (want m d) g (fun i => (A ≤ (i 0).val ∧ (i 0).val < N) ∨ (N ≤ (i 0).val ∧ (i 0).val < N + 8 ∧ (i 1).val < j.val))) :
    Agree d (want m d) (View.write (Elt F) (winSl off h).view g (ReadAs.same.apply (View.read (Elt F) (col b p hb hp).view f)) Finset.univ)
      (fun i => (A ≤ (i 0).val ∧ (i 0).val < N) ∨ (N ≤ (i 0).val ∧ (i 0).val < N + 8 ∧ (i 1).val < j.val + 1)) := by
  have key := agree_write d (want m d) g _ hA off h _ (piece_ok d L b hb p hp j hpj N hN off h hoff (m (aLoc d)) f hf)
  intro i hi
  refine key i ?_
  rcases hi with hi | ⟨h1, h2, h3⟩
  · exact .inl (.inl hi)
  · by_cases hj : (i 1).val < j.val
    · exact .inl (.inr ⟨h1, h2, hj⟩)
    · exact .inr ((mem_win N j.val off h hoff i).mpr ⟨h1, h2, by omega⟩)

omit F m d L in
theorem vec3_congr {a b : ℕ} (h : a = b) : (![a, 0, 0] : Fin 3 → ℕ) = ![b, 0, 0] := h ▸ rfl

omit F m d L in
theorem waits_ins {W W' : Waits sig (HIx 1)} (h : ∀ p ∈ W', p ∈ W ∨ p.2 = none) (sm : SemLoc sig) :
    ∀ p ∈ insert (sm, (default : HIx 1)) W', p ∈ W ∨ p.2 = none := by
  intro p hp
  rcases Finset.mem_insert.mp hp with rfl | hp
  · exact .inr rfl
  · exact h p hp

omit [FloatOps F] in
theorem mem_tileS (i : S16384x16x256.Idx) (hi : i ∈ (oW).view.setOn (tileRect L).set) :
    n0 L ≤ (i 0).val ∧ (i 0).val < n0 L + 512 := by
  have e : i ∈ (oW).view.setOn (tileRect L).set ↔ i ∈ (tileRect L).set := by
    unfold View.setOn; simp only [Memref.view_whole, View.emb_whole]; exact Finset.mem_map' _
  have h := (Rect.mem_set_unit.mp (e.mp hi)) 0
  simp at h; unfold n0; omega

omit [FloatOps F] in
theorem win_sub_tile (N j : ℕ) (hN : n0 L ≤ N ∧ N + 8 ≤ n0 L + 512) (hj : j < 16) (off : Fin 3 → Nat)
    (h : ∀ a, off a + S8x1x256.size a ≤ S16384x16x256.size a) (hoff : off = ![N, j, 0]) :
    (winSl off h).view.set ⊆ (oW).view.setOn (tileRect L).set := by
  intro i hi
  obtain ⟨h1, h2, h3⟩ := (mem_win N j off h hoff i).mp hi
  have hi2 : (i 2).val < 256 := (i 2).isLt
  have e : i ∈ (oW).view.setOn (tileRect L).set ↔ i ∈ (tileRect L).set := by
    unfold View.setOn; simp only [Memref.view_whole, View.emb_whole]; exact Finset.mem_map' _
  rw [e, Rect.mem_set_unit]
  intro a; fin_cases a <;> simp <;> (unfold n0 at hN; omega)

omit [FloatOps F] m d L in
theorem win_disj (N j l : ℕ) (hne : j ≠ l) (off : Fin 3 → Nat) (h : ∀ a, off a + S8x1x256.size a ≤ S16384x16x256.size a) (hoff : off = ![N, j, 0])
    (off' : Fin 3 → Nat) (h' : ∀ a, off' a + S8x1x256.size a ≤ S16384x16x256.size a) (hoff' : off' = ![N, l, 0]) :
    Disjoint (winSl off h).view.set (winSl off' h').view.set :=
  Finset.disjoint_left.mpr fun i hi hi' => by
    have a := (mem_win N j off h hoff i).mp hi; have b := (mem_win N l off' h' hoff' i).mp hi'; omega

omit F m d L in
theorem sub_sdiff_of {α : Type} [DecidableEq α] {S W U : Finset α} (h : W ⊆ S) (hd : Disjoint W U) : W ⊆ S \ U :=
  Finset.subset_sdiff.mpr ⟨h, hd⟩

omit [FloatOps F] in
/-- The two slabs, whatever each holds, are the scratch whole at some contents. -/
theorem slabs_join (f g : Buf (Elt F) (sLoc d L)) :
    iprop(((slab 0 Nat.zero_lt_two).view.loc (thr d L) ↦[(slab 0 Nat.zero_lt_two).view.set]{fullShare} f)
        ∗ ((slab 1 Nat.one_lt_two).view.loc (thr d L) ↦[(slab 1 Nat.one_lt_two).view.set]{fullShare} g))
      ⊢ (iprop(∃ e, sLoc d L ↦{fullShare} e) : sProp 𝕄) := by
  have hu : (slab 0 Nat.zero_lt_two).view.set ∪ (slab 1 Nat.one_lt_two).view.set = (Finset.univ : Finset S2x8x10x256.Idx) := by
    ext i
    refine ⟨fun _ => Finset.mem_univ _, fun _ => ?_⟩
    have h0 : (i 0).val < 2 := (i 0).isLt
    rw [Finset.mem_union, mem_slabSet, mem_slabSet]; omega
  have hd : Disjoint (slab 0 Nat.zero_lt_two).view.set (slab 1 Nat.one_lt_two).view.set :=
    Finset.disjoint_left.mpr fun i h h' => by
      have := (mem_slabSet 0 Nat.zero_lt_two i).mp h; have := (mem_slabSet 1 Nat.one_lt_two i).mp h'; omega
  have key : (iprop((sLoc d L ↦[(slab 0 Nat.zero_lt_two).view.set]{fullShare} f) ∗ (sLoc d L ↦[(slab 1 Nat.one_lt_two).view.set]{fullShare} g)) : sProp 𝕄)
      ⊢ sLoc d L ↦[(slab 0 Nat.zero_lt_two).view.set ∪ (slab 1 Nat.one_lt_two).view.set]{fullShare} ((slab 1 Nat.one_lt_two).view.set.piecewise g f) :=
    pointsTo_join hd
  rw [hu] at key
  iintro H
  ihave H' := key $$ H
  iexists _; iexact H'

theorem inv_exit [∀ e, Nonempty (Elt F e)] (O : CellTallies nD τ sig (HIx 1)) (W : Waits sig (HIx 1)) (acc : BitVec 32) :
    inv m d L O W (Scf.trips k0_t1_loop.lb k0_t1_loop.ub k0_t1_loop.st) acc
      = wp frame (wpE (defs₀ (F := F)) 𝒱₀ (thr d L) none) Set.univ (epi (F := F) L) (postT m d L O W) := by
  have htr : Scf.trips k0_t1_loop.lb k0_t1_loop.ub k0_t1_loop.st = 32 := by decide
  unfold inv; rw [htr, if_neg (by decide)]

set_option maxHeartbeats 1600000 in
set_option sl_exec.dmaWindow true in
set_option sl_exec.dmaWindowLent true in
theorem tile_body [∀ e, Nonempty (Elt F e)] (hF : (K (F := F)).Facts) (O : CellTallies nD τ sig (HIx 1)) (W : Waits sig (HIx 1)) (hO : ∀ g, O g none = 0) :
    iprop(levAts (K (F := F)).L (K (F := F)).lev ∗ emp
        ∗ (aShare m d (qTile (cL L) (sL L)) ∗ oRows d (tileRows (cL L) (sL L)) (m (oLoc d)))
        ∗ scopedBufs (thr d L) ∗ scopedSems0 (thr d L) ∗ owes (thr d L) O W)
      ⊢ wp frame (wpE (defs₀ (F := F)) 𝒱₀ (thr d L) none) Set.univ
          (cc0__sc_body L aW (Memref.isWhole_whole _) oW (Memref.isWhole_whole _) sW (Memref.isWhole_whole _) cc0_scratch1 cc0_scratch2)
          fun _ => iprop((aShare m d (qTile (cL L) (sL L)) ∗ oRows d (tileRows (cL L) (sL L)) (want m d))
            ∗ scopedBufs (thr d L) ∗ scopedSems0 (thr d L)
            ∗ ∃ W', ⌜∀ p ∈ W', p ∈ W ∨ p.2 = none⌝ ∗ owes (thr d L) O W') := by
  have _p0 : Transfers.BatchOf (thr d L) (SemLoc.dma (sig := sig) (2 : DmaSem sig)) 16 (windows := true) := trivial
  have _p1 : Transfers.BatchOf (thr d L) (SemLoc.dma (sig := sig) (3 : DmaSem sig)) 16 (windows := true) := trivial
  simp only [cc0__sc_body_eq_skeleton]; unfold cc0__sc_body_skel
  simp only [k0_part25_eq_skeleton]; unfold k0_part25_skel
  rw [(K (F := F)).scopedBufs_V hF d (cV L) (jV L), SparseCore.Cfg.scopedSems0_V (Val := Elt F) d (cV L) (jV L)]
  show _ ⊢ wp _ _ _ _ (postT m d L O W)
  rw [ownSems0_V, ownBufs_V]
  iintro ⟨#Hlv, -, ⟨Ha, Ho⟩, ⟨⟨%fs, Hs⟩, Hbufs⟩, ⟨Hg0, Hg1, Hw0, Hw1, Hsems⟩, HO⟩
  ihave Hmw := ((K (F := F)).mayWaits_none (thr := thr d L) hO) $$ Hlv
  ihave Ha' := (Transfers.pointsTo_toks (ℓ := aLoc d) (S := Finset.univ) (f := m (aLoc d)) (qTile (cL L) (sL L)) 2).1 $$ Ha
  rw [bigSep_fin2]
  icases Ha' with ⟨Had, Ha0, Ha1⟩
  ihave Ha0 := (Entails.of_eq (pts_a (F := F) d L _ _).symm) $$ Ha0
  ihave Ha1 := (Entails.of_eq (pts_a (F := F) d L _ _).symm) $$ Ha1
  ihave Ho := (Entails.of_eq (pts_o (F := F) d L _).symm) $$ Ho
  ihave Hs' := (slabs_whole (F := F) d L fs).1 $$ Hs
  icases Hs' with ⟨Hs0, Hs1⟩
  sl_exec
  rw [wp_bind]
  sl_for (inv m d L O W) $$ [Hmw Hg0 Ha0 Hg1 Ha1 Ho Hw0 Hw1 HO Had Hbufs Hsems]

  case region =>
    intro k acc
    have hk : k.val < 32 := Nat.lt_of_lt_of_le k.isLt k0_t1_abs.2.1
    by_cases h31 : k.val < 31
    · have hc1 : k0_cond1 k = 1#1 := (cond1_iff k).mpr h31
      have hc2 : k0_cond2 k = 1#1 := (cond2_iff k).mpr h31
      unfold inv; rw [if_pos hk, if_pos (show k.val + 1 < 32 by omega)]
      unfold invA restT
      iintro ⟨⟨%f0, %f1, %fo, %off0, %off1, %h0, %h1, %W', %hS0, %hS1, %hAg, %hW', Hmw, Hg0, Ha0, Hg1, Ha1, Ho, Hw0, Hw1, HO⟩, Hrest⟩
      sl_exec
      ihave Hc := (Entails.of_eq ((slab_cols (F := F) d L 0 Nat.zero_lt_two _).trans (bigSep_fin10 _))) $$ Hg0_dst
      icases Hc with ⟨Hc0, Hc1, Hc2, Hc3, Hc4, Hc5, Hc6, Hc7, Hc8, Hc9⟩
      sl_exec
      ihave Hs0 := (Entails.of_eq ((slab_cols (F := F) d L 0 Nat.zero_lt_two _).trans (bigSep_fin10 _)).symm) $$ [Hc0 Hc1 Hc2 Hc3 Hc4 Hc5 Hc6 Hc7 Hc8 Hc9]
      · isplitl [Hc0]; · iexact Hc0
        isplitl [Hc1]; · iexact Hc1
        isplitl [Hc2]; · iexact Hc2
        isplitl [Hc3]; · iexact Hc3
        isplitl [Hc4]; · iexact Hc4
        isplitl [Hc5]; · iexact Hc5
        isplitl [Hc6]; · iexact Hc6
        isplitl [Hc7]; · iexact Hc7
        isplitl [Hc8]; · iexact Hc8
        iexact Hc9
      sl_exec
      ihave Hc := (Entails.of_eq ((slab_cols (F := F) d L 1 Nat.one_lt_two _).trans (bigSep_fin10 _))) $$ Hg1_dst
      icases Hc with ⟨Hd0, Hd1, Hd2, Hd3, Hd4, Hd5, Hd6, Hd7, Hd8, Hd9⟩
      sl_exec
      ihave Hs1 := (Entails.of_eq ((slab_cols (F := F) d L 1 Nat.one_lt_two _).trans (bigSep_fin10 _)).symm) $$ [Hd0 Hd1 Hd2 Hd3 Hd4 Hd5 Hd6 Hd7 Hd8 Hd9]
      · isplitl [Hd0]; · iexact Hd0
        isplitl [Hd1]; · iexact Hd1
        isplitl [Hd2]; · iexact Hd2
        isplitl [Hd3]; · iexact Hd3
        isplitl [Hd4]; · iexact Hd4
        isplitl [Hd5]; · iexact Hd5
        isplitl [Hd6]; · iexact Hd6
        isplitl [Hd7]; · iexact Hd7
        isplitl [Hd8]; · iexact Hd8
        iexact Hd9
      sl_exec
      sl_step
      have hn := n0_le L
      have hN0 : n0 L + 16 * k.val + 8 * 0 + 8 ≤ 16384 := by omega
      have hN1 : n0 L + 16 * k.val + 8 * 1 + 8 ≤ 16384 := by omega
      have hS0' : SlabHolds d L 0 Nat.zero_lt_two (n0 L + 16 * k.val + 8 * 0) (m (aLoc d)) f0 := hS0
      have hS1' : SlabHolds d L 1 Nat.one_lt_two (n0 L + 16 * k.val + 8 * 1) (m (aLoc d)) f1 := hS1
      have B0 : Agree d (want m d) fo (fun i => (n0 L ≤ (i 0).val ∧ (i 0).val < n0 L + 16 * k.val + 8 * 0)
          ∨ (n0 L + 16 * k.val + 8 * 0 ≤ (i 0).val ∧ (i 0).val < n0 L + 16 * k.val + 8 * 0 + 8 ∧ (i 1).val < (0 : Fin 16).val)) :=
        fun i hi => hAg i (by
          rcases hi with h | ⟨_, _, h⟩
          · exact ⟨h.1, (by omega)⟩
          · exact absurd h (Nat.not_lt_zero _))
      have B1 := agree_step m d L 0 Nat.zero_lt_two 4 (by decide) 0 rfl (n0 L + 16 * k.val + 8 * 0) hN0 _ (k0_off3_inb L k 0) (k0_off3_eq L k 0) f0 hS0' _ (n0 L) B0
      have B2 := agree_step m d L 0 Nat.zero_lt_two 2 (by decide) 1 rfl (n0 L + 16 * k.val + 8 * 0) hN0 _ (k0_off4_inb L k 0) (k0_off4_eq L k 0) f0 hS0' _ (n0 L) B1
      have B3 := agree_step m d L 0 Nat.zero_lt_two 3 (by decide) 2 rfl (n0 L + 16 * k.val + 8 * 0) hN0 _ (k0_off5_inb L k 0) (k0_off5_eq L k 0) f0 hS0' _ (n0 L) B2
      have B4 := agree_step m d L 0 Nat.zero_lt_two 3 (by decide) 3 rfl (n0 L + 16 * k.val + 8 * 0) hN0 _ (k0_off6_inb L k 0) (k0_off6_eq L k 0) f0 hS0' _ (n0 L) B3
      have B5 := agree_step m d L 0 Nat.zero_lt_two 0 (by decide) 4 rfl (n0 L + 16 * k.val + 8 * 0) hN0 _ (k0_off7_inb L k 0) (k0_off7_eq L k 0) f0 hS0' _ (n0 L) B4
      have B6 := agree_step m d L 0 Nat.zero_lt_two 1 (by decide) 5 rfl (n0 L + 16 * k.val + 8 * 0) hN0 _ (k0_off8_inb L k 0) (k0_off8_eq L k 0) f0 hS0' _ (n0 L) B5
      have B7 := agree_step m d L 0 Nat.zero_lt_two 1 (by decide) 6 rfl (n0 L + 16 * k.val + 8 * 0) hN0 _ (k0_off9_inb L k 0) (k0_off9_eq L k 0) f0 hS0' _ (n0 L) B6
      have B8 := agree_step m d L 0 Nat.zero_lt_two 4 (by decide) 7 rfl (n0 L + 16 * k.val + 8 * 0) hN0 _ (k0_off10_inb L k 0) (k0_off10_eq L k 0) f0 hS0' _ (n0 L) B7
      have B9 := agree_step m d L 0 Nat.zero_lt_two 4 (by decide) 8 rfl (n0 L + 16 * k.val + 8 * 0) hN0 _ (k0_off11_inb L k 0) (k0_off11_eq L k 0) f0 hS0' _ (n0 L) B8
      have B10 := agree_step m d L 0 Nat.zero_lt_two 5 (by decide) 9 rfl (n0 L + 16 * k.val + 8 * 0) hN0 _ (k0_off12_inb L k 0) (k0_off12_eq L k 0) f0 hS0' _ (n0 L) B9
      have B11 := agree_step m d L 0 Nat.zero_lt_two 6 (by decide) 10 rfl (n0 L + 16 * k.val + 8 * 0) hN0 _ (k0_off13_inb L k 0) (k0_off13_eq L k 0) f0 hS0' _ (n0 L) B10
      have B12 := agree_step m d L 0 Nat.zero_lt_two 7 (by decide) 11 rfl (n0 L + 16 * k.val + 8 * 0) hN0 _ (k0_off14_inb L k 0) (k0_off14_eq L k 0) f0 hS0' _ (n0 L) B11
      have B13 := agree_step m d L 0 Nat.zero_lt_two 7 (by decide) 12 rfl (n0 L + 16 * k.val + 8 * 0) hN0 _ (k0_off15_inb L k 0) (k0_off15_eq L k 0) f0 hS0' _ (n0 L) B12
      have B14 := agree_step m d L 0 Nat.zero_lt_two 8 (by decide) 13 rfl (n0 L + 16 * k.val + 8 * 0) hN0 _ (k0_off16_inb L k 0) (k0_off16_eq L k 0) f0 hS0' _ (n0 L) B13
      have B15 := agree_step m d L 0 Nat.zero_lt_two 9 (by decide) 14 rfl (n0 L + 16 * k.val + 8 * 0) hN0 _ (k0_off17_inb L k 0) (k0_off17_eq L k 0) f0 hS0' _ (n0 L) B14
      have B16 := agree_step m d L 0 Nat.zero_lt_two 9 (by decide) 15 rfl (n0 L + 16 * k.val + 8 * 0) hN0 _ (k0_off18_inb L k 0) (k0_off18_eq L k 0) f0 hS0' _ (n0 L) B15
      have C0 : Agree d (want m d) _ (fun i => (n0 L ≤ (i 0).val ∧ (i 0).val < n0 L + 16 * k.val + 8 * 1)
          ∨ (n0 L + 16 * k.val + 8 * 1 ≤ (i 0).val ∧ (i 0).val < n0 L + 16 * k.val + 8 * 1 + 8 ∧ (i 1).val < (0 : Fin 16).val)) :=
        fun i hi => B16 i (by
          have h1 : (i 1).val < 16 := (i 1).isLt
          rcases hi with h | ⟨_, _, h⟩
          · by_cases hlt : (i 0).val < n0 L + 16 * k.val + 8 * 0
            · exact .inl ⟨h.1, hlt⟩
            · exact .inr ⟨by omega, by omega, h1⟩
          · exact absurd h (Nat.not_lt_zero _))
      have C1 := agree_step m d L 1 Nat.one_lt_two 4 (by decide) 0 rfl (n0 L + 16 * k.val + 8 * 1) hN1 _ (k0_off3_inb L k 1) (k0_off3_eq L k 1) f1 hS1' _ (n0 L) C0
      have C2 := agree_step m d L 1 Nat.one_lt_two 2 (by decide) 1 rfl (n0 L + 16 * k.val + 8 * 1) hN1 _ (k0_off4_inb L k 1) (k0_off4_eq L k 1) f1 hS1' _ (n0 L) C1
      have C3 := agree_step m d L 1 Nat.one_lt_two 3 (by decide) 2 rfl (n0 L + 16 * k.val + 8 * 1) hN1 _ (k0_off5_inb L k 1) (k0_off5_eq L k 1) f1 hS1' _ (n0 L) C2
      have C4 := agree_step m d L 1 Nat.one_lt_two 3 (by decide) 3 rfl (n0 L + 16 * k.val + 8 * 1) hN1 _ (k0_off6_inb L k 1) (k0_off6_eq L k 1) f1 hS1' _ (n0 L) C3
      have C5 := agree_step m d L 1 Nat.one_lt_two 0 (by decide) 4 rfl (n0 L + 16 * k.val + 8 * 1) hN1 _ (k0_off7_inb L k 1) (k0_off7_eq L k 1) f1 hS1' _ (n0 L) C4
      have C6 := agree_step m d L 1 Nat.one_lt_two 1 (by decide) 5 rfl (n0 L + 16 * k.val + 8 * 1) hN1 _ (k0_off8_inb L k 1) (k0_off8_eq L k 1) f1 hS1' _ (n0 L) C5
      have C7 := agree_step m d L 1 Nat.one_lt_two 1 (by decide) 6 rfl (n0 L + 16 * k.val + 8 * 1) hN1 _ (k0_off9_inb L k 1) (k0_off9_eq L k 1) f1 hS1' _ (n0 L) C6
      have C8 := agree_step m d L 1 Nat.one_lt_two 4 (by decide) 7 rfl (n0 L + 16 * k.val + 8 * 1) hN1 _ (k0_off10_inb L k 1) (k0_off10_eq L k 1) f1 hS1' _ (n0 L) C7
      have C9 := agree_step m d L 1 Nat.one_lt_two 4 (by decide) 8 rfl (n0 L + 16 * k.val + 8 * 1) hN1 _ (k0_off11_inb L k 1) (k0_off11_eq L k 1) f1 hS1' _ (n0 L) C8
      have C10 := agree_step m d L 1 Nat.one_lt_two 5 (by decide) 9 rfl (n0 L + 16 * k.val + 8 * 1) hN1 _ (k0_off12_inb L k 1) (k0_off12_eq L k 1) f1 hS1' _ (n0 L) C9
      have C11 := agree_step m d L 1 Nat.one_lt_two 6 (by decide) 10 rfl (n0 L + 16 * k.val + 8 * 1) hN1 _ (k0_off13_inb L k 1) (k0_off13_eq L k 1) f1 hS1' _ (n0 L) C10
      have C12 := agree_step m d L 1 Nat.one_lt_two 7 (by decide) 11 rfl (n0 L + 16 * k.val + 8 * 1) hN1 _ (k0_off14_inb L k 1) (k0_off14_eq L k 1) f1 hS1' _ (n0 L) C11
      have C13 := agree_step m d L 1 Nat.one_lt_two 7 (by decide) 12 rfl (n0 L + 16 * k.val + 8 * 1) hN1 _ (k0_off15_inb L k 1) (k0_off15_eq L k 1) f1 hS1' _ (n0 L) C12
      have C14 := agree_step m d L 1 Nat.one_lt_two 8 (by decide) 13 rfl (n0 L + 16 * k.val + 8 * 1) hN1 _ (k0_off16_inb L k 1) (k0_off16_eq L k 1) f1 hS1' _ (n0 L) C13
      have C15 := agree_step m d L 1 Nat.one_lt_two 9 (by decide) 14 rfl (n0 L + 16 * k.val + 8 * 1) hN1 _ (k0_off17_inb L k 1) (k0_off17_eq L k 1) f1 hS1' _ (n0 L) C14
      have C16 := agree_step m d L 1 Nat.one_lt_two 9 (by decide) 15 rfl (n0 L + 16 * k.val + 8 * 1) hN1 _ (k0_off18_inb L k 1) (k0_off18_eq L k 1) f1 hS1' _ (n0 L) C15
      have hAg' : Agree d (want m d) _ (fun i => n0 L ≤ (i 0).val ∧ (i 0).val < n0 L + 16 * (k.val + 1)) :=
        fun i hi => C16 i (by
          have h1 : (i 1).val < 16 := (i 1).isLt
          by_cases hlt : (i 0).val < n0 L + 16 * k.val + 8 * 1
          · exact .inl ⟨hi.1, hlt⟩
          · exact .inr ⟨by omega, by omega, h1⟩)
      have hL0 := slab_lands' (F := F) d L 0 Nat.zero_lt_two (n0 L + 16 * (k.val + 1)) (by omega) _ (k0_off35_inb L k hc1)
        ((k0_off35_eq L k).trans (vec3_congr (by unfold n0; omega))) f0 (m (aLoc d))
      have hL1 := slab_lands' (F := F) d L 1 Nat.one_lt_two (n0 L + 16 * (k.val + 1) + 8) (by omega) _ (k0_off52_inb L k hc2)
        ((k0_off52_eq L k).trans (vec3_congr (by unfold n0; omega))) f1 (m (aLoc d))
      isplitr [Hrest]; swap
      · iexact Hrest
      iexists _, _, _, _, _, _, _, _
      isplitr; swap
      isplitr; swap
      isplitr; swap
      isplitr; swap
      · isplitl [Hmw]; · iexact Hmw
        isplitl [Hg0]; · iexact Hg0
        isplitl [Ha0]; · iexact Ha0
        isplitl [Hg1]; · iexact Hg1
        isplitl [Ha1]; · iexact Ha1
        isplitl [Ho]; · iexact Ho
        isplitl [Hw0]; · iexact Hw0
        isplitl [Hw1]; · iexact Hw1
        iexact HO
      · ipureintro; repeat (first | exact hW' | apply waits_ins)
      · ipureintro; exact hAg'
      · ipureintro; exact hL1
      · ipureintro; exact hL0
    · have hk31 : k.val = 31 := by omega
      have hc1 : ¬ k0_cond1 k = 1#1 := fun h => h31 ((cond1_iff k).mp h)
      have hc2 : ¬ k0_cond2 k = 1#1 := fun h => h31 ((cond2_iff k).mp h)
      unfold inv; rw [if_pos hk, if_neg (show ¬ k.val + 1 < 32 by omega)]
      unfold invA restT
      iintro ⟨⟨%f0, %f1, %fo, %off0, %off1, %h0, %h1, %W', %hS0, %hS1, %hAg, %hW', Hmw, Hg0, Ha0, Hg1, Ha1, Ho, Hw0, Hw1, HO⟩, Had, Hbufs, Hsems⟩
      sl_exec
      ihave Hc := (Entails.of_eq ((slab_cols (F := F) d L 0 Nat.zero_lt_two _).trans (bigSep_fin10 _))) $$ Hg0_dst
      icases Hc with ⟨Hc0, Hc1, Hc2, Hc3, Hc4, Hc5, Hc6, Hc7, Hc8, Hc9⟩
      sl_exec
      ihave Hc := (Entails.of_eq ((slab_cols (F := F) d L 1 Nat.one_lt_two _).trans (bigSep_fin10 _))) $$ Hg1_dst
      icases Hc with ⟨Hd0, Hd1, Hd2, Hd3, Hd4, Hd5, Hd6, Hd7, Hd8, Hd9⟩
      sl_exec
      sl_step
      have hn := n0_le L
      have hN0 : n0 L + 16 * k.val + 8 * 0 + 8 ≤ 16384 := by omega
      have hN1 : n0 L + 16 * k.val + 8 * 1 + 8 ≤ 16384 := by omega
      have hS0' : SlabHolds d L 0 Nat.zero_lt_two (n0 L + 16 * k.val + 8 * 0) (m (aLoc d)) f0 := hS0
      have hS1' : SlabHolds d L 1 Nat.one_lt_two (n0 L + 16 * k.val + 8 * 1) (m (aLoc d)) f1 := hS1
      have B0 : Agree d (want m d) fo (fun i => (n0 L ≤ (i 0).val ∧ (i 0).val < n0 L + 16 * k.val + 8 * 0)
          ∨ (n0 L + 16 * k.val + 8 * 0 ≤ (i 0).val ∧ (i 0).val < n0 L + 16 * k.val + 8 * 0 + 8 ∧ (i 1).val < (0 : Fin 16).val)) :=
        fun i hi => hAg i (by
          rcases hi with h | ⟨_, _, h⟩
          · exact ⟨h.1, (by omega)⟩
          · exact absurd h (Nat.not_lt_zero _))
      have B1 := agree_step m d L 0 Nat.zero_lt_two 4 (by decide) 0 rfl (n0 L + 16 * k.val + 8 * 0) hN0 _ (k0_off3_inb L k 0) (k0_off3_eq L k 0) f0 hS0' _ (n0 L) B0
      have B2 := agree_step m d L 0 Nat.zero_lt_two 2 (by decide) 1 rfl (n0 L + 16 * k.val + 8 * 0) hN0 _ (k0_off4_inb L k 0) (k0_off4_eq L k 0) f0 hS0' _ (n0 L) B1
      have B3 := agree_step m d L 0 Nat.zero_lt_two 3 (by decide) 2 rfl (n0 L + 16 * k.val + 8 * 0) hN0 _ (k0_off5_inb L k 0) (k0_off5_eq L k 0) f0 hS0' _ (n0 L) B2
      have B4 := agree_step m d L 0 Nat.zero_lt_two 3 (by decide) 3 rfl (n0 L + 16 * k.val + 8 * 0) hN0 _ (k0_off6_inb L k 0) (k0_off6_eq L k 0) f0 hS0' _ (n0 L) B3
      have B5 := agree_step m d L 0 Nat.zero_lt_two 0 (by decide) 4 rfl (n0 L + 16 * k.val + 8 * 0) hN0 _ (k0_off7_inb L k 0) (k0_off7_eq L k 0) f0 hS0' _ (n0 L) B4
      have B6 := agree_step m d L 0 Nat.zero_lt_two 1 (by decide) 5 rfl (n0 L + 16 * k.val + 8 * 0) hN0 _ (k0_off8_inb L k 0) (k0_off8_eq L k 0) f0 hS0' _ (n0 L) B5
      have B7 := agree_step m d L 0 Nat.zero_lt_two 1 (by decide) 6 rfl (n0 L + 16 * k.val + 8 * 0) hN0 _ (k0_off9_inb L k 0) (k0_off9_eq L k 0) f0 hS0' _ (n0 L) B6
      have B8 := agree_step m d L 0 Nat.zero_lt_two 4 (by decide) 7 rfl (n0 L + 16 * k.val + 8 * 0) hN0 _ (k0_off10_inb L k 0) (k0_off10_eq L k 0) f0 hS0' _ (n0 L) B7
      have B9 := agree_step m d L 0 Nat.zero_lt_two 4 (by decide) 8 rfl (n0 L + 16 * k.val + 8 * 0) hN0 _ (k0_off11_inb L k 0) (k0_off11_eq L k 0) f0 hS0' _ (n0 L) B8
      have B10 := agree_step m d L 0 Nat.zero_lt_two 5 (by decide) 9 rfl (n0 L + 16 * k.val + 8 * 0) hN0 _ (k0_off12_inb L k 0) (k0_off12_eq L k 0) f0 hS0' _ (n0 L) B9
      have B11 := agree_step m d L 0 Nat.zero_lt_two 6 (by decide) 10 rfl (n0 L + 16 * k.val + 8 * 0) hN0 _ (k0_off13_inb L k 0) (k0_off13_eq L k 0) f0 hS0' _ (n0 L) B10
      have B12 := agree_step m d L 0 Nat.zero_lt_two 7 (by decide) 11 rfl (n0 L + 16 * k.val + 8 * 0) hN0 _ (k0_off14_inb L k 0) (k0_off14_eq L k 0) f0 hS0' _ (n0 L) B11
      have B13 := agree_step m d L 0 Nat.zero_lt_two 7 (by decide) 12 rfl (n0 L + 16 * k.val + 8 * 0) hN0 _ (k0_off15_inb L k 0) (k0_off15_eq L k 0) f0 hS0' _ (n0 L) B12
      have B14 := agree_step m d L 0 Nat.zero_lt_two 8 (by decide) 13 rfl (n0 L + 16 * k.val + 8 * 0) hN0 _ (k0_off16_inb L k 0) (k0_off16_eq L k 0) f0 hS0' _ (n0 L) B13
      have B15 := agree_step m d L 0 Nat.zero_lt_two 9 (by decide) 14 rfl (n0 L + 16 * k.val + 8 * 0) hN0 _ (k0_off17_inb L k 0) (k0_off17_eq L k 0) f0 hS0' _ (n0 L) B14
      have B16 := agree_step m d L 0 Nat.zero_lt_two 9 (by decide) 15 rfl (n0 L + 16 * k.val + 8 * 0) hN0 _ (k0_off18_inb L k 0) (k0_off18_eq L k 0) f0 hS0' _ (n0 L) B15
      have C0 : Agree d (want m d) _ (fun i => (n0 L ≤ (i 0).val ∧ (i 0).val < n0 L + 16 * k.val + 8 * 1)
          ∨ (n0 L + 16 * k.val + 8 * 1 ≤ (i 0).val ∧ (i 0).val < n0 L + 16 * k.val + 8 * 1 + 8 ∧ (i 1).val < (0 : Fin 16).val)) :=
        fun i hi => B16 i (by
          have h1 : (i 1).val < 16 := (i 1).isLt
          rcases hi with h | ⟨_, _, h⟩
          · by_cases hlt : (i 0).val < n0 L + 16 * k.val + 8 * 0
            · exact .inl ⟨h.1, hlt⟩
            · exact .inr ⟨by omega, by omega, h1⟩
          · exact absurd h (Nat.not_lt_zero _))
      have C1 := agree_step m d L 1 Nat.one_lt_two 4 (by decide) 0 rfl (n0 L + 16 * k.val + 8 * 1) hN1 _ (k0_off3_inb L k 1) (k0_off3_eq L k 1) f1 hS1' _ (n0 L) C0
      have C2 := agree_step m d L 1 Nat.one_lt_two 2 (by decide) 1 rfl (n0 L + 16 * k.val + 8 * 1) hN1 _ (k0_off4_inb L k 1) (k0_off4_eq L k 1) f1 hS1' _ (n0 L) C1
      have C3 := agree_step m d L 1 Nat.one_lt_two 3 (by decide) 2 rfl (n0 L + 16 * k.val + 8 * 1) hN1 _ (k0_off5_inb L k 1) (k0_off5_eq L k 1) f1 hS1' _ (n0 L) C2
      have C4 := agree_step m d L 1 Nat.one_lt_two 3 (by decide) 3 rfl (n0 L + 16 * k.val + 8 * 1) hN1 _ (k0_off6_inb L k 1) (k0_off6_eq L k 1) f1 hS1' _ (n0 L) C3
      have C5 := agree_step m d L 1 Nat.one_lt_two 0 (by decide) 4 rfl (n0 L + 16 * k.val + 8 * 1) hN1 _ (k0_off7_inb L k 1) (k0_off7_eq L k 1) f1 hS1' _ (n0 L) C4
      have C6 := agree_step m d L 1 Nat.one_lt_two 1 (by decide) 5 rfl (n0 L + 16 * k.val + 8 * 1) hN1 _ (k0_off8_inb L k 1) (k0_off8_eq L k 1) f1 hS1' _ (n0 L) C5
      have C7 := agree_step m d L 1 Nat.one_lt_two 1 (by decide) 6 rfl (n0 L + 16 * k.val + 8 * 1) hN1 _ (k0_off9_inb L k 1) (k0_off9_eq L k 1) f1 hS1' _ (n0 L) C6
      have C8 := agree_step m d L 1 Nat.one_lt_two 4 (by decide) 7 rfl (n0 L + 16 * k.val + 8 * 1) hN1 _ (k0_off10_inb L k 1) (k0_off10_eq L k 1) f1 hS1' _ (n0 L) C7
      have C9 := agree_step m d L 1 Nat.one_lt_two 4 (by decide) 8 rfl (n0 L + 16 * k.val + 8 * 1) hN1 _ (k0_off11_inb L k 1) (k0_off11_eq L k 1) f1 hS1' _ (n0 L) C8
      have C10 := agree_step m d L 1 Nat.one_lt_two 5 (by decide) 9 rfl (n0 L + 16 * k.val + 8 * 1) hN1 _ (k0_off12_inb L k 1) (k0_off12_eq L k 1) f1 hS1' _ (n0 L) C9
      have C11 := agree_step m d L 1 Nat.one_lt_two 6 (by decide) 10 rfl (n0 L + 16 * k.val + 8 * 1) hN1 _ (k0_off13_inb L k 1) (k0_off13_eq L k 1) f1 hS1' _ (n0 L) C10
      have C12 := agree_step m d L 1 Nat.one_lt_two 7 (by decide) 11 rfl (n0 L + 16 * k.val + 8 * 1) hN1 _ (k0_off14_inb L k 1) (k0_off14_eq L k 1) f1 hS1' _ (n0 L) C11
      have C13 := agree_step m d L 1 Nat.one_lt_two 7 (by decide) 12 rfl (n0 L + 16 * k.val + 8 * 1) hN1 _ (k0_off15_inb L k 1) (k0_off15_eq L k 1) f1 hS1' _ (n0 L) C12
      have C14 := agree_step m d L 1 Nat.one_lt_two 8 (by decide) 13 rfl (n0 L + 16 * k.val + 8 * 1) hN1 _ (k0_off16_inb L k 1) (k0_off16_eq L k 1) f1 hS1' _ (n0 L) C13
      have C15 := agree_step m d L 1 Nat.one_lt_two 9 (by decide) 14 rfl (n0 L + 16 * k.val + 8 * 1) hN1 _ (k0_off17_inb L k 1) (k0_off17_eq L k 1) f1 hS1' _ (n0 L) C14
      have C16 := agree_step m d L 1 Nat.one_lt_two 9 (by decide) 15 rfl (n0 L + 16 * k.val + 8 * 1) hN1 _ (k0_off18_inb L k 1) (k0_off18_eq L k 1) f1 hS1' _ (n0 L) C15
      have hAg' : Agree d (want m d) _ (fun i => n0 L ≤ (i 0).val ∧ (i 0).val < n0 L + 512) :=
        fun i hi => C16 i (by
          have h1 : (i 1).val < 16 := (i 1).isLt
          by_cases hlt : (i 0).val < n0 L + 16 * k.val + 8 * 1
          · exact .inl ⟨hi.1, hlt⟩
          · exact .inr ⟨by omega, by omega, h1⟩)
      -- every piece of the result's box holds the specification's values
      ihave Ho_17 := (Entails.of_eq (pointsTo_congr (fun i hi => by
        obtain ⟨a1, a2, a3⟩ := (mem_win (n0 L + 16 * k.val + 8 * 0) 0 _ (k0_off3_inb L k 0) (k0_off3_eq L k 0) i).mp hi
        exact (B1 i (.inr ⟨a1, a2, by omega⟩)).trans (hAg' i ⟨by omega, by omega⟩).symm))) $$ Ho_17
      ihave Ho_16 := (Entails.of_eq (pointsTo_congr (fun i hi => by
        obtain ⟨a1, a2, a3⟩ := (mem_win (n0 L + 16 * k.val + 8 * 0) 1 _ (k0_off4_inb L k 0) (k0_off4_eq L k 0) i).mp hi
        exact (B2 i (.inr ⟨a1, a2, by omega⟩)).trans (hAg' i ⟨by omega, by omega⟩).symm))) $$ Ho_16
      ihave Ho_15 := (Entails.of_eq (pointsTo_congr (fun i hi => by
        obtain ⟨a1, a2, a3⟩ := (mem_win (n0 L + 16 * k.val + 8 * 0) 2 _ (k0_off5_inb L k 0) (k0_off5_eq L k 0) i).mp hi
        exact (B3 i (.inr ⟨a1, a2, by omega⟩)).trans (hAg' i ⟨by omega, by omega⟩).symm))) $$ Ho_15
      ihave Ho_14 := (Entails.of_eq (pointsTo_congr (fun i hi => by
        obtain ⟨a1, a2, a3⟩ := (mem_win (n0 L + 16 * k.val + 8 * 0) 3 _ (k0_off6_inb L k 0) (k0_off6_eq L k 0) i).mp hi
        exact (B4 i (.inr ⟨a1, a2, by omega⟩)).trans (hAg' i ⟨by omega, by omega⟩).symm))) $$ Ho_14
      ihave Ho_13 := (Entails.of_eq (pointsTo_congr (fun i hi => by
        obtain ⟨a1, a2, a3⟩ := (mem_win (n0 L + 16 * k.val + 8 * 0) 4 _ (k0_off7_inb L k 0) (k0_off7_eq L k 0) i).mp hi
        exact (B5 i (.inr ⟨a1, a2, by omega⟩)).trans (hAg' i ⟨by omega, by omega⟩).symm))) $$ Ho_13
      ihave Ho_12 := (Entails.of_eq (pointsTo_congr (fun i hi => by
        obtain ⟨a1, a2, a3⟩ := (mem_win (n0 L + 16 * k.val + 8 * 0) 5 _ (k0_off8_inb L k 0) (k0_off8_eq L k 0) i).mp hi
        exact (B6 i (.inr ⟨a1, a2, by omega⟩)).trans (hAg' i ⟨by omega, by omega⟩).symm))) $$ Ho_12
      ihave Ho_11 := (Entails.of_eq (pointsTo_congr (fun i hi => by
        obtain ⟨a1, a2, a3⟩ := (mem_win (n0 L + 16 * k.val + 8 * 0) 6 _ (k0_off9_inb L k 0) (k0_off9_eq L k 0) i).mp hi
        exact (B7 i (.inr ⟨a1, a2, by omega⟩)).trans (hAg' i ⟨by omega, by omega⟩).symm))) $$ Ho_11
      ihave Ho_10 := (Entails.of_eq (pointsTo_congr (fun i hi => by
        obtain ⟨a1, a2, a3⟩ := (mem_win (n0 L + 16 * k.val + 8 * 0) 7 _ (k0_off10_inb L k 0) (k0_off10_eq L k 0) i).mp hi
        exact (B8 i (.inr ⟨a1, a2, by omega⟩)).trans (hAg' i ⟨by omega, by omega⟩).symm))) $$ Ho_10
      ihave Ho_9 := (Entails.of_eq (pointsTo_congr (fun i hi => by
        obtain ⟨a1, a2, a3⟩ := (mem_win (n0 L + 16 * k.val + 8 * 0) 8 _ (k0_off11_inb L k 0) (k0_off11_eq L k 0) i).mp hi
        exact (B9 i (.inr ⟨a1, a2, by omega⟩)).trans (hAg' i ⟨by omega, by omega⟩).symm))) $$ Ho_9
      ihave Ho_8 := (Entails.of_eq (pointsTo_congr (fun i hi => by
        obtain ⟨a1, a2, a3⟩ := (mem_win (n0 L + 16 * k.val + 8 * 0) 9 _ (k0_off12_inb L k 0) (k0_off12_eq L k 0) i).mp hi
        exact (B10 i (.inr ⟨a1, a2, by omega⟩)).trans (hAg' i ⟨by omega, by omega⟩).symm))) $$ Ho_8
      ihave Ho_7 := (Entails.of_eq (pointsTo_congr (fun i hi => by
        obtain ⟨a1, a2, a3⟩ := (mem_win (n0 L + 16 * k.val + 8 * 0) 10 _ (k0_off13_inb L k 0) (k0_off13_eq L k 0) i).mp hi
        exact (B11 i (.inr ⟨a1, a2, by omega⟩)).trans (hAg' i ⟨by omega, by omega⟩).symm))) $$ Ho_7
      ihave Ho_6 := (Entails.of_eq (pointsTo_congr (fun i hi => by
        obtain ⟨a1, a2, a3⟩ := (mem_win (n0 L + 16 * k.val + 8 * 0) 11 _ (k0_off14_inb L k 0) (k0_off14_eq L k 0) i).mp hi
        exact (B12 i (.inr ⟨a1, a2, by omega⟩)).trans (hAg' i ⟨by omega, by omega⟩).symm))) $$ Ho_6
      ihave Ho_5 := (Entails.of_eq (pointsTo_congr (fun i hi => by
        obtain ⟨a1, a2, a3⟩ := (mem_win (n0 L + 16 * k.val + 8 * 0) 12 _ (k0_off15_inb L k 0) (k0_off15_eq L k 0) i).mp hi
        exact (B13 i (.inr ⟨a1, a2, by omega⟩)).trans (hAg' i ⟨by omega, by omega⟩).symm))) $$ Ho_5
      ihave Ho_4 := (Entails.of_eq (pointsTo_congr (fun i hi => by
        obtain ⟨a1, a2, a3⟩ := (mem_win (n0 L + 16 * k.val + 8 * 0) 13 _ (k0_off16_inb L k 0) (k0_off16_eq L k 0) i).mp hi
        exact (B14 i (.inr ⟨a1, a2, by omega⟩)).trans (hAg' i ⟨by omega, by omega⟩).symm))) $$ Ho_4
      ihave Ho_3 := (Entails.of_eq (pointsTo_congr (fun i hi => by
        obtain ⟨a1, a2, a3⟩ := (mem_win (n0 L + 16 * k.val + 8 * 0) 14 _ (k0_off17_inb L k 0) (k0_off17_eq L k 0) i).mp hi
        exact (B15 i (.inr ⟨a1, a2, by omega⟩)).trans (hAg' i ⟨by omega, by omega⟩).symm))) $$ Ho_3
      ihave Ho_2 := (Entails.of_eq (pointsTo_congr (fun i hi => by
        obtain ⟨a1, a2, a3⟩ := (mem_win (n0 L + 16 * k.val + 8 * 0) 15 _ (k0_off18_inb L k 0) (k0_off18_eq L k 0) i).mp hi
        exact (B16 i (.inr ⟨a1, a2, by omega⟩)).trans (hAg' i ⟨by omega, by omega⟩).symm))) $$ Ho_2
      have hsub15 : (winSl _ (k0_off18_inb L k 0)).view.set ⊆ ((((((((((((((((oW).view.setOn (tileRect L).set \ (winSl _ (k0_off3_inb L k 0)).view.set) \ (winSl _ (k0_off4_inb L k 0)).view.set) \ (winSl _ (k0_off5_inb L k 0)).view.set) \ (winSl _ (k0_off6_inb L k 0)).view.set) \ (winSl _ (k0_off7_inb L k 0)).view.set) \ (winSl _ (k0_off8_inb L k 0)).view.set) \ (winSl _ (k0_off9_inb L k 0)).view.set) \ (winSl _ (k0_off10_inb L k 0)).view.set) \ (winSl _ (k0_off11_inb L k 0)).view.set) \ (winSl _ (k0_off12_inb L k 0)).view.set) \ (winSl _ (k0_off13_inb L k 0)).view.set) \ (winSl _ (k0_off14_inb L k 0)).view.set) \ (winSl _ (k0_off15_inb L k 0)).view.set) \ (winSl _ (k0_off16_inb L k 0)).view.set) \ (winSl _ (k0_off17_inb L k 0)).view.set) :=
        (sub_sdiff_of (sub_sdiff_of (sub_sdiff_of (sub_sdiff_of (sub_sdiff_of (sub_sdiff_of (sub_sdiff_of (sub_sdiff_of (sub_sdiff_of (sub_sdiff_of (sub_sdiff_of (sub_sdiff_of (sub_sdiff_of (sub_sdiff_of (sub_sdiff_of (win_sub_tile L (n0 L + 16 * k.val + 8 * 0) 15 ⟨by omega, by omega⟩ (by decide) _ (k0_off18_inb L k 0) (k0_off18_eq L k 0)) (win_disj (n0 L + 16 * k.val + 8 * 0) 15 0 (by decide) _ (k0_off18_inb L k 0) (k0_off18_eq L k 0) _ (k0_off3_inb L k 0) (k0_off3_eq L k 0))) (win_disj (n0 L + 16 * k.val + 8 * 0) 15 1 (by decide) _ (k0_off18_inb L k 0) (k0_off18_eq L k 0) _ (k0_off4_inb L k 0) (k0_off4_eq L k 0))) (win_disj (n0 L + 16 * k.val + 8 * 0) 15 2 (by decide) _ (k0_off18_inb L k 0) (k0_off18_eq L k 0) _ (k0_off5_inb L k 0) (k0_off5_eq L k 0))) (win_disj (n0 L + 16 * k.val + 8 * 0) 15 3 (by decide) _ (k0_off18_inb L k 0) (k0_off18_eq L k 0) _ (k0_off6_inb L k 0) (k0_off6_eq L k 0))) (win_disj (n0 L + 16 * k.val + 8 * 0) 15 4 (by decide) _ (k0_off18_inb L k 0) (k0_off18_eq L k 0) _ (k0_off7_inb L k 0) (k0_off7_eq L k 0))) (win_disj (n0 L + 16 * k.val + 8 * 0) 15 5 (by decide) _ (k0_off18_inb L k 0) (k0_off18_eq L k 0) _ (k0_off8_inb L k 0) (k0_off8_eq L k 0))) (win_disj (n0 L + 16 * k.val + 8 * 0) 15 6 (by decide) _ (k0_off18_inb L k 0) (k0_off18_eq L k 0) _ (k0_off9_inb L k 0) (k0_off9_eq L k 0))) (win_disj (n0 L + 16 * k.val + 8 * 0) 15 7 (by decide) _ (k0_off18_inb L k 0) (k0_off18_eq L k 0) _ (k0_off10_inb L k 0) (k0_off10_eq L k 0))) (win_disj (n0 L + 16 * k.val + 8 * 0) 15 8 (by decide) _ (k0_off18_inb L k 0) (k0_off18_eq L k 0) _ (k0_off11_inb L k 0) (k0_off11_eq L k 0))) (win_disj (n0 L + 16 * k.val + 8 * 0) 15 9 (by decide) _ (k0_off18_inb L k 0) (k0_off18_eq L k 0) _ (k0_off12_inb L k 0) (k0_off12_eq L k 0))) (win_disj (n0 L + 16 * k.val + 8 * 0) 15 10 (by decide) _ (k0_off18_inb L k 0) (k0_off18_eq L k 0) _ (k0_off13_inb L k 0) (k0_off13_eq L k 0))) (win_disj (n0 L + 16 * k.val + 8 * 0) 15 11 (by decide) _ (k0_off18_inb L k 0) (k0_off18_eq L k 0) _ (k0_off14_inb L k 0) (k0_off14_eq L k 0))) (win_disj (n0 L + 16 * k.val + 8 * 0) 15 12 (by decide) _ (k0_off18_inb L k 0) (k0_off18_eq L k 0) _ (k0_off15_inb L k 0) (k0_off15_eq L k 0))) (win_disj (n0 L + 16 * k.val + 8 * 0) 15 13 (by decide) _ (k0_off18_inb L k 0) (k0_off18_eq L k 0) _ (k0_off16_inb L k 0) (k0_off16_eq L k 0))) (win_disj (n0 L + 16 * k.val + 8 * 0) 15 14 (by decide) _ (k0_off18_inb L k 0) (k0_off18_eq L k 0) _ (k0_off17_inb L k 0) (k0_off17_eq L k 0)))
      ihave Ho := (pointsTo_split_subset (ℓ := (oW).view.loc (thr d L)) (q := fullShare) hsub15).2 $$ [Ho_2 Ho]
      · isplitl [Ho_2]; · iexact Ho_2
        iexact Ho
      have hsub14 : (winSl _ (k0_off17_inb L k 0)).view.set ⊆ (((((((((((((((oW).view.setOn (tileRect L).set \ (winSl _ (k0_off3_inb L k 0)).view.set) \ (winSl _ (k0_off4_inb L k 0)).view.set) \ (winSl _ (k0_off5_inb L k 0)).view.set) \ (winSl _ (k0_off6_inb L k 0)).view.set) \ (winSl _ (k0_off7_inb L k 0)).view.set) \ (winSl _ (k0_off8_inb L k 0)).view.set) \ (winSl _ (k0_off9_inb L k 0)).view.set) \ (winSl _ (k0_off10_inb L k 0)).view.set) \ (winSl _ (k0_off11_inb L k 0)).view.set) \ (winSl _ (k0_off12_inb L k 0)).view.set) \ (winSl _ (k0_off13_inb L k 0)).view.set) \ (winSl _ (k0_off14_inb L k 0)).view.set) \ (winSl _ (k0_off15_inb L k 0)).view.set) \ (winSl _ (k0_off16_inb L k 0)).view.set) :=
        (sub_sdiff_of (sub_sdiff_of (sub_sdiff_of (sub_sdiff_of (sub_sdiff_of (sub_sdiff_of (sub_sdiff_of (sub_sdiff_of (sub_sdiff_of (sub_sdiff_of (sub_sdiff_of (sub_sdiff_of (sub_sdiff_of (sub_sdiff_of (win_sub_tile L (n0 L + 16 * k.val + 8 * 0) 14 ⟨by omega, by omega⟩ (by decide) _ (k0_off17_inb L k 0) (k0_off17_eq L k 0)) (win_disj (n0 L + 16 * k.val + 8 * 0) 14 0 (by decide) _ (k0_off17_inb L k 0) (k0_off17_eq L k 0) _ (k0_off3_inb L k 0) (k0_off3_eq L k 0))) (win_disj (n0 L + 16 * k.val + 8 * 0) 14 1 (by decide) _ (k0_off17_inb L k 0) (k0_off17_eq L k 0) _ (k0_off4_inb L k 0) (k0_off4_eq L k 0))) (win_disj (n0 L + 16 * k.val + 8 * 0) 14 2 (by decide) _ (k0_off17_inb L k 0) (k0_off17_eq L k 0) _ (k0_off5_inb L k 0) (k0_off5_eq L k 0))) (win_disj (n0 L + 16 * k.val + 8 * 0) 14 3 (by decide) _ (k0_off17_inb L k 0) (k0_off17_eq L k 0) _ (k0_off6_inb L k 0) (k0_off6_eq L k 0))) (win_disj (n0 L + 16 * k.val + 8 * 0) 14 4 (by decide) _ (k0_off17_inb L k 0) (k0_off17_eq L k 0) _ (k0_off7_inb L k 0) (k0_off7_eq L k 0))) (win_disj (n0 L + 16 * k.val + 8 * 0) 14 5 (by decide) _ (k0_off17_inb L k 0) (k0_off17_eq L k 0) _ (k0_off8_inb L k 0) (k0_off8_eq L k 0))) (win_disj (n0 L + 16 * k.val + 8 * 0) 14 6 (by decide) _ (k0_off17_inb L k 0) (k0_off17_eq L k 0) _ (k0_off9_inb L k 0) (k0_off9_eq L k 0))) (win_disj (n0 L + 16 * k.val + 8 * 0) 14 7 (by decide) _ (k0_off17_inb L k 0) (k0_off17_eq L k 0) _ (k0_off10_inb L k 0) (k0_off10_eq L k 0))) (win_disj (n0 L + 16 * k.val + 8 * 0) 14 8 (by decide) _ (k0_off17_inb L k 0) (k0_off17_eq L k 0) _ (k0_off11_inb L k 0) (k0_off11_eq L k 0))) (win_disj (n0 L + 16 * k.val + 8 * 0) 14 9 (by decide) _ (k0_off17_inb L k 0) (k0_off17_eq L k 0) _ (k0_off12_inb L k 0) (k0_off12_eq L k 0))) (win_disj (n0 L + 16 * k.val + 8 * 0) 14 10 (by decide) _ (k0_off17_inb L k 0) (k0_off17_eq L k 0) _ (k0_off13_inb L k 0) (k0_off13_eq L k 0))) (win_disj (n0 L + 16 * k.val + 8 * 0) 14 11 (by decide) _ (k0_off17_inb L k 0) (k0_off17_eq L k 0) _ (k0_off14_inb L k 0) (k0_off14_eq L k 0))) (win_disj (n0 L + 16 * k.val + 8 * 0) 14 12 (by decide) _ (k0_off17_inb L k 0) (k0_off17_eq L k 0) _ (k0_off15_inb L k 0) (k0_off15_eq L k 0))) (win_disj (n0 L + 16 * k.val + 8 * 0) 14 13 (by decide) _ (k0_off17_inb L k 0) (k0_off17_eq L k 0) _ (k0_off16_inb L k 0) (k0_off16_eq L k 0)))
      ihave Ho := (pointsTo_split_subset (ℓ := (oW).view.loc (thr d L)) (q := fullShare) hsub14).2 $$ [Ho_3 Ho]
      · isplitl [Ho_3]; · iexact Ho_3
        iexact Ho
      have hsub13 : (winSl _ (k0_off16_inb L k 0)).view.set ⊆ ((((((((((((((oW).view.setOn (tileRect L).set \ (winSl _ (k0_off3_inb L k 0)).view.set) \ (winSl _ (k0_off4_inb L k 0)).view.set) \ (winSl _ (k0_off5_inb L k 0)).view.set) \ (winSl _ (k0_off6_inb L k 0)).view.set) \ (winSl _ (k0_off7_inb L k 0)).view.set) \ (winSl _ (k0_off8_inb L k 0)).view.set) \ (winSl _ (k0_off9_inb L k 0)).view.set) \ (winSl _ (k0_off10_inb L k 0)).view.set) \ (winSl _ (k0_off11_inb L k 0)).view.set) \ (winSl _ (k0_off12_inb L k 0)).view.set) \ (winSl _ (k0_off13_inb L k 0)).view.set) \ (winSl _ (k0_off14_inb L k 0)).view.set) \ (winSl _ (k0_off15_inb L k 0)).view.set) :=
        (sub_sdiff_of (sub_sdiff_of (sub_sdiff_of (sub_sdiff_of (sub_sdiff_of (sub_sdiff_of (sub_sdiff_of (sub_sdiff_of (sub_sdiff_of (sub_sdiff_of (sub_sdiff_of (sub_sdiff_of (sub_sdiff_of (win_sub_tile L (n0 L + 16 * k.val + 8 * 0) 13 ⟨by omega, by omega⟩ (by decide) _ (k0_off16_inb L k 0) (k0_off16_eq L k 0)) (win_disj (n0 L + 16 * k.val + 8 * 0) 13 0 (by decide) _ (k0_off16_inb L k 0) (k0_off16_eq L k 0) _ (k0_off3_inb L k 0) (k0_off3_eq L k 0))) (win_disj (n0 L + 16 * k.val + 8 * 0) 13 1 (by decide) _ (k0_off16_inb L k 0) (k0_off16_eq L k 0) _ (k0_off4_inb L k 0) (k0_off4_eq L k 0))) (win_disj (n0 L + 16 * k.val + 8 * 0) 13 2 (by decide) _ (k0_off16_inb L k 0) (k0_off16_eq L k 0) _ (k0_off5_inb L k 0) (k0_off5_eq L k 0))) (win_disj (n0 L + 16 * k.val + 8 * 0) 13 3 (by decide) _ (k0_off16_inb L k 0) (k0_off16_eq L k 0) _ (k0_off6_inb L k 0) (k0_off6_eq L k 0))) (win_disj (n0 L + 16 * k.val + 8 * 0) 13 4 (by decide) _ (k0_off16_inb L k 0) (k0_off16_eq L k 0) _ (k0_off7_inb L k 0) (k0_off7_eq L k 0))) (win_disj (n0 L + 16 * k.val + 8 * 0) 13 5 (by decide) _ (k0_off16_inb L k 0) (k0_off16_eq L k 0) _ (k0_off8_inb L k 0) (k0_off8_eq L k 0))) (win_disj (n0 L + 16 * k.val + 8 * 0) 13 6 (by decide) _ (k0_off16_inb L k 0) (k0_off16_eq L k 0) _ (k0_off9_inb L k 0) (k0_off9_eq L k 0))) (win_disj (n0 L + 16 * k.val + 8 * 0) 13 7 (by decide) _ (k0_off16_inb L k 0) (k0_off16_eq L k 0) _ (k0_off10_inb L k 0) (k0_off10_eq L k 0))) (win_disj (n0 L + 16 * k.val + 8 * 0) 13 8 (by decide) _ (k0_off16_inb L k 0) (k0_off16_eq L k 0) _ (k0_off11_inb L k 0) (k0_off11_eq L k 0))) (win_disj (n0 L + 16 * k.val + 8 * 0) 13 9 (by decide) _ (k0_off16_inb L k 0) (k0_off16_eq L k 0) _ (k0_off12_inb L k 0) (k0_off12_eq L k 0))) (win_disj (n0 L + 16 * k.val + 8 * 0) 13 10 (by decide) _ (k0_off16_inb L k 0) (k0_off16_eq L k 0) _ (k0_off13_inb L k 0) (k0_off13_eq L k 0))) (win_disj (n0 L + 16 * k.val + 8 * 0) 13 11 (by decide) _ (k0_off16_inb L k 0) (k0_off16_eq L k 0) _ (k0_off14_inb L k 0) (k0_off14_eq L k 0))) (win_disj (n0 L + 16 * k.val + 8 * 0) 13 12 (by decide) _ (k0_off16_inb L k 0) (k0_off16_eq L k 0) _ (k0_off15_inb L k 0) (k0_off15_eq L k 0)))
      ihave Ho := (pointsTo_split_subset (ℓ := (oW).view.loc (thr d L)) (q := fullShare) hsub13).2 $$ [Ho_4 Ho]
      · isplitl [Ho_4]; · iexact Ho_4
        iexact Ho
      have hsub12 : (winSl _ (k0_off15_inb L k 0)).view.set ⊆ (((((((((((((oW).view.setOn (tileRect L).set \ (winSl _ (k0_off3_inb L k 0)).view.set) \ (winSl _ (k0_off4_inb L k 0)).view.set) \ (winSl _ (k0_off5_inb L k 0)).view.set) \ (winSl _ (k0_off6_inb L k 0)).view.set) \ (winSl _ (k0_off7_inb L k 0)).view.set) \ (winSl _ (k0_off8_inb L k 0)).view.set) \ (winSl _ (k0_off9_inb L k 0)).view.set) \ (winSl _ (k0_off10_inb L k 0)).view.set) \ (winSl _ (k0_off11_inb L k 0)).view.set) \ (winSl _ (k0_off12_inb L k 0)).view.set) \ (winSl _ (k0_off13_inb L k 0)).view.set) \ (winSl _ (k0_off14_inb L k 0)).view.set) :=
        (sub_sdiff_of (sub_sdiff_of (sub_sdiff_of (sub_sdiff_of (sub_sdiff_of (sub_sdiff_of (sub_sdiff_of (sub_sdiff_of (sub_sdiff_of (sub_sdiff_of (sub_sdiff_of (sub_sdiff_of (win_sub_tile L (n0 L + 16 * k.val + 8 * 0) 12 ⟨by omega, by omega⟩ (by decide) _ (k0_off15_inb L k 0) (k0_off15_eq L k 0)) (win_disj (n0 L + 16 * k.val + 8 * 0) 12 0 (by decide) _ (k0_off15_inb L k 0) (k0_off15_eq L k 0) _ (k0_off3_inb L k 0) (k0_off3_eq L k 0))) (win_disj (n0 L + 16 * k.val + 8 * 0) 12 1 (by decide) _ (k0_off15_inb L k 0) (k0_off15_eq L k 0) _ (k0_off4_inb L k 0) (k0_off4_eq L k 0))) (win_disj (n0 L + 16 * k.val + 8 * 0) 12 2 (by decide) _ (k0_off15_inb L k 0) (k0_off15_eq L k 0) _ (k0_off5_inb L k 0) (k0_off5_eq L k 0))) (win_disj (n0 L + 16 * k.val + 8 * 0) 12 3 (by decide) _ (k0_off15_inb L k 0) (k0_off15_eq L k 0) _ (k0_off6_inb L k 0) (k0_off6_eq L k 0))) (win_disj (n0 L + 16 * k.val + 8 * 0) 12 4 (by decide) _ (k0_off15_inb L k 0) (k0_off15_eq L k 0) _ (k0_off7_inb L k 0) (k0_off7_eq L k 0))) (win_disj (n0 L + 16 * k.val + 8 * 0) 12 5 (by decide) _ (k0_off15_inb L k 0) (k0_off15_eq L k 0) _ (k0_off8_inb L k 0) (k0_off8_eq L k 0))) (win_disj (n0 L + 16 * k.val + 8 * 0) 12 6 (by decide) _ (k0_off15_inb L k 0) (k0_off15_eq L k 0) _ (k0_off9_inb L k 0) (k0_off9_eq L k 0))) (win_disj (n0 L + 16 * k.val + 8 * 0) 12 7 (by decide) _ (k0_off15_inb L k 0) (k0_off15_eq L k 0) _ (k0_off10_inb L k 0) (k0_off10_eq L k 0))) (win_disj (n0 L + 16 * k.val + 8 * 0) 12 8 (by decide) _ (k0_off15_inb L k 0) (k0_off15_eq L k 0) _ (k0_off11_inb L k 0) (k0_off11_eq L k 0))) (win_disj (n0 L + 16 * k.val + 8 * 0) 12 9 (by decide) _ (k0_off15_inb L k 0) (k0_off15_eq L k 0) _ (k0_off12_inb L k 0) (k0_off12_eq L k 0))) (win_disj (n0 L + 16 * k.val + 8 * 0) 12 10 (by decide) _ (k0_off15_inb L k 0) (k0_off15_eq L k 0) _ (k0_off13_inb L k 0) (k0_off13_eq L k 0))) (win_disj (n0 L + 16 * k.val + 8 * 0) 12 11 (by decide) _ (k0_off15_inb L k 0) (k0_off15_eq L k 0) _ (k0_off14_inb L k 0) (k0_off14_eq L k 0)))
      ihave Ho := (pointsTo_split_subset (ℓ := (oW).view.loc (thr d L)) (q := fullShare) hsub12).2 $$ [Ho_5 Ho]
      · isplitl [Ho_5]; · iexact Ho_5
        iexact Ho
      have hsub11 : (winSl _ (k0_off14_inb L k 0)).view.set ⊆ ((((((((((((oW).view.setOn (tileRect L).set \ (winSl _ (k0_off3_inb L k 0)).view.set) \ (winSl _ (k0_off4_inb L k 0)).view.set) \ (winSl _ (k0_off5_inb L k 0)).view.set) \ (winSl _ (k0_off6_inb L k 0)).view.set) \ (winSl _ (k0_off7_inb L k 0)).view.set) \ (winSl _ (k0_off8_inb L k 0)).view.set) \ (winSl _ (k0_off9_inb L k 0)).view.set) \ (winSl _ (k0_off10_inb L k 0)).view.set) \ (winSl _ (k0_off11_inb L k 0)).view.set) \ (winSl _ (k0_off12_inb L k 0)).view.set) \ (winSl _ (k0_off13_inb L k 0)).view.set) :=
        (sub_sdiff_of (sub_sdiff_of (sub_sdiff_of (sub_sdiff_of (sub_sdiff_of (sub_sdiff_of (sub_sdiff_of (sub_sdiff_of (sub_sdiff_of (sub_sdiff_of (sub_sdiff_of (win_sub_tile L (n0 L + 16 * k.val + 8 * 0) 11 ⟨by omega, by omega⟩ (by decide) _ (k0_off14_inb L k 0) (k0_off14_eq L k 0)) (win_disj (n0 L + 16 * k.val + 8 * 0) 11 0 (by decide) _ (k0_off14_inb L k 0) (k0_off14_eq L k 0) _ (k0_off3_inb L k 0) (k0_off3_eq L k 0))) (win_disj (n0 L + 16 * k.val + 8 * 0) 11 1 (by decide) _ (k0_off14_inb L k 0) (k0_off14_eq L k 0) _ (k0_off4_inb L k 0) (k0_off4_eq L k 0))) (win_disj (n0 L + 16 * k.val + 8 * 0) 11 2 (by decide) _ (k0_off14_inb L k 0) (k0_off14_eq L k 0) _ (k0_off5_inb L k 0) (k0_off5_eq L k 0))) (win_disj (n0 L + 16 * k.val + 8 * 0) 11 3 (by decide) _ (k0_off14_inb L k 0) (k0_off14_eq L k 0) _ (k0_off6_inb L k 0) (k0_off6_eq L k 0))) (win_disj (n0 L + 16 * k.val + 8 * 0) 11 4 (by decide) _ (k0_off14_inb L k 0) (k0_off14_eq L k 0) _ (k0_off7_inb L k 0) (k0_off7_eq L k 0))) (win_disj (n0 L + 16 * k.val + 8 * 0) 11 5 (by decide) _ (k0_off14_inb L k 0) (k0_off14_eq L k 0) _ (k0_off8_inb L k 0) (k0_off8_eq L k 0))) (win_disj (n0 L + 16 * k.val + 8 * 0) 11 6 (by decide) _ (k0_off14_inb L k 0) (k0_off14_eq L k 0) _ (k0_off9_inb L k 0) (k0_off9_eq L k 0))) (win_disj (n0 L + 16 * k.val + 8 * 0) 11 7 (by decide) _ (k0_off14_inb L k 0) (k0_off14_eq L k 0) _ (k0_off10_inb L k 0) (k0_off10_eq L k 0))) (win_disj (n0 L + 16 * k.val + 8 * 0) 11 8 (by decide) _ (k0_off14_inb L k 0) (k0_off14_eq L k 0) _ (k0_off11_inb L k 0) (k0_off11_eq L k 0))) (win_disj (n0 L + 16 * k.val + 8 * 0) 11 9 (by decide) _ (k0_off14_inb L k 0) (k0_off14_eq L k 0) _ (k0_off12_inb L k 0) (k0_off12_eq L k 0))) (win_disj (n0 L + 16 * k.val + 8 * 0) 11 10 (by decide) _ (k0_off14_inb L k 0) (k0_off14_eq L k 0) _ (k0_off13_inb L k 0) (k0_off13_eq L k 0)))
      ihave Ho := (pointsTo_split_subset (ℓ := (oW).view.loc (thr d L)) (q := fullShare) hsub11).2 $$ [Ho_6 Ho]
      · isplitl [Ho_6]; · iexact Ho_6
        iexact Ho
      have hsub10 : (winSl _ (k0_off13_inb L k 0)).view.set ⊆ (((((((((((oW).view.setOn (tileRect L).set \ (winSl _ (k0_off3_inb L k 0)).view.set) \ (winSl _ (k0_off4_inb L k 0)).view.set) \ (winSl _ (k0_off5_inb L k 0)).view.set) \ (winSl _ (k0_off6_inb L k 0)).view.set) \ (winSl _ (k0_off7_inb L k 0)).view.set) \ (winSl _ (k0_off8_inb L k 0)).view.set) \ (winSl _ (k0_off9_inb L k 0)).view.set) \ (winSl _ (k0_off10_inb L k 0)).view.set) \ (winSl _ (k0_off11_inb L k 0)).view.set) \ (winSl _ (k0_off12_inb L k 0)).view.set) :=
        (sub_sdiff_of (sub_sdiff_of (sub_sdiff_of (sub_sdiff_of (sub_sdiff_of (sub_sdiff_of (sub_sdiff_of (sub_sdiff_of (sub_sdiff_of (sub_sdiff_of (win_sub_tile L (n0 L + 16 * k.val + 8 * 0) 10 ⟨by omega, by omega⟩ (by decide) _ (k0_off13_inb L k 0) (k0_off13_eq L k 0)) (win_disj (n0 L + 16 * k.val + 8 * 0) 10 0 (by decide) _ (k0_off13_inb L k 0) (k0_off13_eq L k 0) _ (k0_off3_inb L k 0) (k0_off3_eq L k 0))) (win_disj (n0 L + 16 * k.val + 8 * 0) 10 1 (by decide) _ (k0_off13_inb L k 0) (k0_off13_eq L k 0) _ (k0_off4_inb L k 0) (k0_off4_eq L k 0))) (win_disj (n0 L + 16 * k.val + 8 * 0) 10 2 (by decide) _ (k0_off13_inb L k 0) (k0_off13_eq L k 0) _ (k0_off5_inb L k 0) (k0_off5_eq L k 0))) (win_disj (n0 L + 16 * k.val + 8 * 0) 10 3 (by decide) _ (k0_off13_inb L k 0) (k0_off13_eq L k 0) _ (k0_off6_inb L k 0) (k0_off6_eq L k 0))) (win_disj (n0 L + 16 * k.val + 8 * 0) 10 4 (by decide) _ (k0_off13_inb L k 0) (k0_off13_eq L k 0) _ (k0_off7_inb L k 0) (k0_off7_eq L k 0))) (win_disj (n0 L + 16 * k.val + 8 * 0) 10 5 (by decide) _ (k0_off13_inb L k 0) (k0_off13_eq L k 0) _ (k0_off8_inb L k 0) (k0_off8_eq L k 0))) (win_disj (n0 L + 16 * k.val + 8 * 0) 10 6 (by decide) _ (k0_off13_inb L k 0) (k0_off13_eq L k 0) _ (k0_off9_inb L k 0) (k0_off9_eq L k 0))) (win_disj (n0 L + 16 * k.val + 8 * 0) 10 7 (by decide) _ (k0_off13_inb L k 0) (k0_off13_eq L k 0) _ (k0_off10_inb L k 0) (k0_off10_eq L k 0))) (win_disj (n0 L + 16 * k.val + 8 * 0) 10 8 (by decide) _ (k0_off13_inb L k 0) (k0_off13_eq L k 0) _ (k0_off11_inb L k 0) (k0_off11_eq L k 0))) (win_disj (n0 L + 16 * k.val + 8 * 0) 10 9 (by decide) _ (k0_off13_inb L k 0) (k0_off13_eq L k 0) _ (k0_off12_inb L k 0) (k0_off12_eq L k 0)))
      ihave Ho := (pointsTo_split_subset (ℓ := (oW).view.loc (thr d L)) (q := fullShare) hsub10).2 $$ [Ho_7 Ho]
      · isplitl [Ho_7]; · iexact Ho_7
        iexact Ho
      have hsub9 : (winSl _ (k0_off12_inb L k 0)).view.set ⊆ ((((((((((oW).view.setOn (tileRect L).set \ (winSl _ (k0_off3_inb L k 0)).view.set) \ (winSl _ (k0_off4_inb L k 0)).view.set) \ (winSl _ (k0_off5_inb L k 0)).view.set) \ (winSl _ (k0_off6_inb L k 0)).view.set) \ (winSl _ (k0_off7_inb L k 0)).view.set) \ (winSl _ (k0_off8_inb L k 0)).view.set) \ (winSl _ (k0_off9_inb L k 0)).view.set) \ (winSl _ (k0_off10_inb L k 0)).view.set) \ (winSl _ (k0_off11_inb L k 0)).view.set) :=
        (sub_sdiff_of (sub_sdiff_of (sub_sdiff_of (sub_sdiff_of (sub_sdiff_of (sub_sdiff_of (sub_sdiff_of (sub_sdiff_of (sub_sdiff_of (win_sub_tile L (n0 L + 16 * k.val + 8 * 0) 9 ⟨by omega, by omega⟩ (by decide) _ (k0_off12_inb L k 0) (k0_off12_eq L k 0)) (win_disj (n0 L + 16 * k.val + 8 * 0) 9 0 (by decide) _ (k0_off12_inb L k 0) (k0_off12_eq L k 0) _ (k0_off3_inb L k 0) (k0_off3_eq L k 0))) (win_disj (n0 L + 16 * k.val + 8 * 0) 9 1 (by decide) _ (k0_off12_inb L k 0) (k0_off12_eq L k 0) _ (k0_off4_inb L k 0) (k0_off4_eq L k 0))) (win_disj (n0 L + 16 * k.val + 8 * 0) 9 2 (by decide) _ (k0_off12_inb L k 0) (k0_off12_eq L k 0) _ (k0_off5_inb L k 0) (k0_off5_eq L k 0))) (win_disj (n0 L + 16 * k.val + 8 * 0) 9 3 (by decide) _ (k0_off12_inb L k 0) (k0_off12_eq L k 0) _ (k0_off6_inb L k 0) (k0_off6_eq L k 0))) (win_disj (n0 L + 16 * k.val + 8 * 0) 9 4 (by decide) _ (k0_off12_inb L k 0) (k0_off12_eq L k 0) _ (k0_off7_inb L k 0) (k0_off7_eq L k 0))) (win_disj (n0 L + 16 * k.val + 8 * 0) 9 5 (by decide) _ (k0_off12_inb L k 0) (k0_off12_eq L k 0) _ (k0_off8_inb L k 0) (k0_off8_eq L k 0))) (win_disj (n0 L + 16 * k.val + 8 * 0) 9 6 (by decide) _ (k0_off12_inb L k 0) (k0_off12_eq L k 0) _ (k0_off9_inb L k 0) (k0_off9_eq L k 0))) (win_disj (n0 L + 16 * k.val + 8 * 0) 9 7 (by decide) _ (k0_off12_inb L k 0) (k0_off12_eq L k 0) _ (k0_off10_inb L k 0) (k0_off10_eq L k 0))) (win_disj (n0 L + 16 * k.val + 8 * 0) 9 8 (by decide) _ (k0_off12_inb L k 0) (k0_off12_eq L k 0) _ (k0_off11_inb L k 0) (k0_off11_eq L k 0)))
      ihave Ho := (pointsTo_split_subset (ℓ := (oW).view.loc (thr d L)) (q := fullShare) hsub9).2 $$ [Ho_8 Ho]
      · isplitl [Ho_8]; · iexact Ho_8
        iexact Ho
      have hsub8 : (winSl _ (k0_off11_inb L k 0)).view.set ⊆ (((((((((oW).view.setOn (tileRect L).set \ (winSl _ (k0_off3_inb L k 0)).view.set) \ (winSl _ (k0_off4_inb L k 0)).view.set) \ (winSl _ (k0_off5_inb L k 0)).view.set) \ (winSl _ (k0_off6_inb L k 0)).view.set) \ (winSl _ (k0_off7_inb L k 0)).view.set) \ (winSl _ (k0_off8_inb L k 0)).view.set) \ (winSl _ (k0_off9_inb L k 0)).view.set) \ (winSl _ (k0_off10_inb L k 0)).view.set) :=
        (sub_sdiff_of (sub_sdiff_of (sub_sdiff_of (sub_sdiff_of (sub_sdiff_of (sub_sdiff_of (sub_sdiff_of (sub_sdiff_of (win_sub_tile L (n0 L + 16 * k.val + 8 * 0) 8 ⟨by omega, by omega⟩ (by decide) _ (k0_off11_inb L k 0) (k0_off11_eq L k 0)) (win_disj (n0 L + 16 * k.val + 8 * 0) 8 0 (by decide) _ (k0_off11_inb L k 0) (k0_off11_eq L k 0) _ (k0_off3_inb L k 0) (k0_off3_eq L k 0))) (win_disj (n0 L + 16 * k.val + 8 * 0) 8 1 (by decide) _ (k0_off11_inb L k 0) (k0_off11_eq L k 0) _ (k0_off4_inb L k 0) (k0_off4_eq L k 0))) (win_disj (n0 L + 16 * k.val + 8 * 0) 8 2 (by decide) _ (k0_off11_inb L k 0) (k0_off11_eq L k 0) _ (k0_off5_inb L k 0) (k0_off5_eq L k 0))) (win_disj (n0 L + 16 * k.val + 8 * 0) 8 3 (by decide) _ (k0_off11_inb L k 0) (k0_off11_eq L k 0) _ (k0_off6_inb L k 0) (k0_off6_eq L k 0))) (win_disj (n0 L + 16 * k.val + 8 * 0) 8 4 (by decide) _ (k0_off11_inb L k 0) (k0_off11_eq L k 0) _ (k0_off7_inb L k 0) (k0_off7_eq L k 0))) (win_disj (n0 L + 16 * k.val + 8 * 0) 8 5 (by decide) _ (k0_off11_inb L k 0) (k0_off11_eq L k 0) _ (k0_off8_inb L k 0) (k0_off8_eq L k 0))) (win_disj (n0 L + 16 * k.val + 8 * 0) 8 6 (by decide) _ (k0_off11_inb L k 0) (k0_off11_eq L k 0) _ (k0_off9_inb L k 0) (k0_off9_eq L k 0))) (win_disj (n0 L + 16 * k.val + 8 * 0) 8 7 (by decide) _ (k0_off11_inb L k 0) (k0_off11_eq L k 0) _ (k0_off10_inb L k 0) (k0_off10_eq L k 0)))
      ihave Ho := (pointsTo_split_subset (ℓ := (oW).view.loc (thr d L)) (q := fullShare) hsub8).2 $$ [Ho_9 Ho]
      · isplitl [Ho_9]; · iexact Ho_9
        iexact Ho
      have hsub7 : (winSl _ (k0_off10_inb L k 0)).view.set ⊆ ((((((((oW).view.setOn (tileRect L).set \ (winSl _ (k0_off3_inb L k 0)).view.set) \ (winSl _ (k0_off4_inb L k 0)).view.set) \ (winSl _ (k0_off5_inb L k 0)).view.set) \ (winSl _ (k0_off6_inb L k 0)).view.set) \ (winSl _ (k0_off7_inb L k 0)).view.set) \ (winSl _ (k0_off8_inb L k 0)).view.set) \ (winSl _ (k0_off9_inb L k 0)).view.set) :=
        (sub_sdiff_of (sub_sdiff_of (sub_sdiff_of (sub_sdiff_of (sub_sdiff_of (sub_sdiff_of (sub_sdiff_of (win_sub_tile L (n0 L + 16 * k.val + 8 * 0) 7 ⟨by omega, by omega⟩ (by decide) _ (k0_off10_inb L k 0) (k0_off10_eq L k 0)) (win_disj (n0 L + 16 * k.val + 8 * 0) 7 0 (by decide) _ (k0_off10_inb L k 0) (k0_off10_eq L k 0) _ (k0_off3_inb L k 0) (k0_off3_eq L k 0))) (win_disj (n0 L + 16 * k.val + 8 * 0) 7 1 (by decide) _ (k0_off10_inb L k 0) (k0_off10_eq L k 0) _ (k0_off4_inb L k 0) (k0_off4_eq L k 0))) (win_disj (n0 L + 16 * k.val + 8 * 0) 7 2 (by decide) _ (k0_off10_inb L k 0) (k0_off10_eq L k 0) _ (k0_off5_inb L k 0) (k0_off5_eq L k 0))) (win_disj (n0 L + 16 * k.val + 8 * 0) 7 3 (by decide) _ (k0_off10_inb L k 0) (k0_off10_eq L k 0) _ (k0_off6_inb L k 0) (k0_off6_eq L k 0))) (win_disj (n0 L + 16 * k.val + 8 * 0) 7 4 (by decide) _ (k0_off10_inb L k 0) (k0_off10_eq L k 0) _ (k0_off7_inb L k 0) (k0_off7_eq L k 0))) (win_disj (n0 L + 16 * k.val + 8 * 0) 7 5 (by decide) _ (k0_off10_inb L k 0) (k0_off10_eq L k 0) _ (k0_off8_inb L k 0) (k0_off8_eq L k 0))) (win_disj (n0 L + 16 * k.val + 8 * 0) 7 6 (by decide) _ (k0_off10_inb L k 0) (k0_off10_eq L k 0) _ (k0_off9_inb L k 0) (k0_off9_eq L k 0)))
      ihave Ho := (pointsTo_split_subset (ℓ := (oW).view.loc (thr d L)) (q := fullShare) hsub7).2 $$ [Ho_10 Ho]
      · isplitl [Ho_10]; · iexact Ho_10
        iexact Ho
      have hsub6 : (winSl _ (k0_off9_inb L k 0)).view.set ⊆ (((((((oW).view.setOn (tileRect L).set \ (winSl _ (k0_off3_inb L k 0)).view.set) \ (winSl _ (k0_off4_inb L k 0)).view.set) \ (winSl _ (k0_off5_inb L k 0)).view.set) \ (winSl _ (k0_off6_inb L k 0)).view.set) \ (winSl _ (k0_off7_inb L k 0)).view.set) \ (winSl _ (k0_off8_inb L k 0)).view.set) :=
        (sub_sdiff_of (sub_sdiff_of (sub_sdiff_of (sub_sdiff_of (sub_sdiff_of (sub_sdiff_of (win_sub_tile L (n0 L + 16 * k.val + 8 * 0) 6 ⟨by omega, by omega⟩ (by decide) _ (k0_off9_inb L k 0) (k0_off9_eq L k 0)) (win_disj (n0 L + 16 * k.val + 8 * 0) 6 0 (by decide) _ (k0_off9_inb L k 0) (k0_off9_eq L k 0) _ (k0_off3_inb L k 0) (k0_off3_eq L k 0))) (win_disj (n0 L + 16 * k.val + 8 * 0) 6 1 (by decide) _ (k0_off9_inb L k 0) (k0_off9_eq L k 0) _ (k0_off4_inb L k 0) (k0_off4_eq L k 0))) (win_disj (n0 L + 16 * k.val + 8 * 0) 6 2 (by decide) _ (k0_off9_inb L k 0) (k0_off9_eq L k 0) _ (k0_off5_inb L k 0) (k0_off5_eq L k 0))) (win_disj (n0 L + 16 * k.val + 8 * 0) 6 3 (by decide) _ (k0_off9_inb L k 0) (k0_off9_eq L k 0) _ (k0_off6_inb L k 0) (k0_off6_eq L k 0))) (win_disj (n0 L + 16 * k.val + 8 * 0) 6 4 (by decide) _ (k0_off9_inb L k 0) (k0_off9_eq L k 0) _ (k0_off7_inb L k 0) (k0_off7_eq L k 0))) (win_disj (n0 L + 16 * k.val + 8 * 0) 6 5 (by decide) _ (k0_off9_inb L k 0) (k0_off9_eq L k 0) _ (k0_off8_inb L k 0) (k0_off8_eq L k 0)))
      ihave Ho := (pointsTo_split_subset (ℓ := (oW).view.loc (thr d L)) (q := fullShare) hsub6).2 $$ [Ho_11 Ho]
      · isplitl [Ho_11]; · iexact Ho_11
        iexact Ho
      have hsub5 : (winSl _ (k0_off8_inb L k 0)).view.set ⊆ ((((((oW).view.setOn (tileRect L).set \ (winSl _ (k0_off3_inb L k 0)).view.set) \ (winSl _ (k0_off4_inb L k 0)).view.set) \ (winSl _ (k0_off5_inb L k 0)).view.set) \ (winSl _ (k0_off6_inb L k 0)).view.set) \ (winSl _ (k0_off7_inb L k 0)).view.set) :=
        (sub_sdiff_of (sub_sdiff_of (sub_sdiff_of (sub_sdiff_of (sub_sdiff_of (win_sub_tile L (n0 L + 16 * k.val + 8 * 0) 5 ⟨by omega, by omega⟩ (by decide) _ (k0_off8_inb L k 0) (k0_off8_eq L k 0)) (win_disj (n0 L + 16 * k.val + 8 * 0) 5 0 (by decide) _ (k0_off8_inb L k 0) (k0_off8_eq L k 0) _ (k0_off3_inb L k 0) (k0_off3_eq L k 0))) (win_disj (n0 L + 16 * k.val + 8 * 0) 5 1 (by decide) _ (k0_off8_inb L k 0) (k0_off8_eq L k 0) _ (k0_off4_inb L k 0) (k0_off4_eq L k 0))) (win_disj (n0 L + 16 * k.val + 8 * 0) 5 2 (by decide) _ (k0_off8_inb L k 0) (k0_off8_eq L k 0) _ (k0_off5_inb L k 0) (k0_off5_eq L k 0))) (win_disj (n0 L + 16 * k.val + 8 * 0) 5 3 (by decide) _ (k0_off8_inb L k 0) (k0_off8_eq L k 0) _ (k0_off6_inb L k 0) (k0_off6_eq L k 0))) (win_disj (n0 L + 16 * k.val + 8 * 0) 5 4 (by decide) _ (k0_off8_inb L k 0) (k0_off8_eq L k 0) _ (k0_off7_inb L k 0) (k0_off7_eq L k 0)))
      ihave Ho := (pointsTo_split_subset (ℓ := (oW).view.loc (thr d L)) (q := fullShare) hsub5).2 $$ [Ho_12 Ho]
      · isplitl [Ho_12]; · iexact Ho_12
        iexact Ho
      have hsub4 : (winSl _ (k0_off7_inb L k 0)).view.set ⊆ (((((oW).view.setOn (tileRect L).set \ (winSl _ (k0_off3_inb L k 0)).view.set) \ (winSl _ (k0_off4_inb L k 0)).view.set) \ (winSl _ (k0_off5_inb L k 0)).view.set) \ (winSl _ (k0_off6_inb L k 0)).view.set) :=
        (sub_sdiff_of (sub_sdiff_of (sub_sdiff_of (sub_sdiff_of (win_sub_tile L (n0 L + 16 * k.val + 8 * 0) 4 ⟨by omega, by omega⟩ (by decide) _ (k0_off7_inb L k 0) (k0_off7_eq L k 0)) (win_disj (n0 L + 16 * k.val + 8 * 0) 4 0 (by decide) _ (k0_off7_inb L k 0) (k0_off7_eq L k 0) _ (k0_off3_inb L k 0) (k0_off3_eq L k 0))) (win_disj (n0 L + 16 * k.val + 8 * 0) 4 1 (by decide) _ (k0_off7_inb L k 0) (k0_off7_eq L k 0) _ (k0_off4_inb L k 0) (k0_off4_eq L k 0))) (win_disj (n0 L + 16 * k.val + 8 * 0) 4 2 (by decide) _ (k0_off7_inb L k 0) (k0_off7_eq L k 0) _ (k0_off5_inb L k 0) (k0_off5_eq L k 0))) (win_disj (n0 L + 16 * k.val + 8 * 0) 4 3 (by decide) _ (k0_off7_inb L k 0) (k0_off7_eq L k 0) _ (k0_off6_inb L k 0) (k0_off6_eq L k 0)))
      ihave Ho := (pointsTo_split_subset (ℓ := (oW).view.loc (thr d L)) (q := fullShare) hsub4).2 $$ [Ho_13 Ho]
      · isplitl [Ho_13]; · iexact Ho_13
        iexact Ho
      have hsub3 : (winSl _ (k0_off6_inb L k 0)).view.set ⊆ ((((oW).view.setOn (tileRect L).set \ (winSl _ (k0_off3_inb L k 0)).view.set) \ (winSl _ (k0_off4_inb L k 0)).view.set) \ (winSl _ (k0_off5_inb L k 0)).view.set) :=
        (sub_sdiff_of (sub_sdiff_of (sub_sdiff_of (win_sub_tile L (n0 L + 16 * k.val + 8 * 0) 3 ⟨by omega, by omega⟩ (by decide) _ (k0_off6_inb L k 0) (k0_off6_eq L k 0)) (win_disj (n0 L + 16 * k.val + 8 * 0) 3 0 (by decide) _ (k0_off6_inb L k 0) (k0_off6_eq L k 0) _ (k0_off3_inb L k 0) (k0_off3_eq L k 0))) (win_disj (n0 L + 16 * k.val + 8 * 0) 3 1 (by decide) _ (k0_off6_inb L k 0) (k0_off6_eq L k 0) _ (k0_off4_inb L k 0) (k0_off4_eq L k 0))) (win_disj (n0 L + 16 * k.val + 8 * 0) 3 2 (by decide) _ (k0_off6_inb L k 0) (k0_off6_eq L k 0) _ (k0_off5_inb L k 0) (k0_off5_eq L k 0)))
      ihave Ho := (pointsTo_split_subset (ℓ := (oW).view.loc (thr d L)) (q := fullShare) hsub3).2 $$ [Ho_14 Ho]
      · isplitl [Ho_14]; · iexact Ho_14
        iexact Ho
      have hsub2 : (winSl _ (k0_off5_inb L k 0)).view.set ⊆ (((oW).view.setOn (tileRect L).set \ (winSl _ (k0_off3_inb L k 0)).view.set) \ (winSl _ (k0_off4_inb L k 0)).view.set) :=
        (sub_sdiff_of (sub_sdiff_of (win_sub_tile L (n0 L + 16 * k.val + 8 * 0) 2 ⟨by omega, by omega⟩ (by decide) _ (k0_off5_inb L k 0) (k0_off5_eq L k 0)) (win_disj (n0 L + 16 * k.val + 8 * 0) 2 0 (by decide) _ (k0_off5_inb L k 0) (k0_off5_eq L k 0) _ (k0_off3_inb L k 0) (k0_off3_eq L k 0))) (win_disj (n0 L + 16 * k.val + 8 * 0) 2 1 (by decide) _ (k0_off5_inb L k 0) (k0_off5_eq L k 0) _ (k0_off4_inb L k 0) (k0_off4_eq L k 0)))
      ihave Ho := (pointsTo_split_subset (ℓ := (oW).view.loc (thr d L)) (q := fullShare) hsub2).2 $$ [Ho_15 Ho]
      · isplitl [Ho_15]; · iexact Ho_15
        iexact Ho
      have hsub1 : (winSl _ (k0_off4_inb L k 0)).view.set ⊆ ((oW).view.setOn (tileRect L).set \ (winSl _ (k0_off3_inb L k 0)).view.set) :=
        (sub_sdiff_of (win_sub_tile L (n0 L + 16 * k.val + 8 * 0) 1 ⟨by omega, by omega⟩ (by decide) _ (k0_off4_inb L k 0) (k0_off4_eq L k 0)) (win_disj (n0 L + 16 * k.val + 8 * 0) 1 0 (by decide) _ (k0_off4_inb L k 0) (k0_off4_eq L k 0) _ (k0_off3_inb L k 0) (k0_off3_eq L k 0)))
      ihave Ho := (pointsTo_split_subset (ℓ := (oW).view.loc (thr d L)) (q := fullShare) hsub1).2 $$ [Ho_16 Ho]
      · isplitl [Ho_16]; · iexact Ho_16
        iexact Ho
      have hsub0 : (winSl _ (k0_off3_inb L k 0)).view.set ⊆ (oW).view.setOn (tileRect L).set :=
        (win_sub_tile L (n0 L + 16 * k.val + 8 * 0) 0 ⟨by omega, by omega⟩ (by decide) _ (k0_off3_inb L k 0) (k0_off3_eq L k 0))
      ihave Ho := (pointsTo_split_subset (ℓ := (oW).view.loc (thr d L)) (q := fullShare) hsub0).2 $$ [Ho_17 Ho]
      · isplitl [Ho_17]; · iexact Ho_17
        iexact Ho
      ihave Ho := (Entails.of_eq (pointsTo_congr (g := want m d) (fun i hi => hAg' i (mem_tileS L i hi)))) $$ Ho
      ihave Ho := (Entails.of_eq (pts_o (F := F) d L _)) $$ Ho
      ihave Ha0 := (Entails.of_eq (pts_a (F := F) d L _ _)) $$ Ha0
      ihave Ha1 := (Entails.of_eq (pts_a (F := F) d L _ _)) $$ Ha1
      ihave Ha := (Transfers.pointsTo_toks (ℓ := aLoc d) (S := Finset.univ) (f := m (aLoc d)) (qTile (cL L) (sL L)) 2).2 $$ [Had Ha0 Ha1]
      · rw [bigSep_fin2]
        isplitl [Had]; · iexact Had
        isplitl [Ha0]; · iexact Ha0
        iexact Ha1
      ihave Hs0 := (Entails.of_eq ((slab_cols (F := F) d L 0 Nat.zero_lt_two _).trans (bigSep_fin10 _)).symm) $$ [Hc0 Hc1 Hc2 Hc3 Hc4 Hc5 Hc6 Hc7 Hc8 Hc9]
      · isplitl [Hc0]; · iexact Hc0
        isplitl [Hc1]; · iexact Hc1
        isplitl [Hc2]; · iexact Hc2
        isplitl [Hc3]; · iexact Hc3
        isplitl [Hc4]; · iexact Hc4
        isplitl [Hc5]; · iexact Hc5
        isplitl [Hc6]; · iexact Hc6
        isplitl [Hc7]; · iexact Hc7
        isplitl [Hc8]; · iexact Hc8
        iexact Hc9
      ihave Hs1 := (Entails.of_eq ((slab_cols (F := F) d L 1 Nat.one_lt_two _).trans (bigSep_fin10 _)).symm) $$ [Hd0 Hd1 Hd2 Hd3 Hd4 Hd5 Hd6 Hd7 Hd8 Hd9]
      · isplitl [Hd0]; · iexact Hd0
        isplitl [Hd1]; · iexact Hd1
        isplitl [Hd2]; · iexact Hd2
        isplitl [Hd3]; · iexact Hd3
        isplitl [Hd4]; · iexact Hd4
        isplitl [Hd5]; · iexact Hd5
        isplitl [Hd6]; · iexact Hd6
        isplitl [Hd7]; · iexact Hd7
        isplitl [Hd8]; · iexact Hd8
        iexact Hd9
      ihave Hs := (slabs_join (F := F) d L _ _) $$ [Hs0 Hs1]
      · isplitl [Hs0]; · iexact Hs0
        iexact Hs1
      simp only [postT]
      rw [ownSems0_V, ownBufs_V]
      isplitl [Ha Ho]
      · isplitl [Ha]; · iexact Ha
        iexact Ho
      isplitl [Hs Hbufs]
      · isplitl [Hs]; · iexact Hs
        iexact Hbufs
      isplitl [Hg0 Hg1 Hw0 Hw1 Hsems]
      · isplitl [Hg0]; · iexact Hg0
        isplitl [Hg1]; · iexact Hg1
        isplitl [Hw0]; · iexact Hw0
        isplitl [Hw1]; · iexact Hw1
        iexact Hsems
      iexists _
      isplitr; swap
      · iexact HO
      · ipureintro; repeat (first | exact hW' | apply waits_ins)
  · unfold inv; rw [if_pos (show (0 : ℕ) < 32 by decide)]
    unfold invA restT
    have hn := n0_le L
    isplitr [Had Hbufs Hsems]; swap
    · isplitl [Had]; · iexact Had
      isplitl [Hbufs]; · iexact Hbufs
      iexact Hsems
    iexists _, _, _, _, _, _, _, W
    isplitr; swap
    isplitr; swap
    isplitr; swap
    isplitr; swap
    · isplitl []; · iexact Hmw
      isplitl [Hg0]; · iexact Hg0
      isplitl [Ha0]; · iexact Ha0
      isplitl [Hg1]; · iexact Hg1
      isplitl [Ha1]; · iexact Ha1
      isplitl [Ho]; · iexact Ho
      isplitl [Hw0]; · iexact Hw0
      isplitl [Hw1]; · iexact Hw1
      iexact HO
    · ipureintro; exact fun p hp => .inl hp
    · ipureintro; exact fun i hi => absurd hi.2 (by omega)
    · ipureintro
      exact slab_lands' (F := F) d L 1 Nat.one_lt_two (n0 L + 16 * 0 + 8) (by omega) _ (k0_off1_inb L 1)
        ((k0_off1_eq L 1).trans (vec3_congr (by unfold n0; simp))) fs (m (aLoc d))
    · ipureintro
      exact slab_lands' (F := F) d L 0 Nat.zero_lt_two (n0 L + 16 * 0) (by omega) _ (k0_off1_inb L 0)
        ((k0_off1_eq L 0).trans (vec3_congr (by unfold n0; simp))) fs (m (aLoc d))
  iintro %acc HI
  ihave HI := (Entails.of_eq (inv_exit (F := F) m d L O W acc)) $$ HI
  unfold tile_body.sl.prog.cont_1
  rw [wp_pure]
  imodintro
  iexact HI

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          aW (Memref.isWhole_whole _) oW (Memref.isWhole_whole _) sW (Memref.isWhole_whole _) cc0_scratch1 cc0_scratch2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task meets the launch theorem's obligation: from its share of the argument and its samples of the result
    it returns the samples at the specification's values. -/
theorem tileObl [∀ e, Nonempty (Elt F e)] : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) facts O W hO).trans (wp_mono frame _ _ fun _ => obl_post)

end Cert.Proof.KB

end
-- ==== Proof.RefRun.lean ====
/-
  The reference's run and its value. @main writes the sixteen-entry index table, then takes parts of the argument along
  its middle axis at those indices: each index below zero is moved up by the axis extent 10, a mask records which
  indices lie in [0, 9], a gather reads, for joint `j`, the slab of the argument at the (clamped) index `j`, and a final
  select keeps the gathered value where the mask is set and a NaN elsewhere.

  Every entry of the table is one of 0 … 9. So the normalisation changes nothing, the mask is set at all sixteen joints
  (both checked entry by entry, sixteen computations on 32-bit words), the clamp is the identity, and the result at
  `(n, j, d)` is the argument at `(n, src j, d)`: the specification `Cert.Spec.G`, for any element type.

  The run itself is a straight line of twenty-four operations (the calls replaced by their bodies over the calls' own
  buffers), so every execution terminates with each buffer at the fold of the operations over the launch contents.
-/
import proofs.«217884_g26414048870634_cont_9to1_797_14_alg».proof.Proof.Gen.ReferenceIdeal
import proofs.«217884_g26414048870634_cont_9to1_797_14_alg».proof.Proof.Spec
import Idealize.ShloMosaic.Lib.StableHlo.Run
import Idealize.ShloMosaic.Lib.ValueIdx
import Idealize.ShloMosaic.Lib.Decide

noncomputable section

namespace Cert.ReferenceIdeal.RefValue

open Cert.ReferenceIdeal Idealize.ShloMosaic Idealize.ShloMosaic.TcCoe Idealize.SL.Sem Idealize.ShloMosaic.StableHlo Idealize.ShloMosaic.ValueIdx
open Cert.ReferenceIdeal.Facts₀

variable {F : FTy → Type} [FloatOps F]

/-! ## The run -/

/-- The sixteen start indices as written: the constant table, read in row-major order. -/
abbrev tab0 : IVec S16 32 := fun i => lit0 (S16.rowMajor i)

/-- @main's operations in order, the two calls unfolded: the table, then the callee's twenty-three over the
    call's buffers (the select of the inner call written into its own buffer). -/
abbrev ops : List (HloOp τ sig (Elt F)) :=
  [ nullary main_c tab0,
    TRef.nullary main_call0.c (constantI S_ 32 0#32),
    TRef.unary main_call0.c main_call0.v0 (broadcastInDim S16 ![] bcast_S_S16),
    TRef.binary (.of main_c) main_call0.v0 main_call0.v1 (cmpi .slt),
    TRef.nullary main_call0.c_0 (constantI S_ 32 10#32),
    TRef.unary main_call0.c_0 main_call0.v2 (broadcastInDim S16 ![] bcast_S_S16),
    TRef.binary (.of main_c) main_call0.v2 main_call0.v3 addi,
    TRef.ternary main_call0.v1 main_call0.v3 (.of main_c) main_call0.call0.v0 select,
    TRef.unary main_call0.call0.v0 main_call0.v5 (broadcastInDim S16x1 ![0] bcast_S16_S16x1_0),
    TRef.nullary main_call0.c_1 (constantI S1 32 9#32),
    TRef.nullary main_call0.c_2 (constantI S_ 32 0#32),
    TRef.unary main_call0.c_2 main_call0.v6 (broadcastInDim S16x1 ![] bcast_S_S16x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16x1 ![0, 1] bcast_S1x1_S16x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16x1_S16_d1 h_S_),
    TRef.binary (.of main_arg0) main_call0.v5 main_call0.v13 (fun x i => Host.gather gather_S16384x10x256_S16x1_S16384x16x256_02_1_n_n_1_1_163841256 x i),
    TRef.unary main_call0.v12 main_call0.v14 (broadcastInDim S16384x16x256 ![1] bcast_S16_S16384x16x256_1),
    TRef.nullary main_call0.cst (constant S_ .f32 0x7FC00000#32),
    TRef.unary main_call0.cst main_call0.v15 (broadcastInDim S16384x16x256 ![] bcast_S_S16384x16x256),
    TRef.ternary main_call0.v14 main_call0.v13 main_call0.v15 main_call0.v16 select ]

set_option maxRecDepth 1024 in
/-- @main is that straight line: the two callees' bodies substituted at their calls and sequencing reassociated. -/
theorem main_eq (c : Dev nD) : main (F := F) c = seq ops := by
  simp only [main, fn_take.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..⟩

/-- Every weakly fair execution of @main terminates, each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The result term -/

/-- A start index with a negative value moved up by the axis extent, as `jnp.take` normalises it. -/
def nrm (w : BitVec 32) : BitVec 32 := Scalar.select (IntOp.cmpi .slt w 0#32) (IntOp.addi w 10#32) w

/-- The normalised start indices. -/
def idx4 : IVec S16 32 :=
  select (cmpi .slt tab0 (broadcastInDim S16 ![] bcast_S_S16 (constantI S_ 32 0#32)))
    (addi tab0 (broadcastInDim S16 ![] bcast_S_S16 (constantI S_ 32 10#32))) tab0

/-- The same as a column. -/
def idx5 : IVec S16x1 32 := broadcastInDim S16x1 ![0] bcast_S16_S16x1_0 idx4

/-- Which start indices lie in `[0, 9]`. -/
def inRange : IVec S16x1 1 :=
  andi (cmpi .sge idx5 (broadcastInDim S16x1 ![] bcast_S_S16x1 (constantI S_ 32 0#32)))
    (cmpi .sle idx5 (broadcastInDim S16x1 ![0, 1] bcast_S1x1_S16x1_0_1 (broadcastInDim S1x1 ![1] bcast_S1_S1x1_1 (constantI S1 32 9#32))))

/-- The same reduced along the index vector's axis. -/
def mask : IVec S16 1 := Host.reduce IntOp.andi inRange (constantI S_ 1 1#1) reducesTo_S16x1_S16_d1 h_S_

/-- What @main leaves in its result buffer, as a function of the argument. -/
def out (x : (⟨S16384x10x256, .f32⟩ : BufTy).Contents (Elt F)) : (⟨S16384x16x256, .f32⟩ : BufTy).Contents (Elt F) :=
  select (broadcastInDim S16384x16x256 ![1] bcast_S16_S16384x16x256_1 mask)
    (Host.gather gather_S16384x10x256_S16x1_S16384x16x256_02_1_n_n_1_1_163841256 x idx5)
    (broadcastInDim S16384x16x256 ![] bcast_S_S16384x16x256 (constant S_ .f32 0x7FC00000#32))

-- the fold at the result buffer, read back operation by operation; the typed references' transports are the identity
set_option maxHeartbeats 1000000 in
attribute [local irreducible] Host.reduce Host.gather in
theorem out_eq (V : Valuation τ sig (Elt F)) :
    after ops V (main_v0 : DevRef τ sig) = out (V (main_arg0 : DevRef τ sig)) := by
  after_results
  simp only [TRef.toBuf, TRef.ofBuf, cast_eq]
  rfl

/-- No operation writes the argument. -/
theorem arg0_eq (V : Valuation τ sig (Elt F)) :
    after ops V (main_arg0 : DevRef τ sig) = V (main_arg0 : DevRef τ sig) := by
  after_results
/-! ## The table stages, entry by entry -/

/-- Each table entry, normalised, read signed and clamped into [0, 9], is the part the specification names. -/
theorem nrm_tab (k : Fin 16) : min (nrm (lit0 k)).toInt.toNat 9 = (Cert.Spec.src k).val := by
  revert k; decide

/-- Each normalised table entry lies in [0, 9]. -/
theorem inr_tab (k : Fin 16) :
    IntOp.andi (IntOp.cmpi .sge (nrm (lit0 k)) 0#32) (IntOp.cmpi .sle (nrm (lit0 k)) 9#32) = 1#1 := by
  revert k; decide

/-- The normalised start index at a position is the normalised table entry there. -/
theorem idx4_apply (j : S16.Idx) : idx4 j = nrm (lit0 (j 0)) := by
  have e : S16.rowMajor j = j 0 := Fin.ext (Shape.rowMajor_val_one j)
  show Scalar.select (IntOp.cmpi .slt (lit0 (S16.rowMajor j)) 0#32) (IntOp.addi (lit0 (S16.rowMajor j)) 10#32) (lit0 (S16.rowMajor j)) = _
  rw [e]; rfl

theorem idx5_apply (i : S16x1.Idx) : idx5 i = nrm (lit0 (i 0)) := (idx4_apply _).trans rfl

theorem inRange_apply (i : S16x1.Idx) : inRange i = 1#1 := by
  show IntOp.andi (IntOp.cmpi .sge (idx5 i) 0#32) (IntOp.cmpi .sle (idx5 i) 9#32) = 1#1
  rw [idx5_apply]; exact inr_tab _

/-- A conjunction of ones from one is one. -/
theorem foldl_andi_one {ι : Type} (l : List ι) : l.foldl (fun r _ => IntOp.andi r 1#1) 1#1 = 1#1 := by
  induction l with
  | nil => rfl
  | cons a l ih => exact ih

/-- The mask is set at every joint. -/
theorem mask_apply (j : S16.Idx) : mask j = 1#1 := by
  have e : inRange = fun _ => 1#1 := funext inRange_apply
  unfold mask; rw [e]
  unfold Host.reduce
  exact foldl_andi_one _

/-! ## The gather at an index -/

/-- The gather's dimension numbers. -/
abbrev gd := gather_S16384x10x256_S16x1_S16384x16x256_02_1_n_n_1_1_163841256

theorem start_key (i : S16384x16x256.Idx) (z : S16x1.Idx) (hz : z 0 = i 1) :
    min (idx5 z).toInt.toNat 9 = (Cert.Spec.src (i 1)).val := by
  rw [idx5_apply, hz]; exact nrm_tab _

theorem hb (a : Fin S16384x10x256.rank) : a ∉ gd.operandBatchingDims := List.not_mem_nil

/-- Joint `j` reads its start index at row `j` of the column of start indices. -/
theorem siIdx_zero (i : S16384x16x256.Idx) (c : Fin gd.startIndexMap.length) : gd.siIdx i c 0 = i 1 := Fin.ext rfl

/-- The clamp bound on the middle axis: extent 10, slice size 1. -/
theorem slice_one : S16384x10x256.size 1 - gd.sliceSizes 1 = 9 := rfl

/-- The operand index on the first axis is the result's own coordinate (an offset axis, no start index). -/
theorem coord0 (i : S16384x16x256.Idx) : gd.start i idx5 0 + gd.batchCoord i 0 + gd.offCoord i 0 = (i 0).val := by
  have h0 : (0 : Fin S16384x10x256.rank) ∉ gd.startIndexMap := by decide
  have k0 : (0 : Fin S16384x10x256.rank) ∈ gd.sKept := by decide
  rw [GatherDims.batchCoord_eq_zero _ _ _ (hb 0)]
  unfold GatherDims.start GatherDims.offCoord
  rw [dif_neg h0, dif_pos k0, Nat.zero_add]
  rfl

/-- On the middle axis (collapsed, indexed) it is the clamped start index: the specification's part. -/
theorem coord1 (i : S16384x16x256.Idx) : gd.start i idx5 1 + gd.batchCoord i 1 + gd.offCoord i 1 = (Cert.Spec.src (i 1)).val := by
  have h1 : (1 : Fin S16384x10x256.rank) ∈ gd.startIndexMap := by decide
  have k1 : (1 : Fin S16384x10x256.rank) ∉ gd.sKept := by decide
  rw [GatherDims.batchCoord_eq_zero _ _ _ (hb 1), GatherDims.offCoord_eq_zero _ _ _ k1]
  unfold GatherDims.start
  rw [dif_pos h1, slice_one]
  exact start_key i _ (siIdx_zero i _)

/-- On the last axis it is again the result's own coordinate. -/
theorem coord2 (i : S16384x16x256.Idx) : gd.start i idx5 2 + gd.batchCoord i 2 + gd.offCoord i 2 = (i 2).val := by
  have h2 : (2 : Fin S16384x10x256.rank) ∉ gd.startIndexMap := by decide
  have k2 : (2 : Fin S16384x10x256.rank) ∈ gd.sKept := by decide
  rw [GatherDims.batchCoord_eq_zero _ _ _ (hb 2)]
  unfold GatherDims.start GatherDims.offCoord
  rw [dif_neg h2, dif_pos k2, Nat.zero_add]
  rfl

theorem operandIdx_eq (i : S16384x16x256.Idx) :
    gd.operandIdx i idx5 = ix3 (n0 := 16384) (n1 := 10) (n2 := 256) (i 0) (Cert.Spec.src (i 1)) (i 2) := by
  funext a
  match a with
  | ⟨0, _⟩ => exact Fin.ext (coord0 i)
  | ⟨1, _⟩ => exact Fin.ext (coord1 i)
  | ⟨2, _⟩ => exact Fin.ext (coord2 i)

/-! ## The result is the specification's -/

theorem out_apply (x : (⟨S16384x10x256, .f32⟩ : BufTy).Contents (Elt F)) (i : S16384x16x256.Idx) :
    out x i = Cert.Spec.G x i := by
  show Scalar.select (mask _) (x (gd.operandIdx i idx5)) _ = x (ix3 (n0 := 16384) (n1 := 10) (n2 := 256) (i 0) (Cert.Spec.src (i 1)) (i 2))
  rw [mask_apply, operandIdx_eq]
  exact select_one _ _

theorem out_eq_G (x : (⟨S16384x10x256, .f32⟩ : BufTy).Contents (Elt F)) : out x = Cert.Spec.G x := funext (out_apply x)

/-- On every device, for any element values, from any memory with zero counters: every weakly fair execution of @main
    terminates with the result buffer at the specification's function of the argument and the argument unchanged. -/
theorem run (m : (ℓ : Loc nD τ sig) → Buf (Elt F) ℓ) (ρ : Dev nD → PrngReg) :
    θ_run (defs (F := F)) (onTc (τ := τ) (main (F := F))) ⟨m, fun _ => 0, ρ⟩
      (fun r => ∀ c : Dev nD,
        r.2.mem ((c.tc : Thread nD τ).loc main_v0) = Cert.Spec.G (m ((c.tc : Thread nD τ).loc main_arg0))
        ∧ r.2.mem ((c.tc : Thread nD τ).loc main_arg0) = m ((c.tc : Thread nD τ).loc main_arg0)) :=
  (θ_run defs _ _).mono (fun _ h c => ⟨((h c main_v0).trans (out_eq _)).trans (out_eq_G _), (h c main_arg0).trans (arg0_eq _)⟩)
    (run_main m ρ)

end Cert.ReferenceIdeal.RefValue
end
-- ==== Proof.lean ====
/-
  The claim, assembled. Both printed kernel programs (the word-level one and its reading over the extended reals) are
  one SparseCore call whose thirty-two tiles copy disjoint blocks of 512 samples, joint `j` of the result from part
  `src j` of the argument. For each, the proof of one tile's task and the launch theorem give: every weakly fair run of
  the device's threads ends, the result equal to the specification's function `Cert.Spec.G` of the argument, the argument
  unchanged. The reference is a straight line of host operations whose result is the same function of its argument. The
  three frames are these runs with the result's value forgotten; nothing was rewritten between the two kernel programs,
  so there is nothing to preserve; and at the extended reals the two results are equal because both are `Cert.Spec.G`
  of arguments that agree.
-/
import proofs.«217884_g26414048870634_cont_9to1_797_14_alg».proof.Defs
import proofs.«217884_g26414048870634_cont_9to1_797_14_alg».proof.Proof.Gen.Kernel
import proofs.«217884_g26414048870634_cont_9to1_797_14_alg».proof.Proof.Gen.Kernel.Skeleton
import proofs.«217884_g26414048870634_cont_9to1_797_14_alg».proof.Proof.Gen.KernelIdeal
import proofs.«217884_g26414048870634_cont_9to1_797_14_alg».proof.Proof.Gen.KernelIdeal.Skeleton
import proofs.«217884_g26414048870634_cont_9to1_797_14_alg».proof.Proof.Gen.ReferenceIdeal
import proofs.«217884_g26414048870634_cont_9to1_797_14_alg».proof.Proof.Gen.Pre_finite_inputs
import Idealize.ShloMosaic.Adequacy
import Idealize.ShloMosaic.Init
import proofs.«217884_g26414048870634_cont_9to1_797_14_alg».proof.Proof.LaunchKI
import proofs.«217884_g26414048870634_cont_9to1_797_14_alg».proof.Proof.LaunchKB
import proofs.«217884_g26414048870634_cont_9to1_797_14_alg».proof.Proof.BodyKI
import proofs.«217884_g26414048870634_cont_9to1_797_14_alg».proof.Proof.BodyKB
import proofs.«217884_g26414048870634_cont_9to1_797_14_alg».proof.Proof.RefRun

noncomputable section

namespace Cert.Proof

open Idealize.ShloMosaic Idealize.SL.Sem

/-- The word-level kernel's frame: its run, the result's value forgotten. -/
theorem frame_Kernel : Cert.frame_Kernel := fun m g _ =>
  (θ_run Cert.Kernel.defs _ _).mono (fun _ h c => (h c).2) (KB.run_main (F := Bits) m g (KB.tileObl (F := Bits) m))

/-- The idealized kernel's frame: likewise, over the extended reals. -/
theorem frame_KernelIdeal : Cert.frame_KernelIdeal := fun m g _ =>
  (θ_run Cert.KernelIdeal.defs _ _).mono (fun _ h c => (h c).2) (KI.run_main (F := Ideal) m g (KI.tileObl (F := Ideal) m))

/-- The reference's frame: its run, the result's value forgotten. -/
theorem frame_ReferenceIdeal : Cert.frame_ReferenceIdeal := fun m g _ =>
  (θ_run Cert.ReferenceIdeal.defs _ _).mono (fun _ h c => (h c).2) (Cert.ReferenceIdeal.RefValue.run (F := Ideal) m g)

/-- The idealized program is the word-level program's own text: no operation was rewritten. -/
theorem preserves : Cert.preserves_Kernel_KernelIdeal := trivial

/-- Over the extended reals both programs end with the specification's function of the argument in the result: the
    kernel's of its own argument, the reference's of its own, and the two arguments agree. -/
theorem algebraic : Cert.algebraic_KernelIdeal_ReferenceIdeal := by
  intro m g m' g' _ hagree
  refine ⟨fun c => Cert.Spec.G (m ((c.tc : Thread Cert.KernelIdeal.nD Cert.KernelIdeal.τ).loc Cert.KernelIdeal.main_arg0)),
    (θ_run Cert.KernelIdeal.defs _ _).mono (fun _ h c => h c) (KI.run_main (F := Ideal) m g (KI.tileObl (F := Ideal) m)), ?_⟩
  refine (θ_run Cert.ReferenceIdeal.defs _ _).mono (fun _ h c => ⟨(h c).1.trans ?_, (h c).2⟩)
    (Cert.ReferenceIdeal.RefValue.run (F := Ideal) m' g')
  exact congrArg Cert.Spec.G (hagree c)

/-- `Cert.Claim`. -/
theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
